-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part3 {F : FTy → Type} [FloatOps F] (main_arg12 : FVec F S3x128x128 .f32) (main_arg13 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg12
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  main_v63

def fn_part2 {F : FTy → Type} [FloatOps F] (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x256x128 .f32 := Host.absf main_arg10
  let main_cst_16 : FVec F S_ .f32 := constant S_ .f32 0x7F800000#32
  let main_v45 : FVec F S3x256x128 .f32 := broadcastInDim S3x256x128 ![] bcast_S_S3x256x128 main_cst_16
  let main_v46 : IVec S3x256x128 1 := cmpf .olt main_v44 main_v45
  let main_c_17 : IVec S_ 1 := constantI S_ 1 1#1
  let main_v47 : IVec S_ 1 := (fun x v => Host.reduce IntOp.andi x v reducesTo_S3x256x128_S_d0_1_2 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg12 main_arg13 main_v48 main_v49 main_v50

def fn_part1 {F : FTy → Type} [FloatOps F] (main_arg5 : FVec F S3 .f32) (main_arg6 : FVec F S3x256x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x16 .f32) (main_arg1 : IVec S2x800000 32) (main_arg2 : FVec F S16x128 .f32) (main_arg3 : FVec F S128 .f32) (main_arg4 : FVec F S128x3 .f32) (main_arg5 : FVec F S3 .f32) (main_arg6 : FVec F S3x256x128 .f32) (main_arg7 : FVec F S3x128 .f32) (main_arg8 : FVec F S3x128x128 .f32) (main_arg9 : FVec F S3x128 .f32) (main_arg10 : FVec F S3x256x128 .f32) (main_arg11 : FVec F S3x128 .f32) (main_arg12 : FVec F S3x128x128 .f32) (main_arg13 : FVec F S3x128 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg4
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg5 main_arg6 main_arg7 main_arg8 main_arg9 main_arg10 main_arg11 main_arg12 main_arg13 main_v13 main_v16
-- ==== Kernel.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S8000x128 : Shape := ⟨2, ![8000, 128]⟩
abbrev S50000x3 : Shape := ⟨2, ![50000, 3]⟩
abbrev S1x3 : Shape := ⟨2, ![1, 3]⟩

abbrev nBuf : Space → Nat
  | .hbm => 194
  | .vmem => 84
  | .smem => 0
  | _ => 0

abbrev hbmTy0_0 (i : Nat) : BufTy := match i % 128 with
  | 0 => ⟨S50000x16, .f32⟩
  | 1 => ⟨S2x800000, .i32⟩
  | 2 => ⟨S16x128, .f32⟩
  | 3 => ⟨S128, .f32⟩
  | 4 => ⟨S128x3, .f32⟩
  | 5 => ⟨S3, .f32⟩
  | 6 => ⟨S3x256x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S1x128, .f32⟩
  | 20 => ⟨S50000x128, .f32⟩
  | 21 => ⟨S50000x128, .f32⟩
  | 22 => ⟨S1x128x128, .f32⟩
  | 23 => ⟨S128x128, .f32⟩
  | 24 => ⟨S128x128, .bf16⟩
  | 25 => ⟨S1x128x128, .f32⟩
  | 26 => ⟨S128x128, .f32⟩
  | 27 => ⟨S128x128, .bf16⟩
  | 28 => ⟨S1x128, .f32⟩
  | 29 => ⟨S128, .f32⟩
  | 30 => ⟨S1x128, .f32⟩
  | 31 => ⟨S1x128x128, .f32⟩
  | 32 => ⟨S128x128, .f32⟩
  | 33 => ⟨S128x128, .bf16⟩
  | 34 => ⟨S1x128, .f32⟩
  | 35 => ⟨S128, .f32⟩
  | 36 => ⟨S1x128, .f32⟩
  | 37 => ⟨S50000x128, .bf16⟩
  | 38 => ⟨S50000x128, .bf16⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .bf16⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .bf16⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1x128x128, .f32⟩
  | 63 => ⟨S128x128, .f32⟩
  | 64 => ⟨S128x128, .bf16⟩
  | 65 => ⟨S1x128x128, .f32⟩
  | 66 => ⟨S128x128, .f32⟩
  | 67 => ⟨S128x128, .bf16⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S128x128, .bf16⟩
  | 74 => ⟨S1x128, .f32⟩
  | 75 => ⟨S128, .f32⟩
  | 76 => ⟨S1x128, .f32⟩
  | 77 => ⟨S50000x128, .f32⟩
  | 78 => ⟨S1x128x128, .f32⟩
  | 79 => ⟨S128x128, .f32⟩
  | 80 => ⟨S128x128, .bf16⟩
  | 81 => ⟨S1x128x128, .f32⟩
  | 82 => ⟨S128x128, .f32⟩
  | 83 => ⟨S128x128, .bf16⟩
  | 84 => ⟨S1x128, .f32⟩
  | 85 => ⟨S128, .f32⟩
  | 86 => ⟨S1x128, .f32⟩
  | 87 => ⟨S1x128x128, .f32⟩
  | 88 => ⟨S128x128, .f32⟩
  | 89 => ⟨S128x128, .bf16⟩
  | 90 => ⟨S1x128, .f32⟩
  | 91 => ⟨S128, .f32⟩
  | 92 => ⟨S1x128, .f32⟩
  | 93 => ⟨S50000x128, .bf16⟩
  | 94 => ⟨S50000x128, .bf16⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .bf16⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .bf16⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S1x128x128, .f32⟩
  | 119 => ⟨S128x128, .f32⟩
  | 120 => ⟨S128x128, .bf16⟩
  | 121 => ⟨S1x128x128, .f32⟩
  | 122 => ⟨S128x128, .f32⟩
  | 123 => ⟨S128x128, .bf16⟩
  | 124 => ⟨S1x128, .f32⟩
  | 125 => ⟨S128, .f32⟩
  | 126 => ⟨S1x128, .f32⟩
  | 127 => ⟨S1x128x128, .f32⟩
  | _ => ⟨S50000x16, .f32⟩

abbrev hbmTy0_1 (i : Nat) : BufTy := match i % 128 with
  | 0 => ⟨S128x128, .f32⟩
  | 1 => ⟨S128x128, .bf16⟩
  | 2 => ⟨S1x128, .f32⟩
  | 3 => ⟨S128, .f32⟩
  | 4 => ⟨S1x128, .f32⟩
  | 5 => ⟨S50000x128, .f32⟩
  | 6 => ⟨S1x128x128, .f32⟩
  | 7 => ⟨S128x128, .f32⟩
  | 8 => ⟨S128x128, .bf16⟩
  | 9 => ⟨S1x128x128, .f32⟩
  | 10 => ⟨S128x128, .f32⟩
  | 11 => ⟨S128x128, .bf16⟩
  | 12 => ⟨S1x128, .f32⟩
  | 13 => ⟨S128, .f32⟩
  | 14 => ⟨S1x128, .f32⟩
  | 15 => ⟨S1x128x128, .f32⟩
  | 16 => ⟨S128x128, .f32⟩
  | 17 => ⟨S128x128, .bf16⟩
  | 18 => ⟨S1x128, .f32⟩
  | 19 => ⟨S128, .f32⟩
  | 20 => ⟨S1x128, .f32⟩
  | 21 => ⟨S50000x128, .bf16⟩
  | 22 => ⟨S50000x128, .bf16⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .bf16⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .bf16⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128x128, .f32⟩
  | 47 => ⟨S128x128, .f32⟩
  | 48 => ⟨S128x128, .bf16⟩
  | 49 => ⟨S1x128x128, .f32⟩
  | 50 => ⟨S128x128, .f32⟩
  | 51 => ⟨S128x128, .bf16⟩
  | 52 => ⟨S1x128, .f32⟩
  | 53 => ⟨S128, .f32⟩
  | 54 => ⟨S1x128, .f32⟩
  | 55 => ⟨S1x128x128, .f32⟩
  | 56 => ⟨S128x128, .f32⟩
  | 57 => ⟨S128x128, .bf16⟩
  | 58 => ⟨S1x128, .f32⟩
  | 59 => ⟨S128, .f32⟩
  | 60 => ⟨S1x128, .f32⟩
  | 61 => ⟨S50000x128, .f32⟩
  | 62 => ⟨S50000x3, .f32⟩
  | 63 => ⟨S1x3, .f32⟩
  | 64 => ⟨S50000x3, .f32⟩
  | 65 => ⟨S50000x3, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128x128, .bf16⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S8000x128, .bf16⟩
  | .local _ .vmem, ⟨9, _⟩ => ⟨S8000x128, .bf16⟩
  | .local _ .vmem, ⟨10, _⟩ => ⟨S8000x128, .bf16⟩
  | .local _ .vmem, ⟨11, _⟩ => ⟨S8000x128, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .bf16⟩
  | .local _ .vmem, ⟨22, _⟩ => ⟨S128x128, .bf16⟩
  | .local _ .vmem, ⟨23, _⟩ => ⟨S1x128, .f32⟩
  | .local _ .vmem, ⟨24, _⟩ => ⟨S128x128, .bf16⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .bf16⟩
  | .local _ .vmem, ⟨31, _⟩ => ⟨S128x128, .bf16⟩
  | .local _ .vmem, ⟨32, _⟩ => ⟨S5000x128, .bf16⟩
  | .local _ .vmem, ⟨33, _⟩ => ⟨S5000x128, .bf16⟩
  | .local _ .vmem, ⟨34, _⟩ => ⟨S5000x128, .bf16⟩
  | .local _ .vmem, ⟨35, _⟩ => ⟨S5000x128, .bf16⟩
  | .local _ .vmem, ⟨36, _⟩ => ⟨S8000x128, .bf16⟩
  | .local _ .vmem, ⟨37, _⟩ => ⟨S8000x128, .bf16⟩
  | .local _ .vmem, ⟨38, _⟩ => ⟨S8000x128, .bf16⟩
  | .local _ .vmem, ⟨39, _⟩ => ⟨S8000x128, .bf16⟩
  | .local _ .vmem, ⟨40, _⟩ => ⟨S1x128, .f32⟩
  | .local _ .vmem, ⟨41, _⟩ => ⟨S128x128, .bf16⟩
  | .local _ .vmem, ⟨42, _⟩ => ⟨S1x128, .f32⟩
  | .local _ .vmem, ⟨43, _⟩ => ⟨S8000x128, .f32⟩
  | .local _ .vmem, ⟨44, _⟩ => ⟨S8000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .bf16⟩
  | .local _ .vmem, ⟨50, _⟩ => ⟨S128x128, .bf16⟩
  | .local _ .vmem, ⟨51, _⟩ => ⟨S1x128, .f32⟩
  | .local _ .vmem, ⟨52, _⟩ => ⟨S128x128, .bf16⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .bf16⟩
  | .local _ .vmem, ⟨59, _⟩ => ⟨S128x128, .bf16⟩
  | .local _ .vmem, ⟨60, _⟩ => ⟨S5000x128, .bf16⟩
  | .local _ .vmem, ⟨61, _⟩ => ⟨S5000x128, .bf16⟩
  | .local _ .vmem, ⟨62, _⟩ => ⟨S5000x128, .bf16⟩
  | .local _ .vmem, ⟨63, _⟩ => ⟨S5000x128, .bf16⟩
  | .local _ .vmem, ⟨64, _⟩ => ⟨S8000x128, .bf16⟩
  | .local _ .vmem, ⟨65, _⟩ => ⟨S8000x128, .bf16⟩
  | .local _ .vmem, ⟨66, _⟩ => ⟨S8000x128, .bf16⟩
  | .local _ .vmem, ⟨67, _⟩ => ⟨S8000x128, .bf16⟩
  | .local _ .vmem, ⟨68, _⟩ => ⟨S1x128, .f32⟩
  | .local _ .vmem, ⟨69, _⟩ => ⟨S128x128, .bf16⟩
  | .local _ .vmem, ⟨70, _⟩ => ⟨S1x128, .f32⟩
  | .local _ .vmem, ⟨71, _⟩ => ⟨S8000x128, .f32⟩
  | .local _ .vmem, ⟨72, _⟩ => ⟨S8000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S128x128, .bf16⟩
  | .local _ .vmem, ⟨78, _⟩ => ⟨S128x128, .bf16⟩
  | .local _ .vmem, ⟨79, _⟩ => ⟨S1x128, .f32⟩
  | .local _ .vmem, ⟨80, _⟩ => ⟨S128x128, .bf16⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73_0 : Ref sig .tc := ⟨.hbm, 93, rfl⟩
abbrev main_v73_1 : Ref sig .tc := ⟨.hbm, 94, rfl⟩
abbrev main_c_3 : Ref sig .tc := ⟨.hbm, 95, rfl⟩
abbrev main_v74 : Ref sig .tc := ⟨.hbm, 96, rfl⟩
abbrev main_v75 : Ref sig .tc := ⟨.hbm, 97, rfl⟩
abbrev main_c_4 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_5 : Ref sig .tc := ⟨.hbm, 104, rfl⟩
abbrev main_v81 : Ref sig .tc := ⟨.hbm, 105, rfl⟩
abbrev main_v82 : Ref sig .tc := ⟨.hbm, 106, rfl⟩
abbrev main_c_6 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_7 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123_0 : Ref sig .tc := ⟨.hbm, 149, rfl⟩
abbrev main_v123_1 : Ref sig .tc := ⟨.hbm, 150, rfl⟩
abbrev main_c_8 : Ref sig .tc := ⟨.hbm, 151, rfl⟩
abbrev main_v124 : Ref sig .tc := ⟨.hbm, 152, rfl⟩
abbrev main_v125 : Ref sig .tc := ⟨.hbm, 153, rfl⟩
abbrev main_c_9 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_c_10 : Ref sig .tc := ⟨.hbm, 160, rfl⟩
abbrev main_v131 : Ref sig .tc := ⟨.hbm, 161, rfl⟩
abbrev main_v132 : Ref sig .tc := ⟨.hbm, 162, rfl⟩
abbrev main_c_11 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_12 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg5_0 : Ref sig .tc := ⟨.vmem, 71, rfl⟩
abbrev cc7_stg5_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg7_0 : Ref sig .tc := ⟨.vmem, 82, rfl⟩
abbrev cc8_stg7_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc6_sem4_0 : DmaSem sig := 62
abbrev cc6_sem4_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem3_0 : DmaSem sig := 69
abbrev cc7_sem4_0 : DmaSem sig := 70
abbrev cc7_sem5_0 : DmaSem sig := 71
abbrev cc7_sem5_1 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem7_1 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x256x128_S1x128x128_0_0_0 : S3x256x128.Slices ![0, 0, 0] S1x128x128
  shapeCasts_S1x128x128_S128x128 : S1x128x128.ShapeCasts S128x128
  bitsLt_bf16_f32 : FTy.bits .bf16 < FTy.bits .f32
  slices_S3x256x128_S1x128x128_0_128_0 : S3x256x128.Slices ![0, 128, 0] S1x128x128
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  broadcasts_S1x128_S5000x128 : S1x128.Broadcasts S5000x128
  slices_S3x256x128_S1x128x128_1_0_0 : S3x256x128.Slices ![1, 0, 0] S1x128x128
  slices_S3x256x128_S1x128x128_1_128_0 : S3x256x128.Slices ![1, 128, 0] S1x128x128
  slices_S3x128_S1x128_1_0 : S3x128.Slices ![1, 0] S1x128
  slices_S3x128x128_S1x128x128_1_0_0 : S3x128x128.Slices ![1, 0, 0] S1x128x128
  slices_S3x256x128_S1x128x128_2_0_0 : S3x256x128.Slices ![2, 0, 0] S1x128x128
  slices_S3x256x128_S1x128x128_2_128_0 : S3x256x128.Slices ![2, 128, 0] S1x128x128
  slices_S3x128_S1x128_2_0 : S3x128.Slices ![2, 0] S1x128
  slices_S3x128x128_S1x128x128_2_0_0 : S3x128x128.Slices ![2, 0, 0] S1x128x128
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x16_S16x128_S50000x128_1_0_0_1_n_n_wf : DotDims.WF S50000x16 S16x128 S50000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S50000x128_S128x3_S50000x3_1_0_0_1_n_n_wf : DotDims.WF S50000x128 S128x3 S50000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .bf16 = 32 ∨ (Rect.block (s := S800000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .bf16 = 32 ∨ (Rect.block (s := S800000x128) S8000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .bf16 = 32 ∨ (Rect.block (s := S50000x128) S5000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .bf16 = 32 ∨ (Rect.block (s := S800000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .bf16 = 32 ∨ (Rect.block (s := S800000x128) S8000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S800000x128.size a
  hwx4_5 : ∀ i : grid4.Coords, EltTy.bits .f32 = 32 ∨ (Rect.block (s := S800000x128) S8000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .bf16 = 32 ∨ (Rect.block (s := S50000x128) S5000x128.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .bf16 = 32 ∨ (Rect.block (s := S50000x128) S5000x128.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S800000x128.size a
  hwx7_0 : ∀ i : grid7.Coords, EltTy.bits .bf16 = 32 ∨ (Rect.block (s := S800000x128) S8000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x128.size a ≤ S800000x128.size a
  hwx7_1 : ∀ i : grid7.Coords, EltTy.bits .bf16 = 32 ∨ (Rect.block (s := S800000x128) S8000x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .bf16 = 32 ∨ (Rect.block (s := S128x128) S128x128.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x128.size a ≤ S800000x128.size a
  hwx7_5 : ∀ i : grid7.Coords, EltTy.bits .f32 = 32 ∨ (Rect.block (s := S800000x128) S8000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .bf16 = 32 ∨ (Rect.block (s := S128x128) S128x128.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .bf16 = 32 ∨ (Rect.block (s := S128x128) S128x128.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .bf16 = 32 ∨ (Rect.block (s := S128x128) S128x128.size (cc8_transform_5 i) (hinb8_5 i)).WholeWords (EltTy.packing .bf16)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

abbrev win0_0 : Pipeline.Window sig grid0 :=
  Pipeline.Window.ofSpec (Memref.whole main_v7) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v73_1) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v107) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v107) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v110) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v113) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v123_1) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v130) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v137) S8000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v116) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v119) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v138) S8000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v107) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v144) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v147) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v150) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v153) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v156) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v157) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S128x3 : Shape := ⟨2, ![128, 3]⟩
abbrev S3 : Shape := ⟨1, ![3]⟩
abbrev S3x256x128 : Shape := ⟨3, ![3, 256, 128]⟩
abbrev S3x128 : Shape := ⟨2, ![3, 128]⟩
abbrev S3x128x128 : Shape := ⟨3, ![3, 128, 128]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S50000x256 : Shape := ⟨2, ![50000, 256]⟩
abbrev S50000x3 : Shape := ⟨2, ![50000, 3]⟩
abbrev S1x3 : Shape := ⟨2, ![1, 3]⟩

abbrev nBuf : Space → Nat
  | .hbm => 215
  | .vmem => 0
  | .smem => 0
  | _ => 0

abbrev hbmTy0_0 (i : Nat) : BufTy := match i % 128 with
  | 0 => ⟨S50000x16, .f32⟩
  | 1 => ⟨S2x800000, .i32⟩
  | 2 => ⟨S16x128, .f32⟩
  | 3 => ⟨S128, .f32⟩
  | 4 => ⟨S128x3, .f32⟩
  | 5 => ⟨S3, .f32⟩
  | 6 => ⟨S3x256x128, .f32⟩
  | 7 => ⟨S3x128, .f32⟩
  | 8 => ⟨S3x128x128, .f32⟩
  | 9 => ⟨S3x128, .f32⟩
  | 10 => ⟨S3x256x128, .f32⟩
  | 11 => ⟨S3x128, .f32⟩
  | 12 => ⟨S3x128x128, .f32⟩
  | 13 => ⟨S3x128, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x256, .f32⟩
  | 41 => ⟨S1x256x128, .f32⟩
  | 42 => ⟨S256x128, .f32⟩
  | 43 => ⟨S800000x128, .f32⟩
  | 44 => ⟨S1x128, .f32⟩
  | 45 => ⟨S128, .f32⟩
  | 46 => ⟨S1x128, .f32⟩
  | 47 => ⟨S800000x128, .f32⟩
  | 48 => ⟨S800000x128, .f32⟩
  | 49 => ⟨S_, .f32⟩
  | 50 => ⟨S800000x128, .f32⟩
  | 51 => ⟨S800000x128, .f32⟩
  | 52 => ⟨S1x128x128, .f32⟩
  | 53 => ⟨S128x128, .f32⟩
  | 54 => ⟨S800000x128, .f32⟩
  | 55 => ⟨S1x128, .f32⟩
  | 56 => ⟨S128, .f32⟩
  | 57 => ⟨S1x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x256, .f32⟩
  | 65 => ⟨S1x256x128, .f32⟩
  | 66 => ⟨S256x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x256, .f32⟩
  | 104 => ⟨S1x256x128, .f32⟩
  | 105 => ⟨S256x128, .f32⟩
  | 106 => ⟨S800000x128, .f32⟩
  | 107 => ⟨S1x128, .f32⟩
  | 108 => ⟨S128, .f32⟩
  | 109 => ⟨S1x128, .f32⟩
  | 110 => ⟨S800000x128, .f32⟩
  | 111 => ⟨S800000x128, .f32⟩
  | 112 => ⟨S_, .f32⟩
  | 113 => ⟨S800000x128, .f32⟩
  | 114 => ⟨S800000x128, .f32⟩
  | 115 => ⟨S1x128x128, .f32⟩
  | 116 => ⟨S128x128, .f32⟩
  | 117 => ⟨S800000x128, .f32⟩
  | 118 => ⟨S1x128, .f32⟩
  | 119 => ⟨S128, .f32⟩
  | 120 => ⟨S1x128, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000x256, .f32⟩
  | _ => ⟨S50000x16, .f32⟩

abbrev hbmTy0_1 (i : Nat) : BufTy := match i % 128 with
  | 0 => ⟨S1x256x128, .f32⟩
  | 1 => ⟨S256x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x256, .f32⟩
  | 39 => ⟨S1x256x128, .f32⟩
  | 40 => ⟨S256x128, .f32⟩
  | 41 => ⟨S800000x128, .f32⟩
  | 42 => ⟨S1x128, .f32⟩
  | 43 => ⟨S128, .f32⟩
  | 44 => ⟨S1x128, .f32⟩
  | 45 => ⟨S800000x128, .f32⟩
  | 46 => ⟨S800000x128, .f32⟩
  | 47 => ⟨S_, .f32⟩
  | 48 => ⟨S800000x128, .f32⟩
  | 49 => ⟨S800000x128, .f32⟩
  | 50 => ⟨S1x128x128, .f32⟩
  | 51 => ⟨S128x128, .f32⟩
  | 52 => ⟨S800000x128, .f32⟩
  | 53 => ⟨S1x128, .f32⟩
  | 54 => ⟨S128, .f32⟩
  | 55 => ⟨S1x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x256, .f32⟩
  | 63 => ⟨S1x256x128, .f32⟩
  | 64 => ⟨S256x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S50000x128, .f32⟩
  | 83 => ⟨S50000x3, .f32⟩
  | 84 => ⟨S1x3, .f32⟩
  | 85 => ⟨S50000x3, .f32⟩
  | 86 => ⟨S50000x3, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_5 : Ref sig .tc := ⟨.hbm, 85, rfl⟩
abbrev main_v64 : Ref sig .tc := ⟨.hbm, 86, rfl⟩
abbrev main_v65 : Ref sig .tc := ⟨.hbm, 87, rfl⟩
abbrev main_c_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_7 : Ref sig .tc := ⟨.hbm, 94, rfl⟩
abbrev main_v71 : Ref sig .tc := ⟨.hbm, 95, rfl⟩
abbrev main_v72 : Ref sig .tc := ⟨.hbm, 96, rfl⟩
abbrev main_c_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_10 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_11 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_12 : Ref sig .tc := ⟨.hbm, 148, rfl⟩
abbrev main_v120 : Ref sig .tc := ⟨.hbm, 149, rfl⟩
abbrev main_v121 : Ref sig .tc := ⟨.hbm, 150, rfl⟩
abbrev main_c_13 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_c_14 : Ref sig .tc := ⟨.hbm, 157, rfl⟩
abbrev main_v127 : Ref sig .tc := ⟨.hbm, 158, rfl⟩
abbrev main_v128 : Ref sig .tc := ⟨.hbm, 159, rfl⟩
abbrev main_c_15 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_16 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_17 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_cst_18 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x16_S16x128_S50000x128_1_0_0_1_n_n_wf : DotDims.WF S50000x16 S16x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.ChainKeep.lean ====
/-
  Buffers that a segment does not write keep their contents through it.

  Each stretch of host operations writes a known list of buffers; every other buffer reads after the stretch
  what it read before. A kernel launch changes only its output arrays: a buffer that is none of its arrays, and
  an array it only reads, are left as entered. Chaining these steps carries a value computed early (the edge
  index vectors, the node features, a layer's weights) to the later segment that consumes it.
-/
import proofs.«134322_j88562225643709_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The buffers host stretch 0 writes. -/
abbrev HW0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22]
theorem hostOps0_writes : (hostOps0 : List (HloOp τ sig (Elt Ideal))).Forall fun op => op.writes ⊆ (HW0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 0 does not write reads after it what it read before. -/
theorem keepH0 (b : Ref sig .tc) (h : b ∉ HW0) : W1 m ρ c (Proc.devRef .tc b) = W0 m ρ c (Proc.devRef .tc b) :=
  StableHlo.after_of_writes_sub hostOps0 _ hostOps0_writes h

/-- The buffers host stretch 1 writes. -/
abbrev HW1 : List (Ref sig .tc) := [main_c, main_v24, main_v25, main_c_0, main_v26, main_v27, main_v28, main_v29, main_v30, main_c_1, main_v31, main_v32, main_c_2, main_v33, main_v34, main_v35, main_v36, main_v37]
theorem hostOps1_writes : (hostOps1 : List (HloOp τ sig (Elt Ideal))).Forall fun op => op.writes ⊆ (HW1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 1 does not write reads after it what it read before. -/
theorem keepH1 (b : Ref sig .tc) (h : b ∉ HW1) : W3 m ρ c (Proc.devRef .tc b) = W2 m ρ c (Proc.devRef .tc b) :=
  StableHlo.after_of_writes_sub hostOps1 _ hostOps1_writes h

/-- The buffers host stretch 2 writes. -/
abbrev HW2 : List (Ref sig .tc) := [main_cst, main_v39, main_v40, main_v41, main_v42, main_v43, main_v44, main_v45, main_v46, main_v47, main_v48, main_v49, main_v50, main_v51, main_v52, main_v53, main_v54, main_v55, main_v56]
theorem hostOps2_writes : (hostOps2 : List (HloOp τ sig (Elt Ideal))).Forall fun op => op.writes ⊆ (HW2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 2 does not write reads after it what it read before. -/
theorem keepH2 (b : Ref sig .tc) (h : b ∉ HW2) : W5 m ρ c (Proc.devRef .tc b) = W4 m ρ c (Proc.devRef .tc b) :=
  StableHlo.after_of_writes_sub hostOps2 _ hostOps2_writes h

/-- The buffers host stretch 3 writes. -/
abbrev HW3 : List (Ref sig .tc) := [main_v58, main_v59, main_v60, main_v61, main_v62, main_v63, main_v64, main_v65, main_v66, main_v67, main_v68, main_v69, main_v70, main_v71, main_v72]
theorem hostOps3_writes : (hostOps3 : List (HloOp τ sig (Elt Ideal))).Forall fun op => op.writes ⊆ (HW3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 3 does not write reads after it what it read before. -/
theorem keepH3 (b : Ref sig .tc) (h : b ∉ HW3) : W7 m ρ c (Proc.devRef .tc b) = W6 m ρ c (Proc.devRef .tc b) :=
  StableHlo.after_of_writes_sub hostOps3 _ hostOps3_writes h

/-- The buffers host stretch 4 writes. -/
abbrev HW4 : List (Ref sig .tc) := [main_c_3, main_v74, main_v75, main_c_4, main_v76, main_v77, main_v78, main_v79, main_v80, main_c_5, main_v81, main_v82, main_c_6, main_v83, main_v84, main_v85, main_v86, main_v87]
theorem hostOps4_writes : (hostOps4 : List (HloOp τ sig (Elt Ideal))).Forall fun op => op.writes ⊆ (HW4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 4 does not write reads after it what it read before. -/
theorem keepH4 (b : Ref sig .tc) (h : b ∉ HW4) : W9 m ρ c (Proc.devRef .tc b) = W8 m ρ c (Proc.devRef .tc b) :=
  StableHlo.after_of_writes_sub hostOps4 _ hostOps4_writes h

/-- The buffers host stretch 5 writes. -/
abbrev HW5 : List (Ref sig .tc) := [main_cst_7, main_v89, main_v90, main_v91, main_v92, main_v93, main_v94, main_v95, main_v96, main_v97, main_v98, main_v99, main_v100, main_v101, main_v102, main_v103, main_v104, main_v105, main_v106]
theorem hostOps5_writes : (hostOps5 : List (HloOp τ sig (Elt Ideal))).Forall fun op => op.writes ⊆ (HW5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 5 does not write reads after it what it read before. -/
theorem keepH5 (b : Ref sig .tc) (h : b ∉ HW5) : W11 m ρ c (Proc.devRef .tc b) = W10 m ρ c (Proc.devRef .tc b) :=
  StableHlo.after_of_writes_sub hostOps5 _ hostOps5_writes h

/-- The buffers host stretch 6 writes. -/
abbrev HW6 : List (Ref sig .tc) := [main_v108, main_v109, main_v110, main_v111, main_v112, main_v113, main_v114, main_v115, main_v116, main_v117, main_v118, main_v119, main_v120, main_v121, main_v122]
theorem hostOps6_writes : (hostOps6 : List (HloOp τ sig (Elt Ideal))).Forall fun op => op.writes ⊆ (HW6.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 6 does not write reads after it what it read before. -/
theorem keepH6 (b : Ref sig .tc) (h : b ∉ HW6) : W13 m ρ c (Proc.devRef .tc b) = W12 m ρ c (Proc.devRef .tc b) :=
  StableHlo.after_of_writes_sub hostOps6 _ hostOps6_writes h

/-- The buffers host stretch 7 writes. -/
abbrev HW7 : List (Ref sig .tc) := [main_c_8, main_v124, main_v125, main_c_9, main_v126, main_v127, main_v128, main_v129, main_v130, main_c_10, main_v131, main_v132, main_c_11, main_v133, main_v134, main_v135, main_v136, main_v137]
theorem hostOps7_writes : (hostOps7 : List (HloOp τ sig (Elt Ideal))).Forall fun op => op.writes ⊆ (HW7.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 7 does not write reads after it what it read before. -/
theorem keepH7 (b : Ref sig .tc) (h : b ∉ HW7) : W15 m ρ c (Proc.devRef .tc b) = W14 m ρ c (Proc.devRef .tc b) :=
  StableHlo.after_of_writes_sub hostOps7 _ hostOps7_writes h

/-- The buffers host stretch 8 writes. -/
abbrev HW8 : List (Ref sig .tc) := [main_cst_12, main_v139, main_v140, main_v141, main_v142, main_v143, main_v144, main_v145, main_v146, main_v147, main_v148, main_v149, main_v150, main_v151, main_v152, main_v153, main_v154, main_v155, main_v156]
theorem hostOps8_writes : (hostOps8 : List (HloOp τ sig (Elt Ideal))).Forall fun op => op.writes ⊆ (HW8.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 8 does not write reads after it what it read before. -/
theorem keepH8 (b : Ref sig .tc) (h : b ∉ HW8) : W17 m ρ c (Proc.devRef .tc b) = W16 m ρ c (Proc.devRef .tc b) :=
  StableHlo.after_of_writes_sub hostOps8 _ hostOps8_writes h

/-- The buffers host stretch 9 writes. -/
abbrev HW9 : List (Ref sig .tc) := [main_v158, main_v159, main_v160, main_v161]
theorem hostOps9_writes : (hostOps9 : List (HloOp τ sig (Elt Ideal))).Forall fun op => op.writes ⊆ (HW9.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer host stretch 9 does not write reads after it what it read before. -/
theorem keepH9 (b : Ref sig .tc) (h : b ∉ HW9) : W19 m ρ c (Proc.devRef .tc b) = W18 m ρ c (Proc.devRef .tc b) :=
  StableHlo.after_of_writes_sub hostOps9 _ hostOps9_writes h

/-! ## Values carried from where they are computed to where they are consumed -/

theorem carry_v1_1_2 : W2 m ρ c (Proc.devRef .tc main_v1) = W1 m ρ c (Proc.devRef .tc main_v1) :=
  (W2_of_ne m ρ c main_v1 (by decide))
theorem carry_v1_1_8 : W8 m ρ c (Proc.devRef .tc main_v1) = W1 m ρ c (Proc.devRef .tc main_v1) :=
  ((W8_of_ne m ρ c main_v1 (by decide)).trans ((keepH3 m ρ c main_v1 (by decide)).trans ((W6_of_ne m ρ c main_v1 (by decide)).trans ((keepH2 m ρ c main_v1 (by decide)).trans ((W4_of_ne m ρ c main_v1 (by decide)).trans ((keepH1 m ρ c main_v1 (by decide)).trans (carry_v1_1_2 m ρ c)))))))
theorem carry_v1_1_14 : W14 m ρ c (Proc.devRef .tc main_v1) = W1 m ρ c (Proc.devRef .tc main_v1) :=
  ((W14_of_ne m ρ c main_v1 (by decide)).trans ((keepH6 m ρ c main_v1 (by decide)).trans ((W12_of_ne m ρ c main_v1 (by decide)).trans ((keepH5 m ρ c main_v1 (by decide)).trans ((W10_of_ne m ρ c main_v1 (by decide)).trans ((keepH4 m ρ c main_v1 (by decide)).trans (carry_v1_1_8 m ρ c)))))))
theorem carry_v3_1_2 : W2 m ρ c (Proc.devRef .tc main_v3) = W1 m ρ c (Proc.devRef .tc main_v3) :=
  (W2_of_ne m ρ c main_v3 (by decide))
theorem carry_v3_1_4 : W4 m ρ c (Proc.devRef .tc main_v3) = W1 m ρ c (Proc.devRef .tc main_v3) :=
  ((W4_of_ne m ρ c main_v3 (by decide)).trans ((keepH1 m ρ c main_v3 (by decide)).trans (carry_v3_1_2 m ρ c)))
theorem carry_v3_1_8 : W8 m ρ c (Proc.devRef .tc main_v3) = W1 m ρ c (Proc.devRef .tc main_v3) :=
  ((W8_of_ne m ρ c main_v3 (by decide)).trans ((keepH3 m ρ c main_v3 (by decide)).trans ((W6_of_ne m ρ c main_v3 (by decide)).trans ((keepH2 m ρ c main_v3 (by decide)).trans (carry_v3_1_4 m ρ c)))))
theorem carry_v3_1_10 : W10 m ρ c (Proc.devRef .tc main_v3) = W1 m ρ c (Proc.devRef .tc main_v3) :=
  ((W10_of_ne m ρ c main_v3 (by decide)).trans ((keepH4 m ρ c main_v3 (by decide)).trans (carry_v3_1_8 m ρ c)))
theorem carry_v3_1_14 : W14 m ρ c (Proc.devRef .tc main_v3) = W1 m ρ c (Proc.devRef .tc main_v3) :=
  ((W14_of_ne m ρ c main_v3 (by decide)).trans ((keepH6 m ρ c main_v3 (by decide)).trans ((W12_of_ne m ρ c main_v3 (by decide)).trans ((keepH5 m ρ c main_v3 (by decide)).trans (carry_v3_1_10 m ρ c)))))
theorem carry_v3_1_16 : W16 m ρ c (Proc.devRef .tc main_v3) = W1 m ρ c (Proc.devRef .tc main_v3) :=
  ((W16_of_ne m ρ c main_v3 (by decide)).trans ((keepH7 m ρ c main_v3 (by decide)).trans (carry_v3_1_14 m ρ c)))
theorem carry_v7_1_5 : W5 m ρ c (Proc.devRef .tc main_v7) = W1 m ρ c (Proc.devRef .tc main_v7) :=
  ((keepH2 m ρ c main_v7 (by decide)).trans ((W4_of_ne m ρ c main_v7 (by decide)).trans ((keepH1 m ρ c main_v7 (by decide)).trans ((W2_arr m ρ c 0).trans (((dat0 (V1 m ρ) c).arrAt_in 0 rfl cfg0.N).trans (A_eq0 (V1 m ρ) c 0))))))
theorem carry_v16_1_3 : W3 m ρ c (Proc.devRef .tc main_v16) = W1 m ρ c (Proc.devRef .tc main_v16) :=
  ((keepH1 m ρ c main_v16 (by decide)).trans (W2_of_ne m ρ c main_v16 (by decide)))
theorem carry_v19_1_3 : W3 m ρ c (Proc.devRef .tc main_v19) = W1 m ρ c (Proc.devRef .tc main_v19) :=
  ((keepH1 m ρ c main_v19 (by decide)).trans (W2_of_ne m ρ c main_v19 (by decide)))
theorem carry_v22_1_3 : W3 m ρ c (Proc.devRef .tc main_v22) = W1 m ρ c (Proc.devRef .tc main_v22) :=
  ((keepH1 m ρ c main_v22 (by decide)).trans (W2_of_ne m ρ c main_v22 (by decide)))
theorem carry_v57_6_7 : W7 m ρ c (Proc.devRef .tc main_v57) = W6 m ρ c (Proc.devRef .tc main_v57) :=
  (keepH3 m ρ c main_v57 (by decide))
theorem carry_v57_6_11 : W11 m ρ c (Proc.devRef .tc main_v57) = W6 m ρ c (Proc.devRef .tc main_v57) :=
  ((keepH5 m ρ c main_v57 (by decide)).trans ((W10_of_ne m ρ c main_v57 (by decide)).trans ((keepH4 m ρ c main_v57 (by decide)).trans (((W8_arr m ρ c 0).trans (((dat3 (V7 m ρ) c).arrAt_in 0 rfl cfg3.N).trans (A_eq3 (V7 m ρ) c 0))).trans (carry_v57_6_7 m ρ c)))))
theorem carry_v66_7_9 : W9 m ρ c (Proc.devRef .tc main_v66) = W7 m ρ c (Proc.devRef .tc main_v66) :=
  ((keepH4 m ρ c main_v66 (by decide)).trans (W8_of_ne m ρ c main_v66 (by decide)))
theorem carry_v69_7_9 : W9 m ρ c (Proc.devRef .tc main_v69) = W7 m ρ c (Proc.devRef .tc main_v69) :=
  ((keepH4 m ρ c main_v69 (by decide)).trans (W8_of_ne m ρ c main_v69 (by decide)))
theorem carry_v72_7_9 : W9 m ρ c (Proc.devRef .tc main_v72) = W7 m ρ c (Proc.devRef .tc main_v72) :=
  ((keepH4 m ρ c main_v72 (by decide)).trans (W8_of_ne m ρ c main_v72 (by decide)))
theorem carry_v107_12_13 : W13 m ρ c (Proc.devRef .tc main_v107) = W12 m ρ c (Proc.devRef .tc main_v107) :=
  (keepH6 m ρ c main_v107 (by decide))
theorem carry_v107_12_17 : W17 m ρ c (Proc.devRef .tc main_v107) = W12 m ρ c (Proc.devRef .tc main_v107) :=
  ((keepH8 m ρ c main_v107 (by decide)).trans ((W16_of_ne m ρ c main_v107 (by decide)).trans ((keepH7 m ρ c main_v107 (by decide)).trans (((W14_arr m ρ c 0).trans (((dat6 (V13 m ρ) c).arrAt_in 0 rfl cfg6.N).trans (A_eq6 (V13 m ρ) c 0))).trans (carry_v107_12_13 m ρ c)))))
theorem carry_v116_13_15 : W15 m ρ c (Proc.devRef .tc main_v116) = W13 m ρ c (Proc.devRef .tc main_v116) :=
  ((keepH7 m ρ c main_v116 (by decide)).trans (W14_of_ne m ρ c main_v116 (by decide)))
theorem carry_v119_13_15 : W15 m ρ c (Proc.devRef .tc main_v119) = W13 m ρ c (Proc.devRef .tc main_v119) :=
  ((keepH7 m ρ c main_v119 (by decide)).trans (W14_of_ne m ρ c main_v119 (by decide)))
theorem carry_v122_13_15 : W15 m ρ c (Proc.devRef .tc main_v122) = W13 m ρ c (Proc.devRef .tc main_v122) :=
  ((keepH7 m ρ c main_v122 (by decide)).trans (W14_of_ne m ρ c main_v122 (by decide)))
theorem carry_arg6_0_6 : W6 m ρ c (Proc.devRef .tc main_arg6) = W0 m ρ c (Proc.devRef .tc main_arg6) :=
  ((W6_of_ne m ρ c main_arg6 (by decide)).trans ((keepH2 m ρ c main_arg6 (by decide)).trans ((W4_of_ne m ρ c main_arg6 (by decide)).trans ((keepH1 m ρ c main_arg6 (by decide)).trans ((W2_of_ne m ρ c main_arg6 (by decide)).trans (keepH0 m ρ c main_arg6 (by decide)))))))
theorem carry_arg6_0_12 : W12 m ρ c (Proc.devRef .tc main_arg6) = W0 m ρ c (Proc.devRef .tc main_arg6) :=
  ((W12_of_ne m ρ c main_arg6 (by decide)).trans ((keepH5 m ρ c main_arg6 (by decide)).trans ((W10_of_ne m ρ c main_arg6 (by decide)).trans ((keepH4 m ρ c main_arg6 (by decide)).trans ((W8_of_ne m ρ c main_arg6 (by decide)).trans ((keepH3 m ρ c main_arg6 (by decide)).trans (carry_arg6_0_6 m ρ c)))))))
theorem carry_arg7_0_6 : W6 m ρ c (Proc.devRef .tc main_arg7) = W0 m ρ c (Proc.devRef .tc main_arg7) :=
  ((W6_of_ne m ρ c main_arg7 (by decide)).trans ((keepH2 m ρ c main_arg7 (by decide)).trans ((W4_of_ne m ρ c main_arg7 (by decide)).trans ((keepH1 m ρ c main_arg7 (by decide)).trans ((W2_of_ne m ρ c main_arg7 (by decide)).trans (keepH0 m ρ c main_arg7 (by decide)))))))
theorem carry_arg7_0_12 : W12 m ρ c (Proc.devRef .tc main_arg7) = W0 m ρ c (Proc.devRef .tc main_arg7) :=
  ((W12_of_ne m ρ c main_arg7 (by decide)).trans ((keepH5 m ρ c main_arg7 (by decide)).trans ((W10_of_ne m ρ c main_arg7 (by decide)).trans ((keepH4 m ρ c main_arg7 (by decide)).trans ((W8_of_ne m ρ c main_arg7 (by decide)).trans ((keepH3 m ρ c main_arg7 (by decide)).trans (carry_arg7_0_6 m ρ c)))))))
theorem carry_arg8_0_6 : W6 m ρ c (Proc.devRef .tc main_arg8) = W0 m ρ c (Proc.devRef .tc main_arg8) :=
  ((W6_of_ne m ρ c main_arg8 (by decide)).trans ((keepH2 m ρ c main_arg8 (by decide)).trans ((W4_of_ne m ρ c main_arg8 (by decide)).trans ((keepH1 m ρ c main_arg8 (by decide)).trans ((W2_of_ne m ρ c main_arg8 (by decide)).trans (keepH0 m ρ c main_arg8 (by decide)))))))
theorem carry_arg8_0_12 : W12 m ρ c (Proc.devRef .tc main_arg8) = W0 m ρ c (Proc.devRef .tc main_arg8) :=
  ((W12_of_ne m ρ c main_arg8 (by decide)).trans ((keepH5 m ρ c main_arg8 (by decide)).trans ((W10_of_ne m ρ c main_arg8 (by decide)).trans ((keepH4 m ρ c main_arg8 (by decide)).trans ((W8_of_ne m ρ c main_arg8 (by decide)).trans ((keepH3 m ρ c main_arg8 (by decide)).trans (carry_arg8_0_6 m ρ c)))))))
theorem carry_arg9_0_6 : W6 m ρ c (Proc.devRef .tc main_arg9) = W0 m ρ c (Proc.devRef .tc main_arg9) :=
  ((W6_of_ne m ρ c main_arg9 (by decide)).trans ((keepH2 m ρ c main_arg9 (by decide)).trans ((W4_of_ne m ρ c main_arg9 (by decide)).trans ((keepH1 m ρ c main_arg9 (by decide)).trans ((W2_of_ne m ρ c main_arg9 (by decide)).trans (keepH0 m ρ c main_arg9 (by decide)))))))
theorem carry_arg9_0_12 : W12 m ρ c (Proc.devRef .tc main_arg9) = W0 m ρ c (Proc.devRef .tc main_arg9) :=
  ((W12_of_ne m ρ c main_arg9 (by decide)).trans ((keepH5 m ρ c main_arg9 (by decide)).trans ((W10_of_ne m ρ c main_arg9 (by decide)).trans ((keepH4 m ρ c main_arg9 (by decide)).trans ((W8_of_ne m ρ c main_arg9 (by decide)).trans ((keepH3 m ρ c main_arg9 (by decide)).trans (carry_arg9_0_6 m ρ c)))))))
theorem carry_arg10_0_4 : W4 m ρ c (Proc.devRef .tc main_arg10) = W0 m ρ c (Proc.devRef .tc main_arg10) :=
  ((W4_of_ne m ρ c main_arg10 (by decide)).trans ((keepH1 m ρ c main_arg10 (by decide)).trans ((W2_of_ne m ρ c main_arg10 (by decide)).trans (keepH0 m ρ c main_arg10 (by decide)))))
theorem carry_arg10_0_10 : W10 m ρ c (Proc.devRef .tc main_arg10) = W0 m ρ c (Proc.devRef .tc main_arg10) :=
  ((W10_of_ne m ρ c main_arg10 (by decide)).trans ((keepH4 m ρ c main_arg10 (by decide)).trans ((W8_of_ne m ρ c main_arg10 (by decide)).trans ((keepH3 m ρ c main_arg10 (by decide)).trans ((W6_of_ne m ρ c main_arg10 (by decide)).trans ((keepH2 m ρ c main_arg10 (by decide)).trans (carry_arg10_0_4 m ρ c)))))))
theorem carry_arg10_0_16 : W16 m ρ c (Proc.devRef .tc main_arg10) = W0 m ρ c (Proc.devRef .tc main_arg10) :=
  ((W16_of_ne m ρ c main_arg10 (by decide)).trans ((keepH7 m ρ c main_arg10 (by decide)).trans ((W14_of_ne m ρ c main_arg10 (by decide)).trans ((keepH6 m ρ c main_arg10 (by decide)).trans ((W12_of_ne m ρ c main_arg10 (by decide)).trans ((keepH5 m ρ c main_arg10 (by decide)).trans (carry_arg10_0_10 m ρ c)))))))
theorem carry_arg11_0_4 : W4 m ρ c (Proc.devRef .tc main_arg11) = W0 m ρ c (Proc.devRef .tc main_arg11) :=
  ((W4_of_ne m ρ c main_arg11 (by decide)).trans ((keepH1 m ρ c main_arg11 (by decide)).trans ((W2_of_ne m ρ c main_arg11 (by decide)).trans (keepH0 m ρ c main_arg11 (by decide)))))
theorem carry_arg11_0_10 : W10 m ρ c (Proc.devRef .tc main_arg11) = W0 m ρ c (Proc.devRef .tc main_arg11) :=
  ((W10_of_ne m ρ c main_arg11 (by decide)).trans ((keepH4 m ρ c main_arg11 (by decide)).trans ((W8_of_ne m ρ c main_arg11 (by decide)).trans ((keepH3 m ρ c main_arg11 (by decide)).trans ((W6_of_ne m ρ c main_arg11 (by decide)).trans ((keepH2 m ρ c main_arg11 (by decide)).trans (carry_arg11_0_4 m ρ c)))))))
theorem carry_arg11_0_16 : W16 m ρ c (Proc.devRef .tc main_arg11) = W0 m ρ c (Proc.devRef .tc main_arg11) :=
  ((W16_of_ne m ρ c main_arg11 (by decide)).trans ((keepH7 m ρ c main_arg11 (by decide)).trans ((W14_of_ne m ρ c main_arg11 (by decide)).trans ((keepH6 m ρ c main_arg11 (by decide)).trans ((W12_of_ne m ρ c main_arg11 (by decide)).trans ((keepH5 m ρ c main_arg11 (by decide)).trans (carry_arg11_0_10 m ρ c)))))))
theorem carry_arg12_0_4 : W4 m ρ c (Proc.devRef .tc main_arg12) = W0 m ρ c (Proc.devRef .tc main_arg12) :=
  ((W4_of_ne m ρ c main_arg12 (by decide)).trans ((keepH1 m ρ c main_arg12 (by decide)).trans ((W2_of_ne m ρ c main_arg12 (by decide)).trans (keepH0 m ρ c main_arg12 (by decide)))))
theorem carry_arg12_0_10 : W10 m ρ c (Proc.devRef .tc main_arg12) = W0 m ρ c (Proc.devRef .tc main_arg12) :=
  ((W10_of_ne m ρ c main_arg12 (by decide)).trans ((keepH4 m ρ c main_arg12 (by decide)).trans ((W8_of_ne m ρ c main_arg12 (by decide)).trans ((keepH3 m ρ c main_arg12 (by decide)).trans ((W6_of_ne m ρ c main_arg12 (by decide)).trans ((keepH2 m ρ c main_arg12 (by decide)).trans (carry_arg12_0_4 m ρ c)))))))
theorem carry_arg12_0_16 : W16 m ρ c (Proc.devRef .tc main_arg12) = W0 m ρ c (Proc.devRef .tc main_arg12) :=
  ((W16_of_ne m ρ c main_arg12 (by decide)).trans ((keepH7 m ρ c main_arg12 (by decide)).trans ((W14_of_ne m ρ c main_arg12 (by decide)).trans ((keepH6 m ρ c main_arg12 (by decide)).trans ((W12_of_ne m ρ c main_arg12 (by decide)).trans ((keepH5 m ρ c main_arg12 (by decide)).trans (carry_arg12_0_10 m ρ c)))))))
theorem carry_arg13_0_4 : W4 m ρ c (Proc.devRef .tc main_arg13) = W0 m ρ c (Proc.devRef .tc main_arg13) :=
  ((W4_of_ne m ρ c main_arg13 (by decide)).trans ((keepH1 m ρ c main_arg13 (by decide)).trans ((W2_of_ne m ρ c main_arg13 (by decide)).trans (keepH0 m ρ c main_arg13 (by decide)))))
theorem carry_arg13_0_10 : W10 m ρ c (Proc.devRef .tc main_arg13) = W0 m ρ c (Proc.devRef .tc main_arg13) :=
  ((W10_of_ne m ρ c main_arg13 (by decide)).trans ((keepH4 m ρ c main_arg13 (by decide)).trans ((W8_of_ne m ρ c main_arg13 (by decide)).trans ((keepH3 m ρ c main_arg13 (by decide)).trans ((W6_of_ne m ρ c main_arg13 (by decide)).trans ((keepH2 m ρ c main_arg13 (by decide)).trans (carry_arg13_0_4 m ρ c)))))))
theorem carry_arg13_0_16 : W16 m ρ c (Proc.devRef .tc main_arg13) = W0 m ρ c (Proc.devRef .tc main_arg13) :=
  ((W16_of_ne m ρ c main_arg13 (by decide)).trans ((keepH7 m ρ c main_arg13 (by decide)).trans ((W14_of_ne m ρ c main_arg13 (by decide)).trans ((keepH6 m ρ c main_arg13 (by decide)).trans ((W12_of_ne m ρ c main_arg13 (by decide)).trans ((keepH5 m ρ c main_arg13 (by decide)).trans (carry_arg13_0_10 m ρ c)))))))
theorem carry_arg4_0_18 : W18 m ρ c (Proc.devRef .tc main_arg4) = W0 m ρ c (Proc.devRef .tc main_arg4) :=
  ((W18_of_ne m ρ c main_arg4 (by decide)).trans ((keepH8 m ρ c main_arg4 (by decide)).trans ((W16_of_ne m ρ c main_arg4 (by decide)).trans ((keepH7 m ρ c main_arg4 (by decide)).trans ((W14_of_ne m ρ c main_arg4 (by decide)).trans ((keepH6 m ρ c main_arg4 (by decide)).trans ((W12_of_ne m ρ c main_arg4 (by decide)).trans ((keepH5 m ρ c main_arg4 (by decide)).trans ((W10_of_ne m ρ c main_arg4 (by decide)).trans ((keepH4 m ρ c main_arg4 (by decide)).trans ((W8_of_ne m ρ c main_arg4 (by decide)).trans ((keepH3 m ρ c main_arg4 (by decide)).trans ((W6_of_ne m ρ c main_arg4 (by decide)).trans ((keepH2 m ρ c main_arg4 (by decide)).trans ((W4_of_ne m ρ c main_arg4 (by decide)).trans ((keepH1 m ρ c main_arg4 (by decide)).trans ((W2_of_ne m ρ c main_arg4 (by decide)).trans (keepH0 m ρ c main_arg4 (by decide)))))))))))))))))))
theorem carry_arg5_0_18 : W18 m ρ c (Proc.devRef .tc main_arg5) = W0 m ρ c (Proc.devRef .tc main_arg5) :=
  ((W18_of_ne m ρ c main_arg5 (by decide)).trans ((keepH8 m ρ c main_arg5 (by decide)).trans ((W16_of_ne m ρ c main_arg5 (by decide)).trans ((keepH7 m ρ c main_arg5 (by decide)).trans ((W14_of_ne m ρ c main_arg5 (by decide)).trans ((keepH6 m ρ c main_arg5 (by decide)).trans ((W12_of_ne m ρ c main_arg5 (by decide)).trans ((keepH5 m ρ c main_arg5 (by decide)).trans ((W10_of_ne m ρ c main_arg5 (by decide)).trans ((keepH4 m ρ c main_arg5 (by decide)).trans ((W8_of_ne m ρ c main_arg5 (by decide)).trans ((keepH3 m ρ c main_arg5 (by decide)).trans ((W6_of_ne m ρ c main_arg5 (by decide)).trans ((keepH2 m ρ c main_arg5 (by decide)).trans ((W4_of_ne m ρ c main_arg5 (by decide)).trans ((keepH1 m ρ c main_arg5 (by decide)).trans ((W2_of_ne m ρ c main_arg5 (by decide)).trans (keepH0 m ρ c main_arg5 (by decide)))))))))))))))))))

end Cert.KernelIdeal.Chain

end
-- ==== Proof.ChainRead.lean ====
/-
  What each stretch of host operations leaves in the buffers the kernels and the later stretches consume, as the
  stretch's operations applied to the contents it was entered with.
-/
import proofs.«134322_j88562225643709_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem rd_v1 : W1 m ρ c (Proc.devRef .tc main_v1) = (shapeCast _ (extractStridedSlice S1x800000 ![0, 0] (W0 m ρ c (Proc.devRef .tc main_arg1) : (⟨S2x800000, .i32⟩ : BufTy).Contents (Elt Ideal)) slices_S2x800000_S1x800000_0_0) shapeCasts_S1x800000_S800000 : (⟨S800000, .i32⟩ : BufTy).Contents (Elt Ideal)) := by
  show StableHlo.after hostOps0 (W0 m ρ c) (Proc.devRef .tc main_v1) = _
  simp only [hostOps0]
  after_results_simp
  try rfl
theorem rd_v3 : W1 m ρ c (Proc.devRef .tc main_v3) = (shapeCast _ (extractStridedSlice S1x800000 ![1, 0] (W0 m ρ c (Proc.devRef .tc main_arg1) : (⟨S2x800000, .i32⟩ : BufTy).Contents (Elt Ideal)) slices_S2x800000_S1x800000_1_0) shapeCasts_S1x800000_S800000 : (⟨S800000, .i32⟩ : BufTy).Contents (Elt Ideal)) := by
  show StableHlo.after hostOps0 (W0 m ρ c) (Proc.devRef .tc main_v3) = _
  simp only [hostOps0]
  after_results_simp
  try rfl
theorem rd_v7 : W1 m ρ c (Proc.devRef .tc main_v7) = (addf (F := Ideal) (Host.dotGeneral (F := Ideal) (φ₁ := .f32) (φ₂ := .f32) dot_S50000x16_S16x128_S50000x128_1_0_0_1_n_n none (W0 m ρ c (Proc.devRef .tc main_arg0) : (⟨S50000x16, .f32⟩ : BufTy).Contents (Elt Ideal)) (W0 m ρ c (Proc.devRef .tc main_arg2) : (⟨S16x128, .f32⟩ : BufTy).Contents (Elt Ideal))) (broadcastInDim S50000x128 ![0, 1] bcast_S1x128_S50000x128_0_1 (broadcastInDim S1x128 ![1] bcast_S128_S1x128_1 (W0 m ρ c (Proc.devRef .tc main_arg3) : (⟨S128, .f32⟩ : BufTy).Contents (Elt Ideal)))) : (⟨S50000x128, .f32⟩ : BufTy).Contents (Elt Ideal)) := by
  show StableHlo.after hostOps0 (W0 m ρ c) (Proc.devRef .tc main_v7) = _
  simp only [hostOps0]
  after_results_simp
  try rfl
theorem rd_v10 : W1 m ρ c (Proc.devRef .tc main_v10) = (truncf (F := Ideal) .bf16 (shapeCast _ (extractStridedSlice S1x128x128 ![0, 0, 0] (W0 m ρ c (Proc.devRef .tc main_arg6) : (⟨S3x256x128, .f32⟩ : BufTy).Contents (Elt Ideal)) slices_S3x256x128_S1x128x128_0_0_0) shapeCasts_S1x128x128_S128x128) bitsLt_bf16_f32 : (⟨S128x128, .bf16⟩ : BufTy).Contents (Elt Ideal)) := by
  show StableHlo.after hostOps0 (W0 m ρ c) (Proc.devRef .tc main_v10) = _
  simp only [hostOps0]
  after_results_simp
  try rfl
theorem rd_v13 : W1 m ρ c (Proc.devRef .tc main_v13) = (truncf (F := Ideal) .bf16 (shapeCast _ (extractStridedSlice S1x128x128 ![0, 128, 0] (W0 m ρ c (Proc.devRef .tc main_arg6) : (⟨S3x256x128, .f32⟩ : BufTy).Contents (Elt Ideal)) slices_S3x256x128_S1x128x128_0_128_0) shapeCasts_S1x128x128_S128x128) bitsLt_bf16_f32 : (⟨S128x128, .bf16⟩ : BufTy).Contents (Elt Ideal)) := by
  show StableHlo.after hostOps0 (W0 m ρ c) (Proc.devRef .tc main_v13) = _
  simp only [hostOps0]
  after_results_simp
  try rfl
theorem rd_v16 : W1 m ρ c (Proc.devRef .tc main_v16) = (shapeCast _ (shapeCast _ (extractStridedSlice S1x128 ![0, 0] (W0 m ρ c (Proc.devRef .tc main_arg7) : (⟨S3x128, .f32⟩ : BufTy).Contents (Elt Ideal)) slices_S3x128_S1x128_0_0) shapeCasts_S1x128_S128) shapeCasts_S128_S1x128 : (⟨S1x128, .f32⟩ : BufTy).Contents (Elt Ideal)) := by
  show StableHlo.after hostOps0 (W0 m ρ c) (Proc.devRef .tc main_v16) = _
  simp only [hostOps0]
  after_results_simp
  try rfl
theorem rd_v19 : W1 m ρ c (Proc.devRef .tc main_v19) = (truncf (F := Ideal) .bf16 (shapeCast _ (extractStridedSlice S1x128x128 ![0, 0, 0] (W0 m ρ c (Proc.devRef .tc main_arg8) : (⟨S3x128x128, .f32⟩ : BufTy).Contents (Elt Ideal)) slices_S3x128x128_S1x128x128_0_0_0) shapeCasts_S1x128x128_S128x128) bitsLt_bf16_f32 : (⟨S128x128, .bf16⟩ : BufTy).Contents (Elt Ideal)) := by
  show StableHlo.after hostOps0 (W0 m ρ c) (Proc.devRef .tc main_v19) = _
  simp only [hostOps0]
  after_results_simp
  try rfl
theorem rd_v22 : W1 m ρ c (Proc.devRef .tc main_v22) = (shapeCast _ (shapeCast _ (extractStridedSlice S1x128 ![0, 0] (W0 m ρ c (Proc.devRef .tc main_arg9) : (⟨S3x128, .f32⟩ : BufTy).Contents (Elt Ideal)) slices_S3x128_S1x128_0_0) shapeCasts_S1x128_S128) shapeCasts_S128_S1x128 : (⟨S1x128, .f32⟩ : BufTy).Contents (Elt Ideal)) := by
  show StableHlo.after hostOps0 (W0 m ρ c) (Proc.devRef .tc main_v22) = _
  simp only [hostOps0]
  after_results_simp
  try rfl
theorem rd_v30 : W3 m ρ c (Proc.devRef .tc main_v30) = (Host.gather gather_S50000x128_S800000x1_S800000x128_1_0_n_n_0_1_1128 (W2 m ρ c (Proc.devRef .tc main_v23_0) : (⟨S50000x128, .bf16⟩ : BufTy).Contents (Elt Ideal)) (broadcastInDim S800000x1 ![0] bcast_S800000_S800000x1_0 (select (cmpi .slt (W2 m ρ c (Proc.devRef .tc main_v1) : (⟨S800000, .i32⟩ : BufTy).Contents (Elt Ideal)) (broadcastInDim S800000 ![] bcast_S_S800000 (constantI S_ 32 0#32))) (addi (W2 m ρ c (Proc.devRef .tc main_v1) : (⟨S800000, .i32⟩ : BufTy).Contents (Elt Ideal)) (broadcastInDim S800000 ![] bcast_S_S800000 (constantI S_ 32 50000#32))) (W2 m ρ c (Proc.devRef .tc main_v1) : (⟨S800000, .i32⟩ : BufTy).Contents (Elt Ideal)))) : (⟨S800000x128, .bf16⟩ : BufTy).Contents (Elt Ideal)) := by
  show StableHlo.after hostOps1 (W2 m ρ c) (Proc.devRef .tc main_v30) = _
  simp only [hostOps1]
  after_results_simp
  try rfl
theorem rd_v37 : W3 m ρ c (Proc.devRef .tc main_v37) = (Host.gather gather_S50000x128_S800000x1_S800000x128_1_0_n_n_0_1_1128 (W2 m ρ c (Proc.devRef .tc main_v23_1) : (⟨S50000x128, .bf16⟩ : BufTy).Contents (Elt Ideal)) (broadcastInDim S800000x1 ![0] bcast_S800000_S800000x1_0 (select (cmpi .slt (W2 m ρ c (Proc.devRef .tc main_v3) : (⟨S800000, .i32⟩ : BufTy).Contents (Elt Ideal)) (broadcastInDim S800000 ![] bcast_S_S800000 (constantI S_ 32 0#32))) (addi (W2 m ρ c (Proc.devRef .tc main_v3) : (⟨S800000, .i32⟩ : BufTy).Contents (Elt Ideal)) (broadcastInDim S800000 ![] bcast_S_S800000 (constantI S_ 32 50000#32))) (W2 m ρ c (Proc.devRef .tc main_v3) : (⟨S800000, .i32⟩ : BufTy).Contents (Elt Ideal)))) : (⟨S800000x128, .bf16⟩ : BufTy).Contents (Elt Ideal)) := by
  show StableHlo.after hostOps1 (W2 m ρ c) (Proc.devRef .tc main_v37) = _
  simp only [hostOps1]
  after_results_simp
  try rfl
theorem rd_v41 : W5 m ρ c (Proc.devRef .tc main_v41) = (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (W4 m ρ c (Proc.devRef .tc main_v3) : (⟨S800000, .i32⟩ : BufTy).Contents (Elt Ideal))) (W4 m ρ c (Proc.devRef .tc main_v38) : (⟨S800000x128, .f32⟩ : BufTy).Contents (Elt Ideal)) : (⟨S50000x128, .f32⟩ : BufTy).Contents (Elt Ideal)) := by
  show StableHlo.after hostOps2 (W4 m ρ c) (Proc.devRef .tc main_v41) = _
  simp only [hostOps2]
  after_results_simp
  try rfl
theorem rd_v44 : W5 m ρ c (Proc.devRef .tc main_v44) = (truncf (F := Ideal) .bf16 (shapeCast _ (extractStridedSlice S1x128x128 ![0, 0, 0] (W4 m ρ c (Proc.devRef .tc main_arg10) : (⟨S3x256x128, .f32⟩ : BufTy).Contents (Elt Ideal)) slices_S3x256x128_S1x128x128_0_0_0) shapeCasts_S1x128x128_S128x128) bitsLt_bf16_f32 : (⟨S128x128, .bf16⟩ : BufTy).Contents (Elt Ideal)) := by
  show StableHlo.after hostOps2 (W4 m ρ c) (Proc.devRef .tc main_v44) = _
  simp only [hostOps2]
  after_results_simp
  try rfl
theorem rd_v47 : W5 m ρ c (Proc.devRef .tc main_v47) = (truncf (F := Ideal) .bf16 (shapeCast _ (extractStridedSlice S1x128x128 ![0, 128, 0] (W4 m ρ c (Proc.devRef .tc main_arg10) : (⟨S3x256x128, .f32⟩ : BufTy).Contents (Elt Ideal)) slices_S3x256x128_S1x128x128_0_128_0) shapeCasts_S1x128x128_S128x128) bitsLt_bf16_f32 : (⟨S128x128, .bf16⟩ : BufTy).Contents (Elt Ideal)) := by
  show StableHlo.after hostOps2 (W4 m ρ c) (Proc.devRef .tc main_v47) = _
  simp only [hostOps2]
  after_results_simp
  try rfl
theorem rd_v50 : W5 m ρ c (Proc.devRef .tc main_v50) = (shapeCast _ (shapeCast _ (extractStridedSlice S1x128 ![0, 0] (W4 m ρ c (Proc.devRef .tc main_arg11) : (⟨S3x128, .f32⟩ : BufTy).Contents (Elt Ideal)) slices_S3x128_S1x128_0_0) shapeCasts_S1x128_S128) shapeCasts_S128_S1x128 : (⟨S1x128, .f32⟩ : BufTy).Contents (Elt Ideal)) := by
  show StableHlo.after hostOps2 (W4 m ρ c) (Proc.devRef .tc main_v50) = _
  simp only [hostOps2]
  after_results_simp
  try rfl
theorem rd_v53 : W5 m ρ c (Proc.devRef .tc main_v53) = (truncf (F := Ideal) .bf16 (shapeCast _ (extractStridedSlice S1x128x128 ![0, 0, 0] (W4 m ρ c (Proc.devRef .tc main_arg12) : (⟨S3x128x128, .f32⟩ : BufTy).Contents (Elt Ideal)) slices_S3x128x128_S1x128x128_0_0_0) shapeCasts_S1x128x128_S128x128) bitsLt_bf16_f32 : (⟨S128x128, .bf16⟩ : BufTy).Contents (Elt Ideal)) := by
  show StableHlo.after hostOps2 (W4 m ρ c) (Proc.devRef .tc main_v53) = _
  simp only [hostOps2]
  after_results_simp
  try rfl
theorem rd_v56 : W5 m ρ c (Proc.devRef .tc main_v56) = (shapeCast _ (shapeCast _ (extractStridedSlice S1x128 ![0, 0] (W4 m ρ c (Proc.devRef .tc main_arg13) : (⟨S3x128, .f32⟩ : BufTy).Contents (Elt Ideal)) slices_S3x128_S1x128_0_0) shapeCasts_S1x128_S128) shapeCasts_S128_S1x128 : (⟨S1x128, .f32⟩ : BufTy).Contents (Elt Ideal)) := by
  show StableHlo.after hostOps2 (W4 m ρ c) (Proc.devRef .tc main_v56) = _
  simp only [hostOps2]
  after_results_simp
  try rfl
theorem rd_v60 : W7 m ρ c (Proc.devRef .tc main_v60) = (truncf (F := Ideal) .bf16 (shapeCast _ (extractStridedSlice S1x128x128 ![1, 0, 0] (W6 m ρ c (Proc.devRef .tc main_arg6) : (⟨S3x256x128, .f32⟩ : BufTy).Contents (Elt Ideal)) slices_S3x256x128_S1x128x128_1_0_0) shapeCasts_S1x128x128_S128x128) bitsLt_bf16_f32 : (⟨S128x128, .bf16⟩ : BufTy).Contents (Elt Ideal)) := by
  show StableHlo.after hostOps3 (W6 m ρ c) (Proc.devRef .tc main_v60) = _
  simp only [hostOps3]
  after_results_simp
  try rfl
theorem rd_v63 : W7 m ρ c (Proc.devRef .tc main_v63) = (truncf (F := Ideal) .bf16 (shapeCast _ (extractStridedSlice S1x128x128 ![1, 128, 0] (W6 m ρ c (Proc.devRef .tc main_arg6) : (⟨S3x256x128, .f32⟩ : BufTy).Contents (Elt Ideal)) slices_S3x256x128_S1x128x128_1_128_0) shapeCasts_S1x128x128_S128x128) bitsLt_bf16_f32 : (⟨S128x128, .bf16⟩ : BufTy).Contents (Elt Ideal)) := by
  show StableHlo.after hostOps3 (W6 m ρ c) (Proc.devRef .tc main_v63) = _
  simp only [hostOps3]
  after_results_simp
  try rfl
theorem rd_v66 : W7 m ρ c (Proc.devRef .tc main_v66) = (shapeCast _ (shapeCast _ (extractStridedSlice S1x128 ![1, 0] (W6 m ρ c (Proc.devRef .tc main_arg7) : (⟨S3x128, .f32⟩ : BufTy).Contents (Elt Ideal)) slices_S3x128_S1x128_1_0) shapeCasts_S1x128_S128) shapeCasts_S128_S1x128 : (⟨S1x128, .f32⟩ : BufTy).Contents (Elt Ideal)) := by
  show StableHlo.after hostOps3 (W6 m ρ c) (Proc.devRef .tc main_v66) = _
  simp only [hostOps3]
  after_results_simp
  try rfl
theorem rd_v69 : W7 m ρ c (Proc.devRef .tc main_v69) = (truncf (F := Ideal) .bf16 (shapeCast _ (extractStridedSlice S1x128x128 ![1, 0, 0] (W6 m ρ c (Proc.devRef .tc main_arg8) : (⟨S3x128x128, .f32⟩ : BufTy).Contents (Elt Ideal)) slices_S3x128x128_S1x128x128_1_0_0) shapeCasts_S1x128x128_S128x128) bitsLt_bf16_f32 : (⟨S128x128, .bf16⟩ : BufTy).Contents (Elt Ideal)) := by
  show StableHlo.after hostOps3 (W6 m ρ c) (Proc.devRef .tc main_v69) = _
  simp only [hostOps3]
  after_results_simp
  try rfl
theorem rd_v72 : W7 m ρ c (Proc.devRef .tc main_v72) = (shapeCast _ (shapeCast _ (extractStridedSlice S1x128 ![1, 0] (W6 m ρ c (Proc.devRef .tc main_arg9) : (⟨S3x128, .f32⟩ : BufTy).Contents (Elt Ideal)) slices_S3x128_S1x128_1_0) shapeCasts_S1x128_S128) shapeCasts_S128_S1x128 : (⟨S1x128, .f32⟩ : BufTy).Contents (Elt Ideal)) := by
  show StableHlo.after hostOps3 (W6 m ρ c) (Proc.devRef .tc main_v72) = _
  simp only [hostOps3]
  after_results_simp
  try rfl
theorem rd_v80 : W9 m ρ c (Proc.devRef .tc main_v80) = (Host.gather gather_S50000x128_S800000x1_S800000x128_1_0_n_n_0_1_1128 (W8 m ρ c (Proc.devRef .tc main_v73_0) : (⟨S50000x128, .bf16⟩ : BufTy).Contents (Elt Ideal)) (broadcastInDim S800000x1 ![0] bcast_S800000_S800000x1_0 (select (cmpi .slt (W8 m ρ c (Proc.devRef .tc main_v1) : (⟨S800000, .i32⟩ : BufTy).Contents (Elt Ideal)) (broadcastInDim S800000 ![] bcast_S_S800000 (constantI S_ 32 0#32))) (addi (W8 m ρ c (Proc.devRef .tc main_v1) : (⟨S800000, .i32⟩ : BufTy).Contents (Elt Ideal)) (broadcastInDim S800000 ![] bcast_S_S800000 (constantI S_ 32 50000#32))) (W8 m ρ c (Proc.devRef .tc main_v1) : (⟨S800000, .i32⟩ : BufTy).Contents (Elt Ideal)))) : (⟨S800000x128, .bf16⟩ : BufTy).Contents (Elt Ideal)) := by
  show StableHlo.after hostOps4 (W8 m ρ c) (Proc.devRef .tc main_v80) = _
  simp only [hostOps4]
  after_results_simp
  try rfl
theorem rd_v87 : W9 m ρ c (Proc.devRef .tc main_v87) = (Host.gather gather_S50000x128_S800000x1_S800000x128_1_0_n_n_0_1_1128 (W8 m ρ c (Proc.devRef .tc main_v73_1) : (⟨S50000x128, .bf16⟩ : BufTy).Contents (Elt Ideal)) (broadcastInDim S800000x1 ![0] bcast_S800000_S800000x1_0 (select (cmpi .slt (W8 m ρ c (Proc.devRef .tc main_v3) : (⟨S800000, .i32⟩ : BufTy).Contents (Elt Ideal)) (broadcastInDim S800000 ![] bcast_S_S800000 (constantI S_ 32 0#32))) (addi (W8 m ρ c (Proc.devRef .tc main_v3) : (⟨S800000, .i32⟩ : BufTy).Contents (Elt Ideal)) (broadcastInDim S800000 ![] bcast_S_S800000 (constantI S_ 32 50000#32))) (W8 m ρ c (Proc.devRef .tc main_v3) : (⟨S800000, .i32⟩ : BufTy).Contents (Elt Ideal)))) : (⟨S800000x128, .bf16⟩ : BufTy).Contents (Elt Ideal)) := by
  show StableHlo.after hostOps4 (W8 m ρ c) (Proc.devRef .tc main_v87) = _
  simp only [hostOps4]
  after_results_simp
  try rfl
theorem rd_v91 : W11 m ρ c (Proc.devRef .tc main_v91) = (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (W10 m ρ c (Proc.devRef .tc main_v3) : (⟨S800000, .i32⟩ : BufTy).Contents (Elt Ideal))) (W10 m ρ c (Proc.devRef .tc main_v88) : (⟨S800000x128, .f32⟩ : BufTy).Contents (Elt Ideal)) : (⟨S50000x128, .f32⟩ : BufTy).Contents (Elt Ideal)) := by
  show StableHlo.after hostOps5 (W10 m ρ c) (Proc.devRef .tc main_v91) = _
  simp only [hostOps5]
  after_results_simp
  try rfl
theorem rd_v94 : W11 m ρ c (Proc.devRef .tc main_v94) = (truncf (F := Ideal) .bf16 (shapeCast _ (extractStridedSlice S1x128x128 ![1, 0, 0] (W10 m ρ c (Proc.devRef .tc main_arg10) : (⟨S3x256x128, .f32⟩ : BufTy).Contents (Elt Ideal)) slices_S3x256x128_S1x128x128_1_0_0) shapeCasts_S1x128x128_S128x128) bitsLt_bf16_f32 : (⟨S128x128, .bf16⟩ : BufTy).Contents (Elt Ideal)) := by
  show StableHlo.after hostOps5 (W10 m ρ c) (Proc.devRef .tc main_v94) = _
  simp only [hostOps5]
  after_results_simp
  try rfl
theorem rd_v97 : W11 m ρ c (Proc.devRef .tc main_v97) = (truncf (F := Ideal) .bf16 (shapeCast _ (extractStridedSlice S1x128x128 ![1, 128, 0] (W10 m ρ c (Proc.devRef .tc main_arg10) : (⟨S3x256x128, .f32⟩ : BufTy).Contents (Elt Ideal)) slices_S3x256x128_S1x128x128_1_128_0) shapeCasts_S1x128x128_S128x128) bitsLt_bf16_f32 : (⟨S128x128, .bf16⟩ : BufTy).Contents (Elt Ideal)) := by
  show StableHlo.after hostOps5 (W10 m ρ c) (Proc.devRef .tc main_v97) = _
  simp only [hostOps5]
  after_results_simp
  try rfl
theorem rd_v100 : W11 m ρ c (Proc.devRef .tc main_v100) = (shapeCast _ (shapeCast _ (extractStridedSlice S1x128 ![1, 0] (W10 m ρ c (Proc.devRef .tc main_arg11) : (⟨S3x128, .f32⟩ : BufTy).Contents (Elt Ideal)) slices_S3x128_S1x128_1_0) shapeCasts_S1x128_S128) shapeCasts_S128_S1x128 : (⟨S1x128, .f32⟩ : BufTy).Contents (Elt Ideal)) := by
  show StableHlo.after hostOps5 (W10 m ρ c) (Proc.devRef .tc main_v100) = _
  simp only [hostOps5]
  after_results_simp
  try rfl
theorem rd_v103 : W11 m ρ c (Proc.devRef .tc main_v103) = (truncf (F := Ideal) .bf16 (shapeCast _ (extractStridedSlice S1x128x128 ![1, 0, 0] (W10 m ρ c (Proc.devRef .tc main_arg12) : (⟨S3x128x128, .f32⟩ : BufTy).Contents (Elt Ideal)) slices_S3x128x128_S1x128x128_1_0_0) shapeCasts_S1x128x128_S128x128) bitsLt_bf16_f32 : (⟨S128x128, .bf16⟩ : BufTy).Contents (Elt Ideal)) := by
  show StableHlo.after hostOps5 (W10 m ρ c) (Proc.devRef .tc main_v103) = _
  simp only [hostOps5]
  after_results_simp
  try rfl
theorem rd_v106 : W11 m ρ c (Proc.devRef .tc main_v106) = (shapeCast _ (shapeCast _ (extractStridedSlice S1x128 ![1, 0] (W10 m ρ c (Proc.devRef .tc main_arg13) : (⟨S3x128, .f32⟩ : BufTy).Contents (Elt Ideal)) slices_S3x128_S1x128_1_0) shapeCasts_S1x128_S128) shapeCasts_S128_S1x128 : (⟨S1x128, .f32⟩ : BufTy).Contents (Elt Ideal)) := by
  show StableHlo.after hostOps5 (W10 m ρ c) (Proc.devRef .tc main_v106) = _
  simp only [hostOps5]
  after_results_simp
  try rfl
theorem rd_v110 : W13 m ρ c (Proc.devRef .tc main_v110) = (truncf (F := Ideal) .bf16 (shapeCast _ (extractStridedSlice S1x128x128 ![2, 0, 0] (W12 m ρ c (Proc.devRef .tc main_arg6) : (⟨S3x256x128, .f32⟩ : BufTy).Contents (Elt Ideal)) slices_S3x256x128_S1x128x128_2_0_0) shapeCasts_S1x128x128_S128x128) bitsLt_bf16_f32 : (⟨S128x128, .bf16⟩ : BufTy).Contents (Elt Ideal)) := by
  show StableHlo.after hostOps6 (W12 m ρ c) (Proc.devRef .tc main_v110) = _
  simp only [hostOps6]
  after_results_simp
  try rfl
theorem rd_v113 : W13 m ρ c (Proc.devRef .tc main_v113) = (truncf (F := Ideal) .bf16 (shapeCast _ (extractStridedSlice S1x128x128 ![2, 128, 0] (W12 m ρ c (Proc.devRef .tc main_arg6) : (⟨S3x256x128, .f32⟩ : BufTy).Contents (Elt Ideal)) slices_S3x256x128_S1x128x128_2_128_0) shapeCasts_S1x128x128_S128x128) bitsLt_bf16_f32 : (⟨S128x128, .bf16⟩ : BufTy).Contents (Elt Ideal)) := by
  show StableHlo.after hostOps6 (W12 m ρ c) (Proc.devRef .tc main_v113) = _
  simp only [hostOps6]
  after_results_simp
  try rfl
theorem rd_v116 : W13 m ρ c (Proc.devRef .tc main_v116) = (shapeCast _ (shapeCast _ (extractStridedSlice S1x128 ![2, 0] (W12 m ρ c (Proc.devRef .tc main_arg7) : (⟨S3x128, .f32⟩ : BufTy).Contents (Elt Ideal)) slices_S3x128_S1x128_2_0) shapeCasts_S1x128_S128) shapeCasts_S128_S1x128 : (⟨S1x128, .f32⟩ : BufTy).Contents (Elt Ideal)) := by
  show StableHlo.after hostOps6 (W12 m ρ c) (Proc.devRef .tc main_v116) = _
  simp only [hostOps6]
  after_results_simp
  try rfl
theorem rd_v119 : W13 m ρ c (Proc.devRef .tc main_v119) = (truncf (F := Ideal) .bf16 (shapeCast _ (extractStridedSlice S1x128x128 ![2, 0, 0] (W12 m ρ c (Proc.devRef .tc main_arg8) : (⟨S3x128x128, .f32⟩ : BufTy).Contents (Elt Ideal)) slices_S3x128x128_S1x128x128_2_0_0) shapeCasts_S1x128x128_S128x128) bitsLt_bf16_f32 : (⟨S128x128, .bf16⟩ : BufTy).Contents (Elt Ideal)) := by
  show StableHlo.after hostOps6 (W12 m ρ c) (Proc.devRef .tc main_v119) = _
  simp only [hostOps6]
  after_results_simp
  try rfl
theorem rd_v122 : W13 m ρ c (Proc.devRef .tc main_v122) = (shapeCast _ (shapeCast _ (extractStridedSlice S1x128 ![2, 0] (W12 m ρ c (Proc.devRef .tc main_arg9) : (⟨S3x128, .f32⟩ : BufTy).Contents (Elt Ideal)) slices_S3x128_S1x128_2_0) shapeCasts_S1x128_S128) shapeCasts_S128_S1x128 : (⟨S1x128, .f32⟩ : BufTy).Contents (Elt Ideal)) := by
  show StableHlo.after hostOps6 (W12 m ρ c) (Proc.devRef .tc main_v122) = _
  simp only [hostOps6]
  after_results_simp
  try rfl
theorem rd_v130 : W15 m ρ c (Proc.devRef .tc main_v130) = (Host.gather gather_S50000x128_S800000x1_S800000x128_1_0_n_n_0_1_1128 (W14 m ρ c (Proc.devRef .tc main_v123_0) : (⟨S50000x128, .bf16⟩ : BufTy).Contents (Elt Ideal)) (broadcastInDim S800000x1 ![0] bcast_S800000_S800000x1_0 (select (cmpi .slt (W14 m ρ c (Proc.devRef .tc main_v1) : (⟨S800000, .i32⟩ : BufTy).Contents (Elt Ideal)) (broadcastInDim S800000 ![] bcast_S_S800000 (constantI S_ 32 0#32))) (addi (W14 m ρ c (Proc.devRef .tc main_v1) : (⟨S800000, .i32⟩ : BufTy).Contents (Elt Ideal)) (broadcastInDim S800000 ![] bcast_S_S800000 (constantI S_ 32 50000#32))) (W14 m ρ c (Proc.devRef .tc main_v1) : (⟨S800000, .i32⟩ : BufTy).Contents (Elt Ideal)))) : (⟨S800000x128, .bf16⟩ : BufTy).Contents (Elt Ideal)) := by
  show StableHlo.after hostOps7 (W14 m ρ c) (Proc.devRef .tc main_v130) = _
  simp only [hostOps7]
  after_results_simp
  try rfl
theorem rd_v137 : W15 m ρ c (Proc.devRef .tc main_v137) = (Host.gather gather_S50000x128_S800000x1_S800000x128_1_0_n_n_0_1_1128 (W14 m ρ c (Proc.devRef .tc main_v123_1) : (⟨S50000x128, .bf16⟩ : BufTy).Contents (Elt Ideal)) (broadcastInDim S800000x1 ![0] bcast_S800000_S800000x1_0 (select (cmpi .slt (W14 m ρ c (Proc.devRef .tc main_v3) : (⟨S800000, .i32⟩ : BufTy).Contents (Elt Ideal)) (broadcastInDim S800000 ![] bcast_S_S800000 (constantI S_ 32 0#32))) (addi (W14 m ρ c (Proc.devRef .tc main_v3) : (⟨S800000, .i32⟩ : BufTy).Contents (Elt Ideal)) (broadcastInDim S800000 ![] bcast_S_S800000 (constantI S_ 32 50000#32))) (W14 m ρ c (Proc.devRef .tc main_v3) : (⟨S800000, .i32⟩ : BufTy).Contents (Elt Ideal)))) : (⟨S800000x128, .bf16⟩ : BufTy).Contents (Elt Ideal)) := by
  show StableHlo.after hostOps7 (W14 m ρ c) (Proc.devRef .tc main_v137) = _
  simp only [hostOps7]
  after_results_simp
  try rfl
theorem rd_v141 : W17 m ρ c (Proc.devRef .tc main_v141) = (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (W16 m ρ c (Proc.devRef .tc main_v3) : (⟨S800000, .i32⟩ : BufTy).Contents (Elt Ideal))) (W16 m ρ c (Proc.devRef .tc main_v138) : (⟨S800000x128, .f32⟩ : BufTy).Contents (Elt Ideal)) : (⟨S50000x128, .f32⟩ : BufTy).Contents (Elt Ideal)) := by
  show StableHlo.after hostOps8 (W16 m ρ c) (Proc.devRef .tc main_v141) = _
  simp only [hostOps8]
  after_results_simp
  try rfl
theorem rd_v144 : W17 m ρ c (Proc.devRef .tc main_v144) = (truncf (F := Ideal) .bf16 (shapeCast _ (extractStridedSlice S1x128x128 ![2, 0, 0] (W16 m ρ c (Proc.devRef .tc main_arg10) : (⟨S3x256x128, .f32⟩ : BufTy).Contents (Elt Ideal)) slices_S3x256x128_S1x128x128_2_0_0) shapeCasts_S1x128x128_S128x128) bitsLt_bf16_f32 : (⟨S128x128, .bf16⟩ : BufTy).Contents (Elt Ideal)) := by
  show StableHlo.after hostOps8 (W16 m ρ c) (Proc.devRef .tc main_v144) = _
  simp only [hostOps8]
  after_results_simp
  try rfl
theorem rd_v147 : W17 m ρ c (Proc.devRef .tc main_v147) = (truncf (F := Ideal) .bf16 (shapeCast _ (extractStridedSlice S1x128x128 ![2, 128, 0] (W16 m ρ c (Proc.devRef .tc main_arg10) : (⟨S3x256x128, .f32⟩ : BufTy).Contents (Elt Ideal)) slices_S3x256x128_S1x128x128_2_128_0) shapeCasts_S1x128x128_S128x128) bitsLt_bf16_f32 : (⟨S128x128, .bf16⟩ : BufTy).Contents (Elt Ideal)) := by
  show StableHlo.after hostOps8 (W16 m ρ c) (Proc.devRef .tc main_v147) = _
  simp only [hostOps8]
  after_results_simp
  try rfl
theorem rd_v150 : W17 m ρ c (Proc.devRef .tc main_v150) = (shapeCast _ (shapeCast _ (extractStridedSlice S1x128 ![2, 0] (W16 m ρ c (Proc.devRef .tc main_arg11) : (⟨S3x128, .f32⟩ : BufTy).Contents (Elt Ideal)) slices_S3x128_S1x128_2_0) shapeCasts_S1x128_S128) shapeCasts_S128_S1x128 : (⟨S1x128, .f32⟩ : BufTy).Contents (Elt Ideal)) := by
  show StableHlo.after hostOps8 (W16 m ρ c) (Proc.devRef .tc main_v150) = _
  simp only [hostOps8]
  after_results_simp
  try rfl
theorem rd_v153 : W17 m ρ c (Proc.devRef .tc main_v153) = (truncf (F := Ideal) .bf16 (shapeCast _ (extractStridedSlice S1x128x128 ![2, 0, 0] (W16 m ρ c (Proc.devRef .tc main_arg12) : (⟨S3x128x128, .f32⟩ : BufTy).Contents (Elt Ideal)) slices_S3x128x128_S1x128x128_2_0_0) shapeCasts_S1x128x128_S128x128) bitsLt_bf16_f32 : (⟨S128x128, .bf16⟩ : BufTy).Contents (Elt Ideal)) := by
  show StableHlo.after hostOps8 (W16 m ρ c) (Proc.devRef .tc main_v153) = _
  simp only [hostOps8]
  after_results_simp
  try rfl
theorem rd_v156 : W17 m ρ c (Proc.devRef .tc main_v156) = (shapeCast _ (shapeCast _ (extractStridedSlice S1x128 ![2, 0] (W16 m ρ c (Proc.devRef .tc main_arg13) : (⟨S3x128, .f32⟩ : BufTy).Contents (Elt Ideal)) slices_S3x128_S1x128_2_0) shapeCasts_S1x128_S128) shapeCasts_S128_S1x128 : (⟨S1x128, .f32⟩ : BufTy).Contents (Elt Ideal)) := by
  show StableHlo.after hostOps8 (W16 m ρ c) (Proc.devRef .tc main_v156) = _
  simp only [hostOps8]
  after_results_simp
  try rfl
theorem rd_v161 : W19 m ρ c (Proc.devRef .tc main_v161) = (addf (F := Ideal) (Host.dotGeneral (F := Ideal) (φ₁ := .f32) (φ₂ := .f32) dot_S50000x128_S128x3_S50000x3_1_0_0_1_n_n none (W18 m ρ c (Proc.devRef .tc main_v157) : (⟨S50000x128, .f32⟩ : BufTy).Contents (Elt Ideal)) (W18 m ρ c (Proc.devRef .tc main_arg4) : (⟨S128x3, .f32⟩ : BufTy).Contents (Elt Ideal))) (broadcastInDim S50000x3 ![0, 1] bcast_S1x3_S50000x3_0_1 (broadcastInDim S1x3 ![1] bcast_S3_S1x3_1 (W18 m ρ c (Proc.devRef .tc main_arg5) : (⟨S3, .f32⟩ : BufTy).Contents (Elt Ideal)))) : (⟨S50000x3, .f32⟩ : BufTy).Contents (Elt Ideal)) := by
  show StableHlo.after hostOps9 (W18 m ρ c) (Proc.devRef .tc main_v161) = _
  simp only [hostOps9]
  after_results_simp
  try rfl

end Cert.KernelIdeal.Chain

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.LibSplitSum.lean ====
/-
  A sum over consecutive indices splits into consecutive stretches.

  The reference contracts the concatenation of three (or two) pieces against the whole first weight (or the whole
  update weight); the kernel contracts each piece against its own block of the weight and adds. The two agree because
  a sum over `Fin 288` is the sum over its first 128 indices plus the sum over the next 128 plus the sum over the
  last 32, and a sum over `Fin 256` the sum over its two halves — in any additive commutative monoid, the extended
  reals included: only the order and grouping of the terms change.
-/
import Mathlib.Algebra.BigOperators.Fin

namespace Cert.Split

/-- `Fin (a + b)` summed as its first `a` indices and its last `b`. -/
theorem sum_two {M : Type*} [AddCommMonoid M] (a b n : ℕ) (h : a + b = n) (f : Fin n → M) :
    ∑ q : Fin n, f q
      = (∑ k : Fin a, f ⟨k.val, by omega⟩) + ∑ k : Fin b, f ⟨a + k.val, by omega⟩ := by
  subst h
  rw [Fin.sum_univ_add]
  rfl

/-- `Fin (a + b + c)` summed as three consecutive stretches, the third starting at `ab = a + b`. -/
theorem sum_three {M : Type*} [AddCommMonoid M] (a b c ab n : ℕ) (hab : a + b = ab) (h : ab + c = n) (f : Fin n → M) :
    ∑ q : Fin n, f q
      = ((∑ k : Fin a, f ⟨k.val, by omega⟩) + ∑ k : Fin b, f ⟨a + k.val, by omega⟩)
        + ∑ k : Fin c, f ⟨ab + k.val, by omega⟩ := by
  subst hab
  rw [sum_two (a + b) c n h f, sum_two a b (a + b) rfl fun q => f ⟨q.val, by omega⟩]

end Cert.Split
-- ==== Proof.Spec.lean ====
/-
  The message-passing layer on the extended reals, entry by entry.

  A matrix is a function of a two-coordinate index into the extended reals; `mm` is the textbook product and
  `lin X W B` a dense layer X · W + B with the bias kept as a [1, C] row (both from the dense-layer library).
  One layer of the network takes node features h : [N, 128] and, for every edge e with source row r e and
  destination row s e,

    message e   = relu (cat (h (r e)) (h (s e)) · w1 + b1) · w2 + b2          (the edge network)
    agg         = the messages summed per destination node                     (the same scatter on both sides)
    h'          = h + (relu (cat h agg · nw1 + nb1) · nw2 + nb2)               (the node network, residual)

  The kernel never forms the concatenations. It multiplies by the two halves of the first weight separately,
  w1a = rows 0..127 and w1b = rows 128..255, and for the edge network does so once per NODE, before the rows are
  gathered per edge: p = h · w1a, q = h · w1b, message e = relu ((p (r e) + q (s e)) + b1) · w2 + b2.
  The two spellings agree because a sum over 256 consecutive indices is the sum over its first 128 plus the sum over
  its last 128 (a regrouping of a finite sum, valid in any commutative monoid, so no finiteness of the entries is
  used), and because selecting row r e of a product is the product of the selected row.
-/
import Idealize.ShloMosaic.Lib.ValueIdx
import Idealize.ShloMosaic.PureOps.Ideal.Laws
import proofs.«134322_j88562225643709_2_alg».proof.Proof.LibDense
import proofs.«134322_j88562225643709_2_alg».proof.Proof.LibSplitSum

noncomputable section

namespace Cert.Mpnn

open Idealize.ShloMosaic Idealize.ShloMosaic.ValueIdx Cert.Dense

/-- An R × C matrix of extended reals. -/
abbrev Mat (R C : Nat) : Type := (⟨2, ![R, C]⟩ : Shape).Idx → EReal

/-- Zero, as the float word both programs spell in their rectifiers. -/
abbrev zero : EReal := Ideal.ofBits .f32 0x00000000#32

/-- Rows of `X` selected by `r`: row e of the result is row r e of X. -/
def rowsOf {N E C : Nat} (X : Mat N C) (r : Fin E → Fin N) : Mat E C := fun i => X (ix2 (r (i 0)) (i 1))

/-- Two matrices side by side along the columns: 128 columns of A, then 128 columns of B. -/
def cat {R : Nat} (A B : Mat R 128) : Mat R 256 := fun i =>
  if h : (i 1).val < 128 then A (ix2 (i 0) ⟨(i 1).val, h⟩) else B (ix2 (i 0) ⟨(i 1).val - 128, by have := idx2_lt1 i; omega⟩)

/-- The top and the bottom half (rows 0..127, rows 128..255) of a 256-row weight. -/
def top (W : Mat 256 128) : Mat 128 128 := fun i => W (ix2 ⟨(i 0).val, by have := idx2_lt0 i; omega⟩ (i 1))
def bot (W : Mat 256 128) : Mat 128 128 := fun i => W (ix2 ⟨128 + (i 0).val, by have := idx2_lt0 i; omega⟩ (i 1))

/-- The edge network as the kernel computes it from the gathered projections pr = p (r ·), qc = q (s ·). -/
def edgeK {E : Nat} (pr qc : Mat E 128) (b1 : Mat 1 128) (w2 : Mat 128 128) (b2 : Mat 1 128) : Mat E 128 :=
  lin (fun i => max ((pr i + qc i) + b1 (ix2 (0 : Fin 1) (i 1))) zero) w2 b2

/-- The edge network as the reference computes it from the gathered features hr = h (r ·), hc = h (s ·). -/
def edgeR {E : Nat} (hr hc : Mat E 128) (w1 : Mat 256 128) (b1 : Mat 1 128) (w2 : Mat 128 128) (b2 : Mat 1 128) :
    Mat E 128 :=
  lin (fun i => max (lin (cat hr hc) w1 b1 i) zero) w2 b2

/-- The node network with its residual, as the kernel computes it: the two halves of the first weight apart. -/
def nodeK {N : Nat} (h agg : Mat N 128) (w1a w1b : Mat 128 128) (b1 : Mat 1 128) (w2 : Mat 128 128) (b2 : Mat 1 128) :
    Mat N 128 :=
  fun i => h i + lin (fun i' => max ((mm h w1a i' + mm agg w1b i') + b1 (ix2 (0 : Fin 1) (i' 1))) zero) w2 b2 i

/-- The node network with its residual, as the reference computes it: one product with the concatenation. -/
def nodeR {N : Nat} (h agg : Mat N 128) (w1 : Mat 256 128) (b1 : Mat 1 128) (w2 : Mat 128 128) (b2 : Mat 1 128) :
    Mat N 128 :=
  fun i => h i + lin (fun i' => max (lin (cat h agg) w1 b1 i') zero) w2 b2 i

/-- A product with a concatenation is the sum of the products with the halves: the sum over 256 indices split
    into its first 128 and its last 128. -/
theorem mm_cat {R : Nat} (A B : Mat R 128) (W : Mat 256 128) (i : (⟨2, ![R, 128]⟩ : Shape).Idx) :
    mm (cat A B) W i = mm A (top W) i + mm B (bot W) i := by
  have h1 : ∀ k : Fin 128, cat A B (ix2 (i 0) ⟨k.val, by have := k.isLt; omega⟩) = A (ix2 (i 0) k) := fun k => by
    have hk : k.val < 128 := k.isLt
    show (if h : k.val < 128 then A (ix2 (i 0) ⟨k.val, h⟩) else _) = _
    rw [dif_pos hk]
  have h2 : ∀ k : Fin 128, cat A B (ix2 (i 0) ⟨128 + k.val, by have := k.isLt; omega⟩) = B (ix2 (i 0) k) := fun k => by
    have hk : ¬ (128 + k.val < 128) := by omega
    show (if h : 128 + k.val < 128 then _ else B (ix2 (i 0) ⟨128 + k.val - 128, _⟩)) = _
    rw [dif_neg hk]
    exact congrArg (fun q => B (ix2 (i 0) q)) (Fin.ext (by simp))
  unfold mm
  rw [Cert.Split.sum_two 128 128 256 rfl]
  refine congrArg₂ (· + ·) (Finset.sum_congr rfl fun k _ => ?_) (Finset.sum_congr rfl fun k _ => ?_)
  · rw [h1 k]; rfl
  · rw [h2 k]; rfl

/-- Selecting rows of a product is the product of the selected rows. -/
theorem rowsOf_mm {N E : Nat} (h : Mat N 128) (W : Mat 128 128) (r : Fin E → Fin N) :
    rowsOf (mm h W) r = mm (rowsOf h r) W := by
  funext i
  rfl

/-- THE EDGE NETWORK: projecting per node and gathering, then adding, is gathering, concatenating and projecting. -/
theorem edge_law {N E : Nat} (h : Mat N 128) (r s : Fin E → Fin N) (w1 : Mat 256 128) (b1 : Mat 1 128)
    (w2 : Mat 128 128) (b2 : Mat 1 128) :
    edgeK (rowsOf (mm h (top w1)) r) (rowsOf (mm h (bot w1)) s) b1 w2 b2
      = edgeR (rowsOf h r) (rowsOf h s) w1 b1 w2 b2 := by
  unfold edgeK edgeR
  congr 1
  funext i
  rw [rowsOf_mm, rowsOf_mm]
  unfold lin
  rw [mm_cat]

/-- THE NODE NETWORK: the two half products added are the product with the concatenation. -/
theorem node_law {N : Nat} (h agg : Mat N 128) (w1 : Mat 256 128) (b1 : Mat 1 128) (w2 : Mat 128 128) (b2 : Mat 1 128) :
    nodeK h agg (top w1) (bot w1) b1 w2 b2 = nodeR h agg w1 b1 w2 b2 := by
  unfold nodeK nodeR
  funext i
  congr 2
  funext i'
  unfold lin
  rw [mm_cat]

/-! ## One whole layer, and the network around the layers -/

/-- A rank-3 array of extended reals. -/
abbrev T3 (a b c : Nat) : Type := (⟨3, ![a, b, c]⟩ : Shape).Idx → EReal

/-- Layer l's slice of a stacked weight [3, K, 128], and of a stacked bias [3, 128] kept as a [1, 128] row. -/
def wslice {K : Nat} (A : T3 3 K 128) (l : Fin 3) : Mat K 128 := fun i => A (ix3 l (i 0) (i 1))
def bslice (A : Mat 3 128) (l : Fin 3) : Mat 1 128 := fun i => A (ix2 l (i 1))

/-- A length-C vector as a [1, C] row. -/
def rowOf {C : Nat} (b : (⟨1, ![C]⟩ : Shape).Idx → EReal) : Mat 1 C := fun i => b (ix1 (i 1))

/-- One layer as the reference computes it; `S` is the per-destination sum of the messages (the same function of
    the messages in both programs), `r` / `s` the source / destination row of each edge. -/
def layerR {N E : Nat} (S : Mat E 128 → Mat N 128) (r s : Fin E → Fin N)
    (w1 : Mat 256 128) (b1 : Mat 1 128) (w2 : Mat 128 128) (b2 : Mat 1 128)
    (nw1 : Mat 256 128) (nb1 : Mat 1 128) (nw2 : Mat 128 128) (nb2 : Mat 1 128) (h : Mat N 128) : Mat N 128 :=
  nodeR h (S (edgeR (rowsOf h r) (rowsOf h s) w1 b1 w2 b2)) nw1 nb1 nw2 nb2

/-- One layer as the kernel computes it. -/
def layerK {N E : Nat} (S : Mat E 128 → Mat N 128) (r s : Fin E → Fin N)
    (w1 : Mat 256 128) (b1 : Mat 1 128) (w2 : Mat 128 128) (b2 : Mat 1 128)
    (nw1 : Mat 256 128) (nb1 : Mat 1 128) (nw2 : Mat 128 128) (nb2 : Mat 1 128) (h : Mat N 128) : Mat N 128 :=
  nodeK h (S (edgeK (rowsOf (mm h (top w1)) r) (rowsOf (mm h (bot w1)) s) b1 w2 b2)) (top nw1) (bot nw1) nb1 nw2 nb2

/-- THE LAYER: the kernel's layer is the reference's. -/
theorem layer_law {N E : Nat} (S : Mat E 128 → Mat N 128) (r s : Fin E → Fin N)
    (w1 : Mat 256 128) (b1 : Mat 1 128) (w2 : Mat 128 128) (b2 : Mat 1 128)
    (nw1 : Mat 256 128) (nb1 : Mat 1 128) (nw2 : Mat 128 128) (nb2 : Mat 1 128) (h : Mat N 128) :
    layerK S r s w1 b1 w2 b2 nw1 nb1 nw2 nb2 h = layerR S r s w1 b1 w2 b2 nw1 nb1 nw2 nb2 h := by
  unfold layerK layerR
  rw [edge_law, node_law]

end Cert.Mpnn

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.HostRead.lean ====
/-
  Host operations read as the functions of the specification.

  Every operation here is taken at the extended reals (a float is an extended real, a change of float format is the
  identity, a product is the plain sum over the contracted index).  Each lemma reads one host spelling — a dense layer,
  a vector made a row, the rectifier, two blocks side by side, a gather of rows, a layer's slice of a stacked weight
  or bias, the index column the gathers take — as the matrix function the specification names, as an equality of
  whole arrays.  The lemmas are stated over the extents and over the side conditions as variables, so that both
  programs' copies of a dimension record instantiate them.

  A slice is stated over an offset function "off" together with the equation off = ![l, o, 0]: the slice of layer l
  starting at row o.
-/
import Idealize.ShloMosaic.Lib.ValueIdx
import Idealize.ShloMosaic.Lib.Pipeline.Value
import Idealize.ShloMosaic.Lib.ValueLayout
import Idealize.ShloMosaic.PureOps.Ideal.Laws
import proofs.«134322_j88562225643709_2_alg».proof.Proof.Spec
import proofs.«134322_j88562225643709_2_alg».proof.Proof.LibDense
import proofs.«134322_j88562225643709_2_alg».proof.Proof.LibGatherRows

noncomputable section

namespace Cert.Mpnn.Read

open Idealize.ShloMosaic Idealize.ShloMosaic.ValueIdx Cert.Dense Cert.Mpnn

/-! ## A bias row under every row, and a dense layer -/

/-- A [1, C] row broadcast over R rows reads, at (p, q), the row's entry q. -/
theorem bcastRows_apply {R C : Nat} {α : Type}
    (hB : (⟨2, ![1, C]⟩ : Shape).BroadcastsInDim ⟨2, ![R, C]⟩ ![0, 1])
    (B : (⟨2, ![1, C]⟩ : Shape).Idx → α) (p : Fin R) (q : Fin C) :
    broadcastInDim ⟨2, ![R, C]⟩ ![0, 1] hB B (ix2 p q) = B (ix2 (0 : Fin 1) q) := by
  refine broadcastInDim_apply ![0, 1] hB B (ix2 p q) (ix2 (0 : Fin 1) q) fun ax => ?_
  match ax with
  | ⟨0, _⟩ => rfl
  | ⟨1, _⟩ =>
    show q.val = if C = 1 then 0 else q.val
    split
    · have := q.isLt; omega
    · rfl

/-- (1) THE DENSE LAYER: the host's product plus the bias row under every row is X · W + B. -/
theorem dense_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (hB : (⟨2, ![1, C]⟩ : Shape).BroadcastsInDim ⟨2, ![R, C]⟩ ![0, 1])
    (X : FVec Ideal ⟨2, ![R, K]⟩ φ₁) (W : FVec Ideal ⟨2, ![K, C]⟩ φ₂) (B : FVec Ideal ⟨2, ![1, C]⟩ .f32) :
    addf (Host.dotGeneral D none X W) (broadcastInDim ⟨2, ![R, C]⟩ ![0, 1] hB B) = lin X W B := by
  funext j
  obtain ⟨p, q, rfl⟩ : ∃ (p : Fin R) (q : Fin C), j = ix2 p q := ⟨j 0, j 1, eq_ix2 j⟩
  show FloatOps.dotGeneral D none .single X W (ix2 p q) + broadcastInDim ⟨2, ![R, C]⟩ ![0, 1] hB B (ix2 p q)
    = mm X W (ix2 p q) + B (ix2 (0 : Fin 1) q)
  rw [dotGeneral_eq D hr hs l0 l1 r0 r1 none .single X W (ix2 p q), bcastRows_apply hB B p q]

/-- The product alone (a layer whose bias is added elsewhere). -/
theorem dot_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (X : FVec Ideal ⟨2, ![R, K]⟩ φ₁) (W : FVec Ideal ⟨2, ![K, C]⟩ φ₂) :
    Host.dotGeneral D none X W = mm X W := by
  funext j
  exact dotGeneral_eq D hr hs l0 l1 r0 r1 none .single X W j

/-! ## A vector made a row -/

/-- (2) A length-C vector broadcast to a [1, C] row is that row. -/
theorem bcastRow_eq {C : Nat} (h : (⟨1, ![C]⟩ : Shape).BroadcastsInDim ⟨2, ![1, C]⟩ ![1])
    (b : (⟨1, ![C]⟩ : Shape).Idx → EReal) : broadcastInDim ⟨2, ![1, C]⟩ ![1] h b = rowOf b := by
  funext i
  obtain ⟨u, q, rfl⟩ : ∃ (u : Fin 1) (q : Fin C), i = ix2 u q := ⟨i 0, i 1, eq_ix2 i⟩
  show _ = b (ix1 q)
  refine broadcastInDim_apply ![1] h b (ix2 u q) (ix1 q) fun ax => ?_
  match ax with
  | ⟨0, _⟩ =>
    show q.val = if C = 1 then 0 else q.val
    split
    · have := q.isLt; omega
    · rfl

/-- (2) The same vector cast to a [1, C] row is that row. -/
theorem castRow_eq {C : Nat} (h : (⟨1, ![C]⟩ : Shape).ShapeCasts ⟨2, ![1, C]⟩)
    (b : (⟨1, ![C]⟩ : Shape).Idx → EReal) : shapeCast ⟨2, ![1, C]⟩ b h = rowOf b := by
  funext i
  obtain ⟨u, q, rfl⟩ : ∃ (u : Fin 1) (q : Fin C), i = ix2 u q := ⟨i 0, i 1, eq_ix2 i⟩
  exact shapeCast_a_1a_apply b h u q

/-! ## The rectifier -/

/-- (3) The maximum with the broadcast zero word is the maximum with zero, entry by entry. -/
theorem relu_eq {S : Shape} (h : (⟨0, ![]⟩ : Shape).BroadcastsInDim S ![]) (X : FVec Ideal S .f32) :
    maximumf X (broadcastInDim S ![] h (constant (F := Ideal) ⟨0, ![]⟩ .f32 0x00000000#32))
      = fun i => max (X i) zero := rfl

/-! ## Two blocks side by side -/

/-- (4) The concatenation of two 128-column blocks along the columns. -/
theorem cat_eq {R : Nat}
    (h : Shape.Concatenates [(⟨2, ![R, 128]⟩ : Shape), ⟨2, ![R, 128]⟩] ⟨2, ![R, 256]⟩ 1) (A B : Mat R 128) :
    concatenate ⟨2, ![R, 256]⟩ 1 [⟨⟨2, ![R, 128]⟩, A⟩, ⟨⟨2, ![R, 128]⟩, B⟩] h = cat A B := by
  funext i
  obtain ⟨p, q, rfl⟩ : ∃ (p : Fin R) (q : Fin 256), i = ix2 p q := ⟨i 0, i 1, eq_ix2 i⟩
  by_cases hq : q.val < 128
  · have e : cat A B (ix2 p q) = A (ix2 p ⟨q.val, hq⟩) := by
      show (if h : q.val < 128 then A (ix2 p ⟨q.val, h⟩) else _) = _
      rw [dif_pos hq]
    rw [e]
    exact concatenate_pair_apply_left 1 A B h (ix2 p q) rfl (ix2 p ⟨q.val, hq⟩) (fun b => by
      match b with
      | ⟨0, _⟩ => rfl
      | ⟨1, _⟩ => rfl)
  · have e : cat A B (ix2 p q) = B (ix2 p ⟨q.val - 128, by have := q.isLt; omega⟩) := by
      show (if h : q.val < 128 then _ else B (ix2 p ⟨q.val - 128, _⟩)) = _
      rw [dif_neg hq]
    rw [e]
    exact concatenate_pair_apply_right 1 A B h (ix2 p q) rfl rfl (ix2 p ⟨q.val - 128, by have := q.isLt; omega⟩)
      (fun b hb => by
        match b, hb with
        | ⟨0, _⟩, _ => rfl
        | ⟨1, _⟩, hb => exact absurd rfl hb)
      (by show q.val - 128 + 128 = q.val; omega)

/-! ## A gather of rows -/

/-- (5) A gather of whole rows is the selection of the rows the start words name, each clamped into the table. -/
theorem gather_eq {N C E w : Nat} (hN : 0 < N)
    (wf : GatherDims.WF ⟨2, ![N, C]⟩ ⟨2, ![E, 1]⟩ ⟨2, ![E, C]⟩ [1] [0] [] [0] [] 1 ![1, C])
    (D : GatherDims ⟨2, ![N, C]⟩ ⟨2, ![E, 1]⟩ ⟨2, ![E, C]⟩) (hD : D = rowsDims N C E wf)
    (X : Mat N C) (idx : IVec ⟨2, ![E, 1]⟩ w) :
    Host.gather D X idx = rowsOf X (fun e => ⟨clampRow N (idx (ix2 e (0 : Fin 1))), clampRow_lt hN _⟩) := by
  subst hD
  funext i
  obtain ⟨e, k, rfl⟩ : ∃ (e : Fin E) (k : Fin C), i = ix2 e k := ⟨i 0, i 1, eq_ix2 i⟩
  exact gather_rows_apply hN wf X idx e k

/-! ## A layer's slice of a stacked weight or bias -/

/-- The block of M rows from row o of layer l of a stacked weight, read at (p, q). -/
theorem wblock_apply {K M : Nat} {α : Type} (A : (⟨3, ![3, K, 128]⟩ : Shape).Idx → α) (l : Fin 3) (o : Nat)
    (off : Fin 3 → Nat) (hoff : off = ![l.val, o, 0])
    (hs : (⟨3, ![3, K, 128]⟩ : Shape).Slices off ⟨3, ![1, M, 128]⟩)
    (hc : (⟨3, ![1, M, 128]⟩ : Shape).ShapeCasts ⟨2, ![M, 128]⟩) (p : Fin M) (q : Fin 128) (hp : o + p.val < K) :
    shapeCast ⟨2, ![M, 128]⟩ (extractStridedSlice ⟨3, ![1, M, 128]⟩ off A hs) hc (ix2 p q)
      = A (ix3 l ⟨o + p.val, hp⟩ q) := by
  subst hoff
  rw [shapeCast_1ab_ab_apply]
  refine extractStridedSlice_apply _ A hs (ix3 (0 : Fin 1) p q) (ix3 l ⟨o + p.val, hp⟩ q) fun a => ?_
  match a with
  | ⟨0, _⟩ => show l.val = l.val + 0; omega
  | ⟨1, _⟩ => show o + p.val = o + p.val; rfl
  | ⟨2, _⟩ => show q.val = 0 + q.val; omega

/-- (6) Layer l's whole slice of a stacked weight [3, K, 128]. -/
theorem wslice_eq {K : Nat} (A : T3 3 K 128) (l : Fin 3) (off : Fin 3 → Nat) (hoff : off = ![l.val, 0, 0])
    (hs : (⟨3, ![3, K, 128]⟩ : Shape).Slices off ⟨3, ![1, K, 128]⟩)
    (hc : (⟨3, ![1, K, 128]⟩ : Shape).ShapeCasts ⟨2, ![K, 128]⟩) :
    shapeCast ⟨2, ![K, 128]⟩ (extractStridedSlice ⟨3, ![1, K, 128]⟩ off A hs) hc = wslice A l := by
  funext i
  obtain ⟨p, q, rfl⟩ : ∃ (p : Fin K) (q : Fin 128), i = ix2 p q := ⟨i 0, i 1, eq_ix2 i⟩
  rw [wblock_apply A l 0 off hoff hs hc p q (by have := p.isLt; omega)]
  show A (ix3 l ⟨0 + p.val, _⟩ q) = A (ix3 l p q)
  exact congrArg (fun r => A (ix3 l r q)) (Fin.ext (Nat.zero_add _))

/-- (6) The first 128 rows of layer l's slice of a [3, 256, 128] weight. -/
theorem top_eq (A : T3 3 256 128) (l : Fin 3) (off : Fin 3 → Nat) (hoff : off = ![l.val, 0, 0])
    (hs : (⟨3, ![3, 256, 128]⟩ : Shape).Slices off ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ off A hs) hc = top (wslice A l) := by
  funext i
  obtain ⟨p, q, rfl⟩ : ∃ (p : Fin 128) (q : Fin 128), i = ix2 p q := ⟨i 0, i 1, eq_ix2 i⟩
  rw [wblock_apply A l 0 off hoff hs hc p q (by have := p.isLt; omega)]
  show A (ix3 l ⟨0 + p.val, _⟩ q) = A (ix3 l ⟨p.val, _⟩ q)
  exact congrArg (fun r => A (ix3 l r q)) (Fin.ext (Nat.zero_add _))

/-- (6) The last 128 rows of layer l's slice of a [3, 256, 128] weight. -/
theorem bot_eq (A : T3 3 256 128) (l : Fin 3) (off : Fin 3 → Nat) (hoff : off = ![l.val, 128, 0])
    (hs : (⟨3, ![3, 256, 128]⟩ : Shape).Slices off ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ off A hs) hc = bot (wslice A l) := by
  funext i
  obtain ⟨p, q, rfl⟩ : ∃ (p : Fin 128) (q : Fin 128), i = ix2 p q := ⟨i 0, i 1, eq_ix2 i⟩
  rw [wblock_apply A l 128 off hoff hs hc p q (by have := p.isLt; omega)]
  rfl

/-- Row k of an [n, E] array, sliced out and cast to a vector, read at e. -/
theorem rowVec_apply {n E : Nat} {α : Type} (A : (⟨2, ![n, E]⟩ : Shape).Idx → α) (k : Fin n)
    (off : Fin 2 → Nat) (hoff : off = ![k.val, 0])
    (hs : (⟨2, ![n, E]⟩ : Shape).Slices off ⟨2, ![1, E]⟩)
    (hc : (⟨2, ![1, E]⟩ : Shape).ShapeCasts ⟨1, ![E]⟩) (e : Fin E) :
    shapeCast ⟨1, ![E]⟩ (extractStridedSlice ⟨2, ![1, E]⟩ off A hs) hc (ix1 e) = A (ix2 k e) := by
  subst hoff
  rw [shapeCast_1a_a_apply]
  refine extractStridedSlice_apply _ A hs (ix2 (0 : Fin 1) e) (ix2 k e) fun a => ?_
  match a with
  | ⟨0, _⟩ => show k.val = k.val + 0; omega
  | ⟨1, _⟩ => show e.val = 0 + e.val; omega

/-- (6) Layer l's slice of a stacked bias [3, 128], as a vector, made a row. -/
theorem bslice_eq (A : Mat 3 128) (l : Fin 3) (off : Fin 2 → Nat) (hoff : off = ![l.val, 0])
    (hs : (⟨2, ![3, 128]⟩ : Shape).Slices off ⟨2, ![1, 128]⟩)
    (hc : (⟨2, ![1, 128]⟩ : Shape).ShapeCasts ⟨1, ![128]⟩) :
    rowOf (shapeCast ⟨1, ![128]⟩ (extractStridedSlice ⟨2, ![1, 128]⟩ off A hs) hc) = bslice A l := by
  funext i
  obtain ⟨u, q, rfl⟩ : ∃ (u : Fin 1) (q : Fin 128), i = ix2 u q := ⟨i 0, i 1, eq_ix2 i⟩
  exact rowVec_apply A l off hoff hs hc q

/-- (6) The bias slice made a row by a broadcast. -/
theorem bslice_bcast_eq (A : Mat 3 128) (l : Fin 3) (off : Fin 2 → Nat) (hoff : off = ![l.val, 0])
    (hs : (⟨2, ![3, 128]⟩ : Shape).Slices off ⟨2, ![1, 128]⟩)
    (hc : (⟨2, ![1, 128]⟩ : Shape).ShapeCasts ⟨1, ![128]⟩)
    (h : (⟨1, ![128]⟩ : Shape).BroadcastsInDim ⟨2, ![1, 128]⟩ ![1]) :
    broadcastInDim ⟨2, ![1, 128]⟩ ![1] h (shapeCast ⟨1, ![128]⟩ (extractStridedSlice ⟨2, ![1, 128]⟩ off A hs) hc)
      = bslice A l := by
  rw [bcastRow_eq, bslice_eq A l off hoff hs hc]

/-- (6) The bias slice made a row by a cast. -/
theorem bslice_cast_eq (A : Mat 3 128) (l : Fin 3) (off : Fin 2 → Nat) (hoff : off = ![l.val, 0])
    (hs : (⟨2, ![3, 128]⟩ : Shape).Slices off ⟨2, ![1, 128]⟩)
    (hc : (⟨2, ![1, 128]⟩ : Shape).ShapeCasts ⟨1, ![128]⟩)
    (h : (⟨1, ![128]⟩ : Shape).ShapeCasts ⟨2, ![1, 128]⟩) :
    shapeCast ⟨2, ![1, 128]⟩ (shapeCast ⟨1, ![128]⟩ (extractStridedSlice ⟨2, ![1, 128]⟩ off A hs) hc) h
      = bslice A l := by
  rw [castRow_eq, bslice_eq A l off hoff hs hc]

/-! ## The index column the gathers take -/

/-- A start word as both programs normalise it: a negative word has the table's 50000 rows added. -/
def normIdx (v : BitVec 32) : BitVec 32 :=
  Scalar.select (IntOp.cmpi .slt v 0#32) (IntOp.addi v 50000#32) v

/-- (7) The normalised index vector made an [E, 1] column reads, at (e, 0), the normalised word e. -/
theorem idxCol_apply {E : Nat} (h : (⟨1, ![E]⟩ : Shape).BroadcastsInDim ⟨2, ![E, 1]⟩ ![0])
    (h0 : (⟨0, ![]⟩ : Shape).BroadcastsInDim ⟨1, ![E]⟩ ![]) (v : IVec ⟨1, ![E]⟩ 32) (e : Fin E) :
    broadcastInDim ⟨2, ![E, 1]⟩ ![0] h
        (select (cmpi .slt v (broadcastInDim ⟨1, ![E]⟩ ![] h0 (constantI ⟨0, ![]⟩ 32 0#32)))
          (addi v (broadcastInDim ⟨1, ![E]⟩ ![] h0 (constantI ⟨0, ![]⟩ 32 50000#32))) v) (ix2 e (0 : Fin 1))
      = normIdx (v (ix1 e)) := by
  refine (broadcastInDim_apply ![0] h _ (ix2 e (0 : Fin 1)) (ix1 e) fun ax => ?_).trans rfl
  match ax with
  | ⟨0, _⟩ =>
    show e.val = if E = 1 then 0 else e.val
    split
    · have := e.isLt; omega
    · rfl

/-- (5)+(7) A gather of rows at the normalised index column: row e of the result is the table's row named by the
    normalised word e, clamped into the table. -/
theorem gatherNorm_eq {N C E : Nat} (hN : 0 < N)
    (wf : GatherDims.WF ⟨2, ![N, C]⟩ ⟨2, ![E, 1]⟩ ⟨2, ![E, C]⟩ [1] [0] [] [0] [] 1 ![1, C])
    (D : GatherDims ⟨2, ![N, C]⟩ ⟨2, ![E, 1]⟩ ⟨2, ![E, C]⟩) (hD : D = rowsDims N C E wf)
    (h : (⟨1, ![E]⟩ : Shape).BroadcastsInDim ⟨2, ![E, 1]⟩ ![0])
    (h0 : (⟨0, ![]⟩ : Shape).BroadcastsInDim ⟨1, ![E]⟩ ![]) (X : Mat N C) (v : IVec ⟨1, ![E]⟩ 32) :
    Host.gather D X (broadcastInDim ⟨2, ![E, 1]⟩ ![0] h
        (select (cmpi .slt v (broadcastInDim ⟨1, ![E]⟩ ![] h0 (constantI ⟨0, ![]⟩ 32 0#32)))
          (addi v (broadcastInDim ⟨1, ![E]⟩ ![] h0 (constantI ⟨0, ![]⟩ 32 50000#32))) v))
      = rowsOf X (fun e => ⟨clampRow N (normIdx (v (ix1 e))), clampRow_lt hN _⟩) := by
  rw [gather_eq hN wf D hD]
  refine congrArg (rowsOf X) (funext fun e => Fin.ext ?_)
  exact congrArg (clampRow N) (idxCol_apply h h0 v e)

end Cert.Mpnn.Read

end
-- ==== Proof.Net.lean ====
/-
  The whole network on the extended reals: encoder, three layers, decoder.

  x : [50000, 16] node inputs, a1 : [2, 800000] the edges' source (row 0) and destination (row 1) node words,
  the encoder h₀ = x · enc_w + enc_b, three layers h ↦ layer l h with layer l's slices of the stacked weights, the
  decoder h₃ · dec_w + dec_b. An edge's node word is normalised (a negative word has 50000 added) and clamped into
  the table, as the gathers of both programs do. The per-destination sum of the messages `S` is a parameter: both
  programs apply the same function there. The kernel's network and the reference's differ only in how each layer is
  computed, so they agree layer by layer.
-/
import proofs.«134322_j88562225643709_2_alg».proof.Proof.Spec
import proofs.«134322_j88562225643709_2_alg».proof.Proof.HostRead

noncomputable section

namespace Cert.Mpnn

open Idealize.ShloMosaic Idealize.ShloMosaic.ValueIdx Cert.Dense

/-- The node an edge's word in row k of the edge array names: normalised, then clamped into the 50000 rows. -/
def edgeRow (a1 : (⟨2, ![2, 800000]⟩ : Shape).Idx → BitVec 32) (k : Fin 2) : Fin 800000 → Fin 50000 :=
  fun e => ⟨clampRow 50000 (Read.normIdx (a1 (ix2 k e))), clampRow_lt (by decide) _⟩

section
variable (S : Mat 800000 128 → Mat 50000 128)
  (a0 : Mat 50000 16) (a1 : (⟨2, ![2, 800000]⟩ : Shape).Idx → BitVec 32) (a2 : Mat 16 128)
  (a3 : (⟨1, ![128]⟩ : Shape).Idx → EReal) (a4 : Mat 128 3) (a5 : (⟨1, ![3]⟩ : Shape).Idx → EReal)
  (a6 : T3 3 256 128) (a7 : Mat 3 128) (a8 : T3 3 128 128) (a9 : Mat 3 128)
  (a10 : T3 3 256 128) (a11 : Mat 3 128) (a12 : T3 3 128 128) (a13 : Mat 3 128)

/-- Layer l as the kernel computes it, and as the reference does. -/
def LK (l : Fin 3) (h : Mat 50000 128) : Mat 50000 128 :=
  layerK S (edgeRow a1 0) (edgeRow a1 1) (wslice a6 l) (bslice a7 l) (wslice a8 l) (bslice a9 l)
    (wslice a10 l) (bslice a11 l) (wslice a12 l) (bslice a13 l) h
def LR (l : Fin 3) (h : Mat 50000 128) : Mat 50000 128 :=
  layerR S (edgeRow a1 0) (edgeRow a1 1) (wslice a6 l) (bslice a7 l) (wslice a8 l) (bslice a9 l)
    (wslice a10 l) (bslice a11 l) (wslice a12 l) (bslice a13 l) h

/-- The network as the kernel computes it. -/
def netK : Mat 50000 3 :=
  lin (LK S a1 a6 a7 a8 a9 a10 a11 a12 a13 2 (LK S a1 a6 a7 a8 a9 a10 a11 a12 a13 1
    (LK S a1 a6 a7 a8 a9 a10 a11 a12 a13 0 (lin a0 a2 (rowOf a3))))) a4 (rowOf a5)
/-- The network as the reference computes it. -/
def netR : Mat 50000 3 :=
  lin (LR S a1 a6 a7 a8 a9 a10 a11 a12 a13 2 (LR S a1 a6 a7 a8 a9 a10 a11 a12 a13 1
    (LR S a1 a6 a7 a8 a9 a10 a11 a12 a13 0 (lin a0 a2 (rowOf a3))))) a4 (rowOf a5)

theorem LK_eq_LR (l : Fin 3) (h : Mat 50000 128) :
    LK S a1 a6 a7 a8 a9 a10 a11 a12 a13 l h = LR S a1 a6 a7 a8 a9 a10 a11 a12 a13 l h := layer_law ..

/-- THE NETWORK: the kernel's is the reference's. -/
theorem net_law : netK S a0 a1 a2 a3 a4 a5 a6 a7 a8 a9 a10 a11 a12 a13
    = netR S a0 a1 a2 a3 a4 a5 a6 a7 a8 a9 a10 a11 a12 a13 := by
  unfold netK netR
  rw [LK_eq_LR, LK_eq_LR, LK_eq_LR]
end

end Cert.Mpnn

end
-- ==== Proof.KernelWeights.lean ====
/-
  The kernel program's host stretches read as the specification's functions of the argument arrays: each layer's
  weights and biases as that layer's slices (the first edge and node weights as their top and bottom halves, a
  float format change being the identity on the extended reals), the encoder's output as a dense layer, the edge
  index vectors carried to every stretch that uses them, a gather as the selection of the rows the edges name, and
  the per-destination sum as one function of the messages.
-/
import proofs.«134322_j88562225643709_2_alg».proof.Proof.ChainKeep
import proofs.«134322_j88562225643709_2_alg».proof.Proof.ChainRead
import proofs.«134322_j88562225643709_2_alg».proof.Proof.Net

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Cert.Dense Cert.Mpnn

variable (m : (ℓ : Loc nD τ sig) → Buf (Elt Ideal) ℓ) (ρ : Dev nD → PrngReg) (c : Dev nD)

/-- A float format change is the identity on the extended reals. -/
theorem truncf_id {S : Shape} {φ ψ : FTy} (X : FVec Ideal S φ) (h : ψ.bits < φ.bits) : truncf (F := Ideal) ψ X h = X := rfl

/-! ## The argument arrays, as the matrices the specification takes -/
abbrev A0 : Mat 50000 16 := W0 m ρ c (Proc.devRef .tc main_arg0)
abbrev A1 : (⟨2, ![2, 800000]⟩ : Shape).Idx → BitVec 32 := W0 m ρ c (Proc.devRef .tc main_arg1)
abbrev A2 : Mat 16 128 := W0 m ρ c (Proc.devRef .tc main_arg2)
abbrev A3 : (⟨1, ![128]⟩ : Shape).Idx → EReal := W0 m ρ c (Proc.devRef .tc main_arg3)
abbrev A4 : Mat 128 3 := W0 m ρ c (Proc.devRef .tc main_arg4)
abbrev A5 : (⟨1, ![3]⟩ : Shape).Idx → EReal := W0 m ρ c (Proc.devRef .tc main_arg5)
abbrev A6 : T3 3 256 128 := W0 m ρ c (Proc.devRef .tc main_arg6)
abbrev A7 : Mat 3 128 := W0 m ρ c (Proc.devRef .tc main_arg7)
abbrev A8 : T3 3 128 128 := W0 m ρ c (Proc.devRef .tc main_arg8)
abbrev A9 : Mat 3 128 := W0 m ρ c (Proc.devRef .tc main_arg9)
abbrev A10 : T3 3 256 128 := W0 m ρ c (Proc.devRef .tc main_arg10)
abbrev A11 : Mat 3 128 := W0 m ρ c (Proc.devRef .tc main_arg11)
abbrev A12 : T3 3 128 128 := W0 m ρ c (Proc.devRef .tc main_arg12)
abbrev A13 : Mat 3 128 := W0 m ρ c (Proc.devRef .tc main_arg13)

/-- The edges' source and destination node words, as vectors. -/
abbrev rowV : IVec S800000 32 := shapeCast _ (extractStridedSlice S1x800000 ![0, 0] (A1 m ρ c) slices_S2x800000_S1x800000_0_0) shapeCasts_S1x800000_S800000
abbrev colV : IVec S800000 32 := shapeCast _ (extractStridedSlice S1x800000 ![1, 0] (A1 m ρ c) slices_S2x800000_S1x800000_1_0) shapeCasts_S1x800000_S800000

/-- The per-destination sum of the messages. -/
def SK (u : Mat 800000 128) : Mat 50000 128 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (colV m ρ c)) u

theorem row_at1 : W1 m ρ c (Proc.devRef .tc main_v1) = rowV m ρ c := rd_v1 m ρ c
theorem col_at1 : W1 m ρ c (Proc.devRef .tc main_v3) = colV m ρ c := rd_v3 m ρ c

/-- A gather at the normalised column of row k of the edge array selects the rows the edges name. -/
theorem gather_row (k : Fin 2) (off : Fin 2 → Nat) (hoff : off = ![k.val, 0]) (hs : S2x800000.Slices off S1x800000) (X : Mat 50000 128) :
    Host.gather gather_S50000x128_S800000x1_S800000x128_1_0_n_n_0_1_1128 X
      (broadcastInDim S800000x1 ![0] bcast_S800000_S800000x1_0
        (select (cmpi .slt (shapeCast S800000 (extractStridedSlice S1x800000 off (A1 m ρ c) hs) shapeCasts_S1x800000_S800000) (broadcastInDim S800000 ![] bcast_S_S800000 (constantI S_ 32 0#32)))
          (addi (shapeCast S800000 (extractStridedSlice S1x800000 off (A1 m ρ c) hs) shapeCasts_S1x800000_S800000) (broadcastInDim S800000 ![] bcast_S_S800000 (constantI S_ 32 50000#32)))
          (shapeCast S800000 (extractStridedSlice S1x800000 off (A1 m ρ c) hs) shapeCasts_S1x800000_S800000)))
      = rowsOf X (edgeRow (A1 m ρ c) k) := by
  refine (Read.gatherNorm_eq (by decide) gather_S50000x128_S800000x1_S800000x128_1_0_n_n_0_1_1128.wf
    gather_S50000x128_S800000x1_S800000x128_1_0_n_n_0_1_1128 rfl bcast_S800000_S800000x1_0 bcast_S_S800000 X _).trans ?_
  refine congrArg (rowsOf X) (funext fun e => Fin.ext ?_)
  show clampRow 50000 (Read.normIdx _) = clampRow 50000 (Read.normIdx _)
  rw [Read.rowVec_apply (A1 m ρ c) k off hoff hs shapeCasts_S1x800000_S800000 e]

/-- The encoder's output: the dense layer x · enc_w + enc_b. -/
theorem h0_val : W1 m ρ c (Proc.devRef .tc main_v7) = lin (A0 m ρ c) (A2 m ρ c) (rowOf (A3 m ρ c)) := by
  rw [rd_v7, Read.bcastRow_eq]
  exact Read.dense_eq dot_S50000x16_S16x128_S50000x128_1_0_0_1_n_n rfl rfl (fun _ _ => rfl) (fun _ _ => rfl) (fun _ _ => rfl) (fun _ _ => rfl) bcast_S1x128_S50000x128_0_1 (A0 m ρ c) (A2 m ρ c) (rowOf (A3 m ρ c))

/-! ## Layer 0: its weights where the kernels find them -/

theorem w1a_0 : W1 m ρ c (Proc.devRef .tc main_v10) = top (wslice (A6 m ρ c) 0) := by
  rw [rd_v10, truncf_id]
  exact Read.top_eq (A6 m ρ c) 0 _ rfl _ _
theorem w1b_0 : W1 m ρ c (Proc.devRef .tc main_v13) = bot (wslice (A6 m ρ c) 0) := by
  rw [rd_v13, truncf_id]
  exact Read.bot_eq (A6 m ρ c) 0 _ rfl _ _
theorem b1_0 : W1 m ρ c (Proc.devRef .tc main_v16) = bslice (A7 m ρ c) 0 := by
  rw [rd_v16]
  exact Read.bslice_cast_eq (A7 m ρ c) 0 _ rfl _ _ _
theorem w2_0 : W1 m ρ c (Proc.devRef .tc main_v19) = wslice (A8 m ρ c) 0 := by
  rw [rd_v19, truncf_id]
  exact Read.wslice_eq (A8 m ρ c) 0 _ rfl _ _
theorem b2_0 : W1 m ρ c (Proc.devRef .tc main_v22) = bslice (A9 m ρ c) 0 := by
  rw [rd_v22]
  exact Read.bslice_cast_eq (A9 m ρ c) 0 _ rfl _ _ _
theorem nw1a_0 : W5 m ρ c (Proc.devRef .tc main_v44) = top (wslice (A10 m ρ c) 0) := by
  rw [rd_v44, carry_arg10_0_4, truncf_id]
  exact Read.top_eq (A10 m ρ c) 0 _ rfl _ _
theorem nw1b_0 : W5 m ρ c (Proc.devRef .tc main_v47) = bot (wslice (A10 m ρ c) 0) := by
  rw [rd_v47, carry_arg10_0_4, truncf_id]
  exact Read.bot_eq (A10 m ρ c) 0 _ rfl _ _
theorem nb1_0 : W5 m ρ c (Proc.devRef .tc main_v50) = bslice (A11 m ρ c) 0 := by
  rw [rd_v50, carry_arg11_0_4]
  exact Read.bslice_cast_eq (A11 m ρ c) 0 _ rfl _ _ _
theorem nw2_0 : W5 m ρ c (Proc.devRef .tc main_v53) = wslice (A12 m ρ c) 0 := by
  rw [rd_v53, carry_arg12_0_4, truncf_id]
  exact Read.wslice_eq (A12 m ρ c) 0 _ rfl _ _
theorem nb2_0 : W5 m ρ c (Proc.devRef .tc main_v56) = bslice (A13 m ρ c) 0 := by
  rw [rd_v56, carry_arg13_0_4]
  exact Read.bslice_cast_eq (A13 m ρ c) 0 _ rfl _ _ _
/-- The gathered projections, from the projections and the edge words found at the stretch's entry. -/
theorem pr_0 (P : Mat 50000 128) (hP : W2 m ρ c (Proc.devRef .tc main_v23_0) = P) : W3 m ρ c (Proc.devRef .tc main_v30) = rowsOf P (edgeRow (A1 m ρ c) 0) := by
  rw [rd_v30, hP, carry_v1_1_2, row_at1]
  exact gather_row m ρ c 0 _ rfl _ P
theorem qc_0 (Q : Mat 50000 128) (hQ : W2 m ρ c (Proc.devRef .tc main_v23_1) = Q) : W3 m ρ c (Proc.devRef .tc main_v37) = rowsOf Q (edgeRow (A1 m ρ c) 1) := by
  rw [rd_v37, hQ, carry_v3_1_2, col_at1]
  exact gather_row m ρ c 1 _ rfl _ Q
/-- The per-destination sums, from the messages found at the stretch's entry. -/
theorem agg_0 (U : Mat 800000 128) (hU : W4 m ρ c (Proc.devRef .tc main_v38) = U) : W5 m ρ c (Proc.devRef .tc main_v41) = SK m ρ c U := by
  rw [rd_v41, hU, carry_v3_1_4, col_at1]
  rfl

/-! ## Layer 1: its weights where the kernels find them -/

theorem w1a_1 : W7 m ρ c (Proc.devRef .tc main_v60) = top (wslice (A6 m ρ c) 1) := by
  rw [rd_v60, carry_arg6_0_6, truncf_id]
  exact Read.top_eq (A6 m ρ c) 1 _ rfl _ _
theorem w1b_1 : W7 m ρ c (Proc.devRef .tc main_v63) = bot (wslice (A6 m ρ c) 1) := by
  rw [rd_v63, carry_arg6_0_6, truncf_id]
  exact Read.bot_eq (A6 m ρ c) 1 _ rfl _ _
theorem b1_1 : W7 m ρ c (Proc.devRef .tc main_v66) = bslice (A7 m ρ c) 1 := by
  rw [rd_v66, carry_arg7_0_6]
  exact Read.bslice_cast_eq (A7 m ρ c) 1 _ rfl _ _ _
theorem w2_1 : W7 m ρ c (Proc.devRef .tc main_v69) = wslice (A8 m ρ c) 1 := by
  rw [rd_v69, carry_arg8_0_6, truncf_id]
  exact Read.wslice_eq (A8 m ρ c) 1 _ rfl _ _
theorem b2_1 : W7 m ρ c (Proc.devRef .tc main_v72) = bslice (A9 m ρ c) 1 := by
  rw [rd_v72, carry_arg9_0_6]
  exact Read.bslice_cast_eq (A9 m ρ c) 1 _ rfl _ _ _
theorem nw1a_1 : W11 m ρ c (Proc.devRef .tc main_v94) = top (wslice (A10 m ρ c) 1) := by
  rw [rd_v94, carry_arg10_0_10, truncf_id]
  exact Read.top_eq (A10 m ρ c) 1 _ rfl _ _
theorem nw1b_1 : W11 m ρ c (Proc.devRef .tc main_v97) = bot (wslice (A10 m ρ c) 1) := by
  rw [rd_v97, carry_arg10_0_10, truncf_id]
  exact Read.bot_eq (A10 m ρ c) 1 _ rfl _ _
theorem nb1_1 : W11 m ρ c (Proc.devRef .tc main_v100) = bslice (A11 m ρ c) 1 := by
  rw [rd_v100, carry_arg11_0_10]
  exact Read.bslice_cast_eq (A11 m ρ c) 1 _ rfl _ _ _
theorem nw2_1 : W11 m ρ c (Proc.devRef .tc main_v103) = wslice (A12 m ρ c) 1 := by
  rw [rd_v103, carry_arg12_0_10, truncf_id]
  exact Read.wslice_eq (A12 m ρ c) 1 _ rfl _ _
theorem nb2_1 : W11 m ρ c (Proc.devRef .tc main_v106) = bslice (A13 m ρ c) 1 := by
  rw [rd_v106, carry_arg13_0_10]
  exact Read.bslice_cast_eq (A13 m ρ c) 1 _ rfl _ _ _
/-- The gathered projections, from the projections and the edge words found at the stretch's entry. -/
theorem pr_1 (P : Mat 50000 128) (hP : W8 m ρ c (Proc.devRef .tc main_v73_0) = P) : W9 m ρ c (Proc.devRef .tc main_v80) = rowsOf P (edgeRow (A1 m ρ c) 0) := by
  rw [rd_v80, hP, carry_v1_1_8, row_at1]
  exact gather_row m ρ c 0 _ rfl _ P
theorem qc_1 (Q : Mat 50000 128) (hQ : W8 m ρ c (Proc.devRef .tc main_v73_1) = Q) : W9 m ρ c (Proc.devRef .tc main_v87) = rowsOf Q (edgeRow (A1 m ρ c) 1) := by
  rw [rd_v87, hQ, carry_v3_1_8, col_at1]
  exact gather_row m ρ c 1 _ rfl _ Q
/-- The per-destination sums, from the messages found at the stretch's entry. -/
theorem agg_1 (U : Mat 800000 128) (hU : W10 m ρ c (Proc.devRef .tc main_v88) = U) : W11 m ρ c (Proc.devRef .tc main_v91) = SK m ρ c U := by
  rw [rd_v91, hU, carry_v3_1_10, col_at1]
  rfl

/-! ## Layer 2: its weights where the kernels find them -/

theorem w1a_2 : W13 m ρ c (Proc.devRef .tc main_v110) = top (wslice (A6 m ρ c) 2) := by
  rw [rd_v110, carry_arg6_0_12, truncf_id]
  exact Read.top_eq (A6 m ρ c) 2 _ rfl _ _
theorem w1b_2 : W13 m ρ c (Proc.devRef .tc main_v113) = bot (wslice (A6 m ρ c) 2) := by
  rw [rd_v113, carry_arg6_0_12, truncf_id]
  exact Read.bot_eq (A6 m ρ c) 2 _ rfl _ _
theorem b1_2 : W13 m ρ c (Proc.devRef .tc main_v116) = bslice (A7 m ρ c) 2 := by
  rw [rd_v116, carry_arg7_0_12]
  exact Read.bslice_cast_eq (A7 m ρ c) 2 _ rfl _ _ _
theorem w2_2 : W13 m ρ c (Proc.devRef .tc main_v119) = wslice (A8 m ρ c) 2 := by
  rw [rd_v119, carry_arg8_0_12, truncf_id]
  exact Read.wslice_eq (A8 m ρ c) 2 _ rfl _ _
theorem b2_2 : W13 m ρ c (Proc.devRef .tc main_v122) = bslice (A9 m ρ c) 2 := by
  rw [rd_v122, carry_arg9_0_12]
  exact Read.bslice_cast_eq (A9 m ρ c) 2 _ rfl _ _ _
theorem nw1a_2 : W17 m ρ c (Proc.devRef .tc main_v144) = top (wslice (A10 m ρ c) 2) := by
  rw [rd_v144, carry_arg10_0_16, truncf_id]
  exact Read.top_eq (A10 m ρ c) 2 _ rfl _ _
theorem nw1b_2 : W17 m ρ c (Proc.devRef .tc main_v147) = bot (wslice (A10 m ρ c) 2) := by
  rw [rd_v147, carry_arg10_0_16, truncf_id]
  exact Read.bot_eq (A10 m ρ c) 2 _ rfl _ _
theorem nb1_2 : W17 m ρ c (Proc.devRef .tc main_v150) = bslice (A11 m ρ c) 2 := by
  rw [rd_v150, carry_arg11_0_16]
  exact Read.bslice_cast_eq (A11 m ρ c) 2 _ rfl _ _ _
theorem nw2_2 : W17 m ρ c (Proc.devRef .tc main_v153) = wslice (A12 m ρ c) 2 := by
  rw [rd_v153, carry_arg12_0_16, truncf_id]
  exact Read.wslice_eq (A12 m ρ c) 2 _ rfl _ _
theorem nb2_2 : W17 m ρ c (Proc.devRef .tc main_v156) = bslice (A13 m ρ c) 2 := by
  rw [rd_v156, carry_arg13_0_16]
  exact Read.bslice_cast_eq (A13 m ρ c) 2 _ rfl _ _ _
/-- The gathered projections, from the projections and the edge words found at the stretch's entry. -/
theorem pr_2 (P : Mat 50000 128) (hP : W14 m ρ c (Proc.devRef .tc main_v123_0) = P) : W15 m ρ c (Proc.devRef .tc main_v130) = rowsOf P (edgeRow (A1 m ρ c) 0) := by
  rw [rd_v130, hP, carry_v1_1_14, row_at1]
  exact gather_row m ρ c 0 _ rfl _ P
theorem qc_2 (Q : Mat 50000 128) (hQ : W14 m ρ c (Proc.devRef .tc main_v123_1) = Q) : W15 m ρ c (Proc.devRef .tc main_v137) = rowsOf Q (edgeRow (A1 m ρ c) 1) := by
  rw [rd_v137, hQ, carry_v3_1_14, col_at1]
  exact gather_row m ρ c 1 _ rfl _ Q
/-- The per-destination sums, from the messages found at the stretch's entry. -/
theorem agg_2 (U : Mat 800000 128) (hU : W16 m ρ c (Proc.devRef .tc main_v138) = U) : W17 m ρ c (Proc.devRef .tc main_v141) = SK m ρ c U := by
  rw [rd_v141, hU, carry_v3_1_16, col_at1]
  rfl

end Cert.KernelIdeal.Chain

end
-- ==== Proof.RegionLemmas.lean ====
/-
  Facts shared by the nine regions: the two matrix-unit products' dimension numbers read coordinate by
  coordinate (one contracted axis of extent 128: the left operand's second axis with the right operand's first),
  and a [1, 128] bias row broadcast over the rows of a block read at an index.
-/
import proofs.«134322_j88562225643709_2_alg».proof.Proof.LibDense
import proofs.«134322_j88562225643709_2_alg».proof.Proof.Gen.KernelIdeal
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelIdeal.Regions

open Cert.KernelIdeal Cert.KernelIdeal.Gen Cert.Dense

/-- The zero offsets of a whole-buffer access, however spelt. -/
theorem hz : (![0, 0] : Fin 2 → Nat) = fun _ => 0 := funext fun a => by fin_cases a <;> rfl

/-- The dimension numbers of the 5000 × 128 by 128 × 128 product. -/
abbrev D5 := dot_S5000x128_S128x128_S5000x128_1_0_0_1_n_n

theorem D5_rank : D5.contr.rank = 1 := by decide
theorem D5_size : D5.contr.size ⟨0, by decide⟩ = 128 := by decide
theorem D5_l0 (j : S5000x128.Idx) (k : D5.contr.Idx) : (D5.lhsIdx j k 0).val = (j 0).val := by
  simp [DotDims.lhsIdx, D5, dot_S5000x128_S128x128_S5000x128_1_0_0_1_n_n]; rfl
theorem D5_l1 (j : S5000x128.Idx) (k : D5.contr.Idx) : (D5.lhsIdx j k 1).val = (k ⟨0, by decide⟩).val := by
  simp [DotDims.lhsIdx, D5, dot_S5000x128_S128x128_S5000x128_1_0_0_1_n_n]; rfl
theorem D5_r0 (j : S5000x128.Idx) (k : D5.contr.Idx) : (D5.rhsIdx j k 0).val = (k ⟨0, by decide⟩).val := by
  simp [DotDims.rhsIdx, D5, dot_S5000x128_S128x128_S5000x128_1_0_0_1_n_n]; rfl
theorem D5_r1 (j : S5000x128.Idx) (k : D5.contr.Idx) : (D5.rhsIdx j k 1).val = (j 1).val := by
  simp [DotDims.rhsIdx, D5, dot_S5000x128_S128x128_S5000x128_1_0_0_1_n_n]; rfl

/-- A 5000 × 128 block times a 128 × 128 weight on the matrix unit, into a zero accumulator, is the product. -/
theorem matmul5 {φ₁ φ₂ : FTy} (lhs : FVec Ideal S5000x128 φ₁) (rhs : FVec Ideal S128x128 φ₂) (j : S5000x128.Idx) :
    FloatOps.matmul D5 none lhs rhs (constant S5000x128 .f32 0x00000000#32) j = mm lhs rhs j :=
  matmul_zero_eq D5 D5_rank D5_size D5_l0 D5_l1 D5_r0 D5_r1 none lhs rhs j

/-- The dimension numbers of the 8000 × 128 by 128 × 128 product. -/
abbrev D8 := dot_S8000x128_S128x128_S8000x128_1_0_0_1_n_n

theorem D8_rank : D8.contr.rank = 1 := by decide
theorem D8_size : D8.contr.size ⟨0, by decide⟩ = 128 := by decide
theorem D8_l0 (j : S8000x128.Idx) (k : D8.contr.Idx) : (D8.lhsIdx j k 0).val = (j 0).val := by
  simp [DotDims.lhsIdx, D8, dot_S8000x128_S128x128_S8000x128_1_0_0_1_n_n]; rfl
theorem D8_l1 (j : S8000x128.Idx) (k : D8.contr.Idx) : (D8.lhsIdx j k 1).val = (k ⟨0, by decide⟩).val := by
  simp [DotDims.lhsIdx, D8, dot_S8000x128_S128x128_S8000x128_1_0_0_1_n_n]; rfl
theorem D8_r0 (j : S8000x128.Idx) (k : D8.contr.Idx) : (D8.rhsIdx j k 0).val = (k ⟨0, by decide⟩).val := by
  simp [DotDims.rhsIdx, D8, dot_S8000x128_S128x128_S8000x128_1_0_0_1_n_n]; rfl
theorem D8_r1 (j : S8000x128.Idx) (k : D8.contr.Idx) : (D8.rhsIdx j k 1).val = (j 1).val := by
  simp [DotDims.rhsIdx, D8, dot_S8000x128_S128x128_S8000x128_1_0_0_1_n_n]; rfl

/-- An 8000 × 128 block times a 128 × 128 weight on the matrix unit, into a zero accumulator, is the product. -/
theorem matmul8 {φ₁ φ₂ : FTy} (lhs : FVec Ideal S8000x128 φ₁) (rhs : FVec Ideal S128x128 φ₂) (j : S8000x128.Idx) :
    FloatOps.matmul D8 none lhs rhs (constant S8000x128 .f32 0x00000000#32) j = mm lhs rhs j :=
  matmul_zero_eq D8 D8_rank D8_size D8_l0 D8_l1 D8_r0 D8_r1 none lhs rhs j

/-- A [1, 128] row broadcast over the rows of an [R, 128] block reads, at (r, j), the row's entry j. -/
theorem bcast_row {R : Nat} (b : S1x128.Idx → EReal) (h : S1x128.Broadcasts ⟨2, ![R, 128]⟩)
    (i : (⟨2, ![R, 128]⟩ : Shape).Idx) : broadcastTo ⟨2, ![R, 128]⟩ b h i = b (ix2 (0 : Fin 1) (i 1)) := by
  obtain ⟨p, q, rfl⟩ : ∃ (p : Fin R) (q : Fin 128), i = ix2 p q := ⟨i 0, i 1, eq_ix2 i⟩
  exact broadcastTo_1b_ab_apply b h p q

end Cert.KernelIdeal.Regions

end
-- ==== Proof.RegionProj.lean ====
/-
  Regions 0, 3 and 6 of the kernel's program, the node projections of the three layers, as whole-array functions.

  Each grid has ten points. Point t loads rows 5000 t … 5000 t + 4999 of the node features h and both 128 × 128
  weights whole, and stores the two products of the block with the weights into the same rows of the two outputs.
  Row r of a product depends on row r of the left operand only, so the ten write-backs are the ten row blocks of
  the whole products h · w1a and h · w1b, and the blocks tile the 50000 rows (row r lies in block r / 5000).
  Everything is read at the extended reals: a matrix unit's product into a zero accumulator is the textbook sum
  and a change of float format is the identity.  The contents a region finds on entry are a variable.
-/
import proofs.«134322_j88562225643709_2_alg».proof.Proof.RegionLemmas
import proofs.«134322_j88562225643709_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Regions

open Cert.KernelIdeal Cert.KernelIdeal.Gen Cert.Dense

variable (V : (c : Dev nD) → (b : Ref sig .tc) → Buf (Elt Ideal) ((c : Thread nD τ).loc b))

/-! ## Region 0: the node projection, p = h · w1a into window 3 and q = h · w1b into window 4 -/

/-- The two stored values are the products of the loaded feature block with the two loaded weights: a matrix
    unit's product into a zero accumulator is the textbook sum, and a change of float format is the identity on
    the extended reals. -/
theorem pay0_2 (x0 : Vec Ideal S5000x128 .f32) (x1 : Vec Ideal S128x128 .bf16) : k0_pay2 x0 x1 = mm x0 x1 := by
  funext j
  unfold k0_pay2 k0_pay1
  simp only [shapeCast_self]
  exact matmul5 (φ₁ := .bf16) (φ₂ := .bf16) (truncf .bf16 x0 bitsLt_bf16_f32) x1 j

theorem pay0_3 (x0 : Vec Ideal S5000x128 .f32) (x2 : Vec Ideal S128x128 .bf16) : k0_pay3 x0 x2 = mm x0 x2 := by
  funext j
  unfold k0_pay3 k0_pay1
  simp only [shapeCast_self]
  exact matmul5 (φ₁ := .bf16) (φ₂ := .bf16) (truncf .bf16 x0 bitsLt_bf16_f32) x2 j

/-- What the body leaves in the two output buffers: one store of the whole buffer each. -/
theorem out0_3_eq (x0 : Vec Ideal S5000x128 .f32) (x1 x2 : Vec Ideal S128x128 .bf16) : out0_3 x0 x1 x2 = mm x0 x1 := by
  unfold out0_3
  rw [View.canon_unit_zero hz]
  simp only [View.ld_unit_zero (S := S5000x128) hz, View.ld_unit_zero (S := S128x128) hz]
  exact pay0_2 x0 x1

theorem out0_4_eq (x0 : Vec Ideal S5000x128 .f32) (x1 x2 : Vec Ideal S128x128 .bf16) : out0_4 x0 x1 x2 = mm x0 x2 := by
  unfold out0_4
  rw [View.canon_unit_zero hz]
  simp only [View.ld_unit_zero (S := S5000x128) hz, View.ld_unit_zero (S := S128x128) hz]
  exact pay0_3 x0 x2

/-- The index maps over the grid: point t's feature block and output blocks are rows 5000 t … 5000 t + 4999, all
    128 columns; the weights are whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back to window 3 is block t of h · w1a: row r of a product needs row r of the left
    operand only, and the whole right operand. -/
theorem flushed0_3 (c : Dev nD) (t : Fin cfg0.N) :
    (dat0 V c).flushed 3 t = ((cfg0.win 3).blk t).view.read (Elt Ideal)
      (mm (V c main_v7 : S50000x128.Idx → EReal) (V c main_v10 : S128x128.Idx → EReal)) := by
  show (cfg0.win 3).cut (grid0.coords t) ((dat0 V c).after 3 t) = _
  rw [after0_3, out0_3_eq]
  obtain ⟨a00, a01, a10, a11, a20, a21, a30, a31, a40, a41⟩ := idx0 t
  funext j
  show mm (iblk0 V c 0 t) (iblk0 V c 1 t) j
    = mm (V c main_v7 : S50000x128.Idx → EReal) (V c main_v10 : S128x128.Idx → EReal) (((cfg0.win 3).blk t).view.emb j)
  refine mm_congr _ _ (fun k => ?_) (fun k => ?_)
  · show V c main_v7 (((cfg0.win 0).blk t).view.emb (ix2 (j 0) k)) = V c main_v7 (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v10 (((cfg0.win 1).blk t).view.emb (ix2 k (j 1))) = V c main_v10 (ix2 k ((((cfg0.win 3).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega

/-- Likewise window 4 and h · w1b. -/
theorem flushed0_4 (c : Dev nD) (t : Fin cfg0.N) :
    (dat0 V c).flushed 4 t = ((cfg0.win 4).blk t).view.read (Elt Ideal)
      (mm (V c main_v7 : S50000x128.Idx → EReal) (V c main_v13 : S128x128.Idx → EReal)) := by
  show (cfg0.win 4).cut (grid0.coords t) ((dat0 V c).after 4 t) = _
  rw [after0_4, out0_4_eq]
  obtain ⟨a00, a01, a10, a11, a20, a21, a30, a31, a40, a41⟩ := idx0 t
  funext j
  show mm (iblk0 V c 0 t) (iblk0 V c 2 t) j
    = mm (V c main_v7 : S50000x128.Idx → EReal) (V c main_v13 : S128x128.Idx → EReal) (((cfg0.win 4).blk t).view.emb j)
  refine mm_congr _ _ (fun k => ?_) (fun k => ?_)
  · show V c main_v7 (((cfg0.win 0).blk t).view.emb (ix2 (j 0) k)) = V c main_v7 (ix2 ((((cfg0.win 4).blk t).view.emb j) 0) k)
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · show V c main_v13 (((cfg0.win 2).blk t).view.emb (ix2 k (j 1))) = V c main_v13 (ix2 k ((((cfg0.win 4).blk t).view.emb j) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega

/-- An index of the output array is in point t's block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23_0).slice (win0_3.rect t)).set ↔ _
  rw [View.set_slice_whole, Rect.mem_set_unit]
  exact Iff.rfl

theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v23_1).slice (win0_4.rect t)).set ↔ _
  rw [View.set_slice_whole, Rect.mem_set_unit]
  exact Iff.rfl

/-- The ten row blocks tile the 50000 rows: row r is in block r / 5000. -/
theorem cover0_3 (i : S50000x128.Idx) : ∃ t : Fin cfg0.N, (cfg0.win 3).flush t = true ∧ i ∈ ((cfg0.win 3).blk t).view.set := by
  have h0 : (i 0).val < 50000 := idx2_lt0 i
  have h1 : (i 1).val < 128 := idx2_lt1 i
  have ht : (i 0).val / 5000 < cfg0.N := by rw [show cfg0.N = 10 from N_0]; omega
  refine ⟨⟨(i 0).val / 5000, ht⟩, flush0_3 _, ?_⟩
  rw [mem_blk0_3]
  obtain ⟨a00, a01, a10, a11, a20, a21, a30, a31, a40, a41⟩ := idx0 ⟨(i 0).val / 5000, ht⟩
  have e30 : win0_3.index ⟨(i 0).val / 5000, ht⟩ (0 : Fin 2) = (i 0).val / 5000 := a30
  intro a
  match a with
  | ⟨0, _⟩ => show win0_3.index _ (0 : Fin 2) * 5000 ≤ (i 0).val ∧ (i 0).val < win0_3.index _ (0 : Fin 2) * 5000 + 5000; omega
  | ⟨1, _⟩ => show win0_3.index _ (1 : Fin 2) * 128 ≤ (i 1).val ∧ (i 1).val < win0_3.index _ (1 : Fin 2) * 128 + 128; omega

theorem cover0_4 (i : S50000x128.Idx) : ∃ t : Fin cfg0.N, (cfg0.win 4).flush t = true ∧ i ∈ ((cfg0.win 4).blk t).view.set := by
  have h0 : (i 0).val < 50000 := idx2_lt0 i
  have h1 : (i 1).val < 128 := idx2_lt1 i
  have ht : (i 0).val / 5000 < cfg0.N := by rw [show cfg0.N = 10 from N_0]; omega
  refine ⟨⟨(i 0).val / 5000, ht⟩, flush0_4 _, ?_⟩
  rw [mem_blk0_4]
  obtain ⟨a00, a01, a10, a11, a20, a21, a30, a31, a40, a41⟩ := idx0 ⟨(i 0).val / 5000, ht⟩
  have e40 : win0_4.index ⟨(i 0).val / 5000, ht⟩ (0 : Fin 2) = (i 0).val / 5000 := a40
  intro a
  match a with
  | ⟨0, _⟩ => show win0_4.index _ (0 : Fin 2) * 5000 ≤ (i 0).val ∧ (i 0).val < win0_4.index _ (0 : Fin 2) * 5000 + 5000; omega
  | ⟨1, _⟩ => show win0_4.index _ (1 : Fin 2) * 128 ≤ (i 1).val ∧ (i 1).val < win0_4.index _ (1 : Fin 2) * 128 + 128; omega

/-- THE TWO PROJECTIONS after region 0: the whole arrays h · w1a and h · w1b of the arrays the region finds. -/
theorem final0_3 (c : Dev nD) : (dat0 V c).arrAt 3 cfg0.N
    = mm (V c main_v7 : S50000x128.Idx → EReal) (V c main_v10 : S128x128.Idx → EReal) :=
  (dat0 V c).arrAt_eq_of_cover 3 _ (fun t _ => flushed0_3 V c t) cover0_3

theorem final0_4 (c : Dev nD) : (dat0 V c).arrAt 4 cfg0.N
    = mm (V c main_v7 : S50000x128.Idx → EReal) (V c main_v13 : S128x128.Idx → EReal) :=
  (dat0 V c).arrAt_eq_of_cover 4 _ (fun t _ => flushed0_4 V c t) cover0_4

/-! ## Region 3: the node projection, p = h · w1a into window 3 and q = h · w1b into window 4 -/

/-- The two stored values are the products of the loaded feature block with the two loaded weights: a matrix
    unit's product into a zero accumulator is the textbook sum, and a change of float format is the identity on
    the extended reals. -/
theorem pay3_2 (x0 : Vec Ideal S5000x128 .f32) (x1 : Vec Ideal S128x128 .bf16) : k3_pay2 x0 x1 = mm x0 x1 := by
  funext j
  unfold k3_pay2 k3_pay1
  simp only [shapeCast_self]
  exact matmul5 (φ₁ := .bf16) (φ₂ := .bf16) (truncf .bf16 x0 bitsLt_bf16_f32) x1 j

theorem pay3_3 (x0 : Vec Ideal S5000x128 .f32) (x2 : Vec Ideal S128x128 .bf16) : k3_pay3 x0 x2 = mm x0 x2 := by
  funext j
  unfold k3_pay3 k3_pay1
  simp only [shapeCast_self]
  exact matmul5 (φ₁ := .bf16) (φ₂ := .bf16) (truncf .bf16 x0 bitsLt_bf16_f32) x2 j

/-- What the body leaves in the two output buffers: one store of the whole buffer each. -/
theorem out3_3_eq (x0 : Vec Ideal S5000x128 .f32) (x1 x2 : Vec Ideal S128x128 .bf16) : out3_3 x0 x1 x2 = mm x0 x1 := by
  unfold out3_3
  rw [View.canon_unit_zero hz]
  simp only [View.ld_unit_zero (S := S5000x128) hz, View.ld_unit_zero (S := S128x128) hz]
  exact pay3_2 x0 x1

theorem out3_4_eq (x0 : Vec Ideal S5000x128 .f32) (x1 x2 : Vec Ideal S128x128 .bf16) : out3_4 x0 x1 x2 = mm x0 x2 := by
  unfold out3_4
  rw [View.canon_unit_zero hz]
  simp only [View.ld_unit_zero (S := S5000x128) hz, View.ld_unit_zero (S := S128x128) hz]
  exact pay3_3 x0 x2

/-- The index maps over the grid: point t's feature block and output blocks are rows 5000 t … 5000 t + 4999, all
    128 columns; the weights are whole. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back to window 3 is block t of h · w1a: row r of a product needs row r of the left
    operand only, and the whole right operand. -/
theorem flushed3_3 (c : Dev nD) (t : Fin cfg3.N) :
    (dat3 V c).flushed 3 t = ((cfg3.win 3).blk t).view.read (Elt Ideal)
      (mm (V c main_v57 : S50000x128.Idx → EReal) (V c main_v60 : S128x128.Idx → EReal)) := by
  show (cfg3.win 3).cut (grid3.coords t) ((dat3 V c).after 3 t) = _
  rw [after3_3, out3_3_eq]
  obtain ⟨a00, a01, a10, a11, a20, a21, a30, a31, a40, a41⟩ := idx3 t
  funext j
  show mm (iblk3 V c 0 t) (iblk3 V c 1 t) j
    = mm (V c main_v57 : S50000x128.Idx → EReal) (V c main_v60 : S128x128.Idx → EReal) (((cfg3.win 3).blk t).view.emb j)
  refine mm_congr _ _ (fun k => ?_) (fun k => ?_)
  · show V c main_v57 (((cfg3.win 0).blk t).view.emb (ix2 (j 0) k)) = V c main_v57 (ix2 ((((cfg3.win 3).blk t).view.emb j) 0) k)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · show V c main_v60 (((cfg3.win 1).blk t).view.emb (ix2 k (j 1))) = V c main_v60 (ix2 k ((((cfg3.win 3).blk t).view.emb j) 1))
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega

/-- Likewise window 4 and h · w1b. -/
theorem flushed3_4 (c : Dev nD) (t : Fin cfg3.N) :
    (dat3 V c).flushed 4 t = ((cfg3.win 4).blk t).view.read (Elt Ideal)
      (mm (V c main_v57 : S50000x128.Idx → EReal) (V c main_v63 : S128x128.Idx → EReal)) := by
  show (cfg3.win 4).cut (grid3.coords t) ((dat3 V c).after 4 t) = _
  rw [after3_4, out3_4_eq]
  obtain ⟨a00, a01, a10, a11, a20, a21, a30, a31, a40, a41⟩ := idx3 t
  funext j
  show mm (iblk3 V c 0 t) (iblk3 V c 2 t) j
    = mm (V c main_v57 : S50000x128.Idx → EReal) (V c main_v63 : S128x128.Idx → EReal) (((cfg3.win 4).blk t).view.emb j)
  refine mm_congr _ _ (fun k => ?_) (fun k => ?_)
  · show V c main_v57 (((cfg3.win 0).blk t).view.emb (ix2 (j 0) k)) = V c main_v57 (ix2 ((((cfg3.win 4).blk t).view.emb j) 0) k)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  · show V c main_v63 (((cfg3.win 2).blk t).view.emb (ix2 k (j 1))) = V c main_v63 (ix2 k ((((cfg3.win 4).blk t).view.emb j) 1))
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_4.index t (1 : Fin 2) * 128 + 1 * (j 1).val; omega

/-- An index of the output array is in point t's block iff each coordinate is in the block's range on its axis. -/
theorem mem_blk3_3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v73_0).slice (win3_3.rect t)).set ↔ _
  rw [View.set_slice_whole, Rect.mem_set_unit]
  exact Iff.rfl

theorem mem_blk3_4 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v73_1).slice (win3_4.rect t)).set ↔ _
  rw [View.set_slice_whole, Rect.mem_set_unit]
  exact Iff.rfl

/-- The ten row blocks tile the 50000 rows: row r is in block r / 5000. -/
theorem cover3_3 (i : S50000x128.Idx) : ∃ t : Fin cfg3.N, (cfg3.win 3).flush t = true ∧ i ∈ ((cfg3.win 3).blk t).view.set := by
  have h0 : (i 0).val < 50000 := idx2_lt0 i
  have h1 : (i 1).val < 128 := idx2_lt1 i
  have ht : (i 0).val / 5000 < cfg3.N := by rw [show cfg3.N = 10 from N_3]; omega
  refine ⟨⟨(i 0).val / 5000, ht⟩, flush3_3 _, ?_⟩
  rw [mem_blk3_3]
  obtain ⟨a00, a01, a10, a11, a20, a21, a30, a31, a40, a41⟩ := idx3 ⟨(i 0).val / 5000, ht⟩
  have e30 : win3_3.index ⟨(i 0).val / 5000, ht⟩ (0 : Fin 2) = (i 0).val / 5000 := a30
  intro a
  match a with
  | ⟨0, _⟩ => show win3_3.index _ (0 : Fin 2) * 5000 ≤ (i 0).val ∧ (i 0).val < win3_3.index _ (0 : Fin 2) * 5000 + 5000; omega
  | ⟨1, _⟩ => show win3_3.index _ (1 : Fin 2) * 128 ≤ (i 1).val ∧ (i 1).val < win3_3.index _ (1 : Fin 2) * 128 + 128; omega

theorem cover3_4 (i : S50000x128.Idx) : ∃ t : Fin cfg3.N, (cfg3.win 4).flush t = true ∧ i ∈ ((cfg3.win 4).blk t).view.set := by
  have h0 : (i 0).val < 50000 := idx2_lt0 i
  have h1 : (i 1).val < 128 := idx2_lt1 i
  have ht : (i 0).val / 5000 < cfg3.N := by rw [show cfg3.N = 10 from N_3]; omega
  refine ⟨⟨(i 0).val / 5000, ht⟩, flush3_4 _, ?_⟩
  rw [mem_blk3_4]
  obtain ⟨a00, a01, a10, a11, a20, a21, a30, a31, a40, a41⟩ := idx3 ⟨(i 0).val / 5000, ht⟩
  have e40 : win3_4.index ⟨(i 0).val / 5000, ht⟩ (0 : Fin 2) = (i 0).val / 5000 := a40
  intro a
  match a with
  | ⟨0, _⟩ => show win3_4.index _ (0 : Fin 2) * 5000 ≤ (i 0).val ∧ (i 0).val < win3_4.index _ (0 : Fin 2) * 5000 + 5000; omega
  | ⟨1, _⟩ => show win3_4.index _ (1 : Fin 2) * 128 ≤ (i 1).val ∧ (i 1).val < win3_4.index _ (1 : Fin 2) * 128 + 128; omega

/-- THE TWO PROJECTIONS after region 3: the whole arrays h · w1a and h · w1b of the arrays the region finds. -/
theorem final3_3 (c : Dev nD) : (dat3 V c).arrAt 3 cfg3.N
    = mm (V c main_v57 : S50000x128.Idx → EReal) (V c main_v60 : S128x128.Idx → EReal) :=
  (dat3 V c).arrAt_eq_of_cover 3 _ (fun t _ => flushed3_3 V c t) cover3_3

theorem final3_4 (c : Dev nD) : (dat3 V c).arrAt 4 cfg3.N
    = mm (V c main_v57 : S50000x128.Idx → EReal) (V c main_v63 : S128x128.Idx → EReal) :=
  (dat3 V c).arrAt_eq_of_cover 4 _ (fun t _ => flushed3_4 V c t) cover3_4

/-! ## Region 6: the node projection, p = h · w1a into window 3 and q = h · w1b into window 4 -/

/-- The two stored values are the products of the loaded feature block with the two loaded weights: a matrix
    unit's product into a zero accumulator is the textbook sum, and a change of float format is the identity on
    the extended reals. -/
theorem pay6_2 (x0 : Vec Ideal S5000x128 .f32) (x1 : Vec Ideal S128x128 .bf16) : k6_pay2 x0 x1 = mm x0 x1 := by
  funext j
  unfold k6_pay2 k6_pay1
  simp only [shapeCast_self]
  exact matmul5 (φ₁ := .bf16) (φ₂ := .bf16) (truncf .bf16 x0 bitsLt_bf16_f32) x1 j

theorem pay6_3 (x0 : Vec Ideal S5000x128 .f32) (x2 : Vec Ideal S128x128 .bf16) : k6_pay3 x0 x2 = mm x0 x2 := by
  funext j
  unfold k6_pay3 k6_pay1
  simp only [shapeCast_self]
  exact matmul5 (φ₁ := .bf16) (φ₂ := .bf16) (truncf .bf16 x0 bitsLt_bf16_f32) x2 j

/-- What the body leaves in the two output buffers: one store of the whole buffer each. -/
theorem out6_3_eq (x0 : Vec Ideal S5000x128 .f32) (x1 x2 : Vec Ideal S128x128 .bf16) : out6_3 x0 x1 x2 = mm x0 x1 := by
  unfold out6_3
  rw [View.canon_unit_zero hz]
  simp only [View.ld_unit_zero (S := S5000x128) hz, View.ld_unit_zero (S := S128x128) hz]
  exact pay6_2 x0 x1

theorem out6_4_eq (x0 : Vec Ideal S5000x128 .f32) (x1 x2 : Vec Ideal S128x128 .bf16) : out6_4 x0 x1 x2 = mm x0 x2 := by
  unfold out6_4
  rw [View.canon_unit_zero hz]
  simp only [View.ld_unit_zero (S := S5000x128) hz, View.ld_unit_zero (S := S128x128) hz]
  exact pay6_3 x0 x2

/-- The index maps over the grid: point t's feature block and output blocks are rows 5000 t … 5000 t + 4999, all
    128 columns; the weights are whole. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- What point t writes back to window 3 is block t of h · w1a: row r of a product needs row r of the left
    operand only, and the whole right operand. -/
theorem flushed6_3 (c : Dev nD) (t : Fin cfg6.N) :
    (dat6 V c).flushed 3 t = ((cfg6.win 3).blk t).view.read (Elt Ideal)
      (mm (V c main_v107 : S50000x128.Idx → EReal) (V c main_v110 : S128x128.Idx → EReal)) := by
  show (cfg6.win 3).cut (grid6.coords t) ((dat6 V c).after 3 t) = _
  rw [after6_3, out6_3_eq]
  obtain ⟨a00, a01, a10, a11, a20, a21, a30, a31, a40, a41⟩ := idx6 t
  funext j
  show mm (iblk6 V c 0 t) (iblk6 V c 1 t) j
    = mm (V c main_v107 : S50000x128.Idx → EReal) (V c main_v110 : S128x128.Idx → EReal) (((cfg6.win 3).blk t).view.emb j)
  refine mm_congr _ _ (fun k => ?_) (fun k => ?_)
  · show V c main_v107 (((cfg6.win 0).blk t).view.emb (ix2 (j 0) k)) = V c main_v107 (ix2 ((((cfg6.win 3).blk t).view.emb j) 0) k)
    refine congrArg _ (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  · show V c main_v110 (((cfg6.win 1).blk t).view.emb (ix2 k (j 1))) = V c main_v110 (ix2 k ((((cfg6.win 3).blk t).view.emb j) 1))
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_3.index t (1 : Fin 2) * 128 + 1 * (j 1).val; omega

/-- Likewise window 4 and h · w1b. -/
theorem flushed6_4 (c : Dev nD) (t : Fin cfg6.N) :
    (dat6 V c).flushed 4 t = ((cfg6.win 4).blk t).view.read (Elt Ideal)
      (mm (V c main_v107 : S50000x128.Idx → EReal) (V c main_v113 : S128x128.Idx → EReal)) := by
  show (cfg6.win 4).cut (grid6.coords t) ((dat6 V c).after 4 t) = _
  rw [after6_4, out6_4_eq]
  obtain ⟨a00, a01, a10, a11, a20, a21, a30, a31, a40, a41⟩ := idx6 t
  funext j
  show mm (iblk6 V c 0 t) (iblk6 V c 2 t) j
    = mm (V c main_v107 : S50000x128.Idx → EReal) (V c main_v113 : S128x128.Idx → EReal) (((cfg6.win 4).blk t).view.emb j)
  refine mm_congr _ _ (fun k => ?_) (fun k => ?_)
  · show V c main_v107 (((cfg6.win 0).blk t).view.emb (ix2 (j 0) k)) = V c main_v107 (ix2 ((((cfg6.win 4).blk t).view.emb j) 0) k)
    refine congrArg _ (funext fun a => Fin.ext ?_)
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 128 + 1 * k.val = k.val; omega
  · show V c main_v113 (((cfg6.win 2).blk t).view.emb (ix2 k (j 1))) = V c main_v113 (ix2 k ((((cfg6.win 4).blk t).view.emb j) 1))
    refine congrArg _ (funext fun a => Fin.ext ?_)
    match a with
    | ⟨0, _⟩ => show win6_2.index t (0 : Fin 2) * 128 + 1 * k.val = k.val; omega
    | ⟨1, _⟩ => show win6_2.index t (1 : Fin 2) * 128 + 1 * (j 1).val = win6_4.index t (1 : Fin 2) * 128 + 1 * (j 1).val; omega

/-- An index of the output array is in point t's block iff each coordinate is in the block's range on its axis. -/
theorem mem_blk6_3 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v123_0).slice (win6_3.rect t)).set ↔ _
  rw [View.set_slice_whole, Rect.mem_set_unit]
  exact Iff.rfl

theorem mem_blk6_4 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v123_1).slice (win6_4.rect t)).set ↔ _
  rw [View.set_slice_whole, Rect.mem_set_unit]
  exact Iff.rfl

/-- The ten row blocks tile the 50000 rows: row r is in block r / 5000. -/
theorem cover6_3 (i : S50000x128.Idx) : ∃ t : Fin cfg6.N, (cfg6.win 3).flush t = true ∧ i ∈ ((cfg6.win 3).blk t).view.set := by
  have h0 : (i 0).val < 50000 := idx2_lt0 i
  have h1 : (i 1).val < 128 := idx2_lt1 i
  have ht : (i 0).val / 5000 < cfg6.N := by rw [show cfg6.N = 10 from N_6]; omega
  refine ⟨⟨(i 0).val / 5000, ht⟩, flush6_3 _, ?_⟩
  rw [mem_blk6_3]
  obtain ⟨a00, a01, a10, a11, a20, a21, a30, a31, a40, a41⟩ := idx6 ⟨(i 0).val / 5000, ht⟩
  have e30 : win6_3.index ⟨(i 0).val / 5000, ht⟩ (0 : Fin 2) = (i 0).val / 5000 := a30
  intro a
  match a with
  | ⟨0, _⟩ => show win6_3.index _ (0 : Fin 2) * 5000 ≤ (i 0).val ∧ (i 0).val < win6_3.index _ (0 : Fin 2) * 5000 + 5000; omega
  | ⟨1, _⟩ => show win6_3.index _ (1 : Fin 2) * 128 ≤ (i 1).val ∧ (i 1).val < win6_3.index _ (1 : Fin 2) * 128 + 128; omega

theorem cover6_4 (i : S50000x128.Idx) : ∃ t : Fin cfg6.N, (cfg6.win 4).flush t = true ∧ i ∈ ((cfg6.win 4).blk t).view.set := by
  have h0 : (i 0).val < 50000 := idx2_lt0 i
  have h1 : (i 1).val < 128 := idx2_lt1 i
  have ht : (i 0).val / 5000 < cfg6.N := by rw [show cfg6.N = 10 from N_6]; omega
  refine ⟨⟨(i 0).val / 5000, ht⟩, flush6_4 _, ?_⟩
  rw [mem_blk6_4]
  obtain ⟨a00, a01, a10, a11, a20, a21, a30, a31, a40, a41⟩ := idx6 ⟨(i 0).val / 5000, ht⟩
  have e40 : win6_4.index ⟨(i 0).val / 5000, ht⟩ (0 : Fin 2) = (i 0).val / 5000 := a40
  intro a
  match a with
  | ⟨0, _⟩ => show win6_4.index _ (0 : Fin 2) * 5000 ≤ (i 0).val ∧ (i 0).val < win6_4.index _ (0 : Fin 2) * 5000 + 5000; omega
  | ⟨1, _⟩ => show win6_4.index _ (1 : Fin 2) * 128 ≤ (i 1).val ∧ (i 1).val < win6_4.index _ (1 : Fin 2) * 128 + 128; omega

/-- THE TWO PROJECTIONS after region 6: the whole arrays h · w1a and h · w1b of the arrays the region finds. -/
theorem final6_3 (c : Dev nD) : (dat6 V c).arrAt 3 cfg6.N
    = mm (V c main_v107 : S50000x128.Idx → EReal) (V c main_v110 : S128x128.Idx → EReal) :=
  (dat6 V c).arrAt_eq_of_cover 3 _ (fun t _ => flushed6_3 V c t) cover6_3

theorem final6_4 (c : Dev nD) : (dat6 V c).arrAt 4 cfg6.N
    = mm (V c main_v107 : S50000x128.Idx → EReal) (V c main_v113 : S128x128.Idx → EReal) :=
  (dat6 V c).arrAt_eq_of_cover 4 _ (fun t _ => flushed6_4 V c t) cover6_4

end Cert.KernelIdeal.Regions

end
-- ==== Proof.RegionEdge.lean ====
/-
  Regions 1, 4 and 7 of the kernel's program, the edge networks of the three layers, as whole-array functions.

  Each grid has a hundred points. Point t loads rows 8000 t … 8000 t + 7999 of the two gathered projections, the
  two bias rows and the second weight whole, and stores relu ((pr + qc) + b1) · w2 + b2 of its rows into the same
  rows of the output. Row e of that value depends on row e of the two gathered projections only, so the hundred
  write-backs are the hundred row blocks of the edge network of the whole arrays, and the blocks tile the 800000
  rows (row e lies in block e / 8000). Everything is read at the extended reals: a matrix unit's product into a
  zero accumulator is the textbook sum, a change of float format is the identity, and a bias row broadcast over a
  block reads the row's entry of the column.  The contents a region finds on entry are a variable.
-/
import proofs.«134322_j88562225643709_2_alg».proof.Proof.RegionLemmas
import proofs.«134322_j88562225643709_2_alg».proof.Proof.Spec
import proofs.«134322_j88562225643709_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Regions

open Cert.KernelIdeal Cert.KernelIdeal.Gen Cert.Dense Cert.Mpnn

variable (V : (c : Dev nD) → (b : Ref sig .tc) → Buf (Elt Ideal) ((c : Thread nD τ).loc b))

/-- Two edge networks agree at two entries of one column when the gathered projections agree along the two rows
    and the biases and the weight are the same. -/
theorem edgeK_congr {E E' : Nat} {pr qc : Mat E 128} {pr' qc' : Mat E' 128} {b1 b1' : Mat 1 128}
    {w2 w2' : Mat 128 128} {b2 b2' : Mat 1 128}
    (i : (⟨2, ![E, 128]⟩ : Shape).Idx) (i' : (⟨2, ![E', 128]⟩ : Shape).Idx) (h1 : i 1 = i' 1)
    (hp : ∀ k : Fin 128, pr (ix2 (i 0) k) = pr' (ix2 (i' 0) k))
    (hq : ∀ k : Fin 128, qc (ix2 (i 0) k) = qc' (ix2 (i' 0) k))
    (hb1 : b1 = b1') (hw : w2 = w2') (hb2 : b2 = b2') :
    edgeK pr qc b1 w2 b2 i = edgeK pr' qc' b1' w2' b2' i' := by
  subst hb1 hw hb2
  unfold edgeK
  refine lin_congr i i' h1 (fun k => ?_) rfl rfl
  show max ((pr (ix2 (i 0) k) + qc (ix2 (i 0) k)) + b1 (ix2 (0 : Fin 1) k)) zero
    = max ((pr' (ix2 (i' 0) k) + qc' (ix2 (i' 0) k)) + b1 (ix2 (0 : Fin 1) k)) zero
  rw [hp k, hq k]

/-! ## Region 1: the edge network into window 5 -/

/-- The stored value is the edge network of the loaded blocks. -/
theorem pay1_1 (x0 x3 : Vec Ideal S8000x128 .bf16) (x7 : Vec Ideal S1x128 .f32) (x14 : Vec Ideal S128x128 .bf16)
    (x17 : Vec Ideal S1x128 .f32) : k1_pay1 x0 x3 x7 x14 x17 = edgeK x0 x3 x7 x14 x17 := by
  funext j
  unfold k1_pay1
  simp only [shapeCast_self]
  unfold edgeK lin
  refine (addf_apply _ _ j).trans ?_
  refine congrArg₂ (· + ·) ((matmul8 (φ₁ := .bf16) (φ₂ := .bf16) _ x14 j).trans ?_) (bcast_row x17 broadcasts_S1x128_S8000x128 j)
  refine mm_congr j j (fun k => ?_) (fun k => rfl)
  exact congrArg (fun z => max ((x0 (ix2 (j 0) k) + x3 (ix2 (j 0) k)) + z) zero)
    (bcast_row x7 broadcasts_S1x128_S8000x128 (ix2 (j 0) k))

/-- What the body leaves in the output buffer: one store of the whole buffer. -/
theorem out1_5_eq (x0 x1 : Vec Ideal S8000x128 .bf16) (x2 : Vec Ideal S1x128 .f32) (x3 : Vec Ideal S128x128 .bf16)
    (x4 : Vec Ideal S1x128 .f32) : out1_5 x0 x1 x2 x3 x4 = edgeK x0 x1 x2 x3 x4 := by
  unfold out1_5
  rw [View.canon_unit_zero hz]
  simp only [View.ld_unit_zero (S := S8000x128) hz, View.ld_unit_zero (S := S128x128) hz, View.ld_unit_zero (S := S1x128) hz]
  exact pay1_1 x0 x1 x2 x3 x4

/-- The index maps over the grid: point t's two input blocks and its output block are rows 8000 t … 8000 t + 7999,
    all 128 columns; the biases and the weight are whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the edge network of the whole arrays. -/
theorem flushed1_5 (c : Dev nD) (t : Fin cfg1.N) :
    (dat1 V c).flushed 5 t = ((cfg1.win 5).blk t).view.read (Elt Ideal)
      (edgeK (V c main_v30 : S800000x128.Idx → EReal) (V c main_v37 : S800000x128.Idx → EReal)
        (V c main_v16 : S1x128.Idx → EReal) (V c main_v19 : S128x128.Idx → EReal) (V c main_v22 : S1x128.Idx → EReal)) := by
  show (cfg1.win 5).cut (grid1.coords t) ((dat1 V c).after 5 t) = _
  rw [after1_5, out1_5_eq]
  obtain ⟨a00, a01, a10, a11, a20, a21, a30, a31, a40, a41, a50, a51⟩ := idx1 t
  funext j
  show edgeK (iblk1 V c 0 t) (iblk1 V c 1 t) (iblk1 V c 2 t) (iblk1 V c 3 t) (iblk1 V c 4 t) j
    = edgeK (V c main_v30 : S800000x128.Idx → EReal) (V c main_v37 : S800000x128.Idx → EReal)
        (V c main_v16 : S1x128.Idx → EReal) (V c main_v19 : S128x128.Idx → EReal) (V c main_v22 : S1x128.Idx → EReal)
        (((cfg1.win 5).blk t).view.emb j)
  refine edgeK_congr _ _ (Fin.ext ?_) (fun k => ?_) (fun k => ?_) (funext fun y => ?_) (funext fun y => ?_) (funext fun y => ?_)
  · show (j 1).val = win1_5.index t (1 : Fin 2) * 128 + 1 * (j 1).val; omega
  · show V c main_v30 (((cfg1.win 0).blk t).view.emb (ix2 (j 0) k)) = V c main_v30 (ix2 ((((cfg1.win 5).blk t).view.emb j) 0) k)
    refine congrArg _ (funext fun a => Fin.ext ?_)
    match a with
    | ⟨0, _⟩ => show win1_0.index t (0 : Fin 2) * 8000 + 1 * (j 0).val = win1_5.index t (0 : Fin 2) * 8000 + 1 * (j 0).val; omega
    | ⟨1, _⟩ => show win1_0.index t (1 : Fin 2) * 128 + 1 * k.val = k.val; omega
  · show V c main_v37 (((cfg1.win 1).blk t).view.emb (ix2 (j 0) k)) = V c main_v37 (ix2 ((((cfg1.win 5).blk t).view.emb j) 0) k)
    refine congrArg _ (funext fun a => Fin.ext ?_)
    match a with
    | ⟨0, _⟩ => show win1_1.index t (0 : Fin 2) * 8000 + 1 * (j 0).val = win1_5.index t (0 : Fin 2) * 8000 + 1 * (j 0).val; omega
    | ⟨1, _⟩ => show win1_1.index t (1 : Fin 2) * 128 + 1 * k.val = k.val; omega
  · show V c main_v16 (((cfg1.win 2).blk t).view.emb y) = V c main_v16 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show V c main_v19 (((cfg1.win 3).blk t).view.emb y) = V c main_v19 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show V c main_v22 (((cfg1.win 4).blk t).view.emb y) = V c main_v22 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the output array is in point t's block iff each coordinate is in the block's range on its axis. -/
theorem mem_blk1_5 (t : Fin cfg1.N) (i : S800000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v38).slice (win1_5.rect t)).set ↔ _
  rw [View.set_slice_whole, Rect.mem_set_unit]
  exact Iff.rfl

/-- The hundred row blocks tile the 800000 rows: row e is in block e / 8000. -/
theorem cover1_5 (i : S800000x128.Idx) : ∃ t : Fin cfg1.N, (cfg1.win 5).flush t = true ∧ i ∈ ((cfg1.win 5).blk t).view.set := by
  have h0 : (i 0).val < 800000 := idx2_lt0 i
  have h1 : (i 1).val < 128 := idx2_lt1 i
  have ht : (i 0).val / 8000 < cfg1.N := by rw [show cfg1.N = 100 from N_1]; omega
  refine ⟨⟨(i 0).val / 8000, ht⟩, flush1_5 _, ?_⟩
  rw [mem_blk1_5]
  obtain ⟨a00, a01, a10, a11, a20, a21, a30, a31, a40, a41, a50, a51⟩ := idx1 ⟨(i 0).val / 8000, ht⟩
  have e50 : win1_5.index ⟨(i 0).val / 8000, ht⟩ (0 : Fin 2) = (i 0).val / 8000 := a50
  intro a
  match a with
  | ⟨0, _⟩ => show win1_5.index _ (0 : Fin 2) * 8000 ≤ (i 0).val ∧ (i 0).val < win1_5.index _ (0 : Fin 2) * 8000 + 8000; omega
  | ⟨1, _⟩ => show win1_5.index _ (1 : Fin 2) * 128 ≤ (i 1).val ∧ (i 1).val < win1_5.index _ (1 : Fin 2) * 128 + 128; omega

/-- THE MESSAGES after region 1: the edge network of the whole arrays the region finds. -/
theorem final1_5 (c : Dev nD) : (dat1 V c).arrAt 5 cfg1.N
    = edgeK (V c main_v30 : S800000x128.Idx → EReal) (V c main_v37 : S800000x128.Idx → EReal)
        (V c main_v16 : S1x128.Idx → EReal) (V c main_v19 : S128x128.Idx → EReal) (V c main_v22 : S1x128.Idx → EReal) :=
  (dat1 V c).arrAt_eq_of_cover 5 _ (fun t _ => flushed1_5 V c t) cover1_5

/-! ## Region 4: the edge network into window 5 -/

/-- The stored value is the edge network of the loaded blocks. -/
theorem pay4_1 (x0 x3 : Vec Ideal S8000x128 .bf16) (x7 : Vec Ideal S1x128 .f32) (x14 : Vec Ideal S128x128 .bf16)
    (x17 : Vec Ideal S1x128 .f32) : k4_pay1 x0 x3 x7 x14 x17 = edgeK x0 x3 x7 x14 x17 := by
  funext j
  unfold k4_pay1
  simp only [shapeCast_self]
  unfold edgeK lin
  refine (addf_apply _ _ j).trans ?_
  refine congrArg₂ (· + ·) ((matmul8 (φ₁ := .bf16) (φ₂ := .bf16) _ x14 j).trans ?_) (bcast_row x17 broadcasts_S1x128_S8000x128 j)
  refine mm_congr j j (fun k => ?_) (fun k => rfl)
  exact congrArg (fun z => max ((x0 (ix2 (j 0) k) + x3 (ix2 (j 0) k)) + z) zero)
    (bcast_row x7 broadcasts_S1x128_S8000x128 (ix2 (j 0) k))

/-- What the body leaves in the output buffer: one store of the whole buffer. -/
theorem out4_5_eq (x0 x1 : Vec Ideal S8000x128 .bf16) (x2 : Vec Ideal S1x128 .f32) (x3 : Vec Ideal S128x128 .bf16)
    (x4 : Vec Ideal S1x128 .f32) : out4_5 x0 x1 x2 x3 x4 = edgeK x0 x1 x2 x3 x4 := by
  unfold out4_5
  rw [View.canon_unit_zero hz]
  simp only [View.ld_unit_zero (S := S8000x128) hz, View.ld_unit_zero (S := S128x128) hz, View.ld_unit_zero (S := S1x128) hz]
  exact pay4_1 x0 x1 x2 x3 x4

/-- The index maps over the grid: point t's two input blocks and its output block are rows 8000 t … 8000 t + 7999,
    all 128 columns; the biases and the weight are whole. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the edge network of the whole arrays. -/
theorem flushed4_5 (c : Dev nD) (t : Fin cfg4.N) :
    (dat4 V c).flushed 5 t = ((cfg4.win 5).blk t).view.read (Elt Ideal)
      (edgeK (V c main_v80 : S800000x128.Idx → EReal) (V c main_v87 : S800000x128.Idx → EReal)
        (V c main_v66 : S1x128.Idx → EReal) (V c main_v69 : S128x128.Idx → EReal) (V c main_v72 : S1x128.Idx → EReal)) := by
  show (cfg4.win 5).cut (grid4.coords t) ((dat4 V c).after 5 t) = _
  rw [after4_5, out4_5_eq]
  obtain ⟨a00, a01, a10, a11, a20, a21, a30, a31, a40, a41, a50, a51⟩ := idx4 t
  funext j
  show edgeK (iblk4 V c 0 t) (iblk4 V c 1 t) (iblk4 V c 2 t) (iblk4 V c 3 t) (iblk4 V c 4 t) j
    = edgeK (V c main_v80 : S800000x128.Idx → EReal) (V c main_v87 : S800000x128.Idx → EReal)
        (V c main_v66 : S1x128.Idx → EReal) (V c main_v69 : S128x128.Idx → EReal) (V c main_v72 : S1x128.Idx → EReal)
        (((cfg4.win 5).blk t).view.emb j)
  refine edgeK_congr _ _ (Fin.ext ?_) (fun k => ?_) (fun k => ?_) (funext fun y => ?_) (funext fun y => ?_) (funext fun y => ?_)
  · show (j 1).val = win4_5.index t (1 : Fin 2) * 128 + 1 * (j 1).val; omega
  · show V c main_v80 (((cfg4.win 0).blk t).view.emb (ix2 (j 0) k)) = V c main_v80 (ix2 ((((cfg4.win 5).blk t).view.emb j) 0) k)
    refine congrArg _ (funext fun a => Fin.ext ?_)
    match a with
    | ⟨0, _⟩ => show win4_0.index t (0 : Fin 2) * 8000 + 1 * (j 0).val = win4_5.index t (0 : Fin 2) * 8000 + 1 * (j 0).val; omega
    | ⟨1, _⟩ => show win4_0.index t (1 : Fin 2) * 128 + 1 * k.val = k.val; omega
  · show V c main_v87 (((cfg4.win 1).blk t).view.emb (ix2 (j 0) k)) = V c main_v87 (ix2 ((((cfg4.win 5).blk t).view.emb j) 0) k)
    refine congrArg _ (funext fun a => Fin.ext ?_)
    match a with
    | ⟨0, _⟩ => show win4_1.index t (0 : Fin 2) * 8000 + 1 * (j 0).val = win4_5.index t (0 : Fin 2) * 8000 + 1 * (j 0).val; omega
    | ⟨1, _⟩ => show win4_1.index t (1 : Fin 2) * 128 + 1 * k.val = k.val; omega
  · show V c main_v66 (((cfg4.win 2).blk t).view.emb y) = V c main_v66 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  · show V c main_v69 (((cfg4.win 3).blk t).view.emb y) = V c main_v69 y
    refine congrArg _ (funext fun a => Fin.ext ?_)
    match a with
    | ⟨0, _⟩ => show win4_3.index t (0 : Fin 2) * 128 + 1 * (y 0).val = (y 0).val; omega
    | ⟨1, _⟩ => show win4_3.index t (1 : Fin 2) * 128 + 1 * (y 1).val = (y 1).val; omega
  · show V c main_v72 (((cfg4.win 4).blk t).view.emb y) = V c main_v72 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 128 + 1 * (y 1).val = (y 1).val; omega

/-- An index of the output array is in point t's block iff each coordinate is in the block's range on its axis. -/
theorem mem_blk4_5 (t : Fin cfg4.N) (i : S800000x128.Idx) :
    i ∈ ((cfg4.win 5).blk t).view.set ↔ ∀ a : Fin 2, win4_5.index t a * S8000x128.size a ≤ (i a).val ∧ (i a).val < win4_5.index t a * S8000x128.size a + S8000x128.size a := by
  show i ∈ ((View.whole main_v88).slice (win4_5.rect t)).set ↔ _
  rw [View.set_slice_whole, Rect.mem_set_unit]
  exact Iff.rfl

/-- The hundred row blocks tile the 800000 rows: row e is in block e / 8000. -/
theorem cover4_5 (i : S800000x128.Idx) : ∃ t : Fin cfg4.N, (cfg4.win 5).flush t = true ∧ i ∈ ((cfg4.win 5).blk t).view.set := by
  have h0 : (i 0).val < 800000 := idx2_lt0 i
  have h1 : (i 1).val < 128 := idx2_lt1 i
  have ht : (i 0).val / 8000 < cfg4.N := by rw [show cfg4.N = 100 from N_4]; omega
  refine ⟨⟨(i 0).val / 8000, ht⟩, flush4_5 _, ?_⟩
  rw [mem_blk4_5]
  obtain ⟨a00, a01, a10, a11, a20, a21, a30, a31, a40, a41, a50, a51⟩ := idx4 ⟨(i 0).val / 8000, ht⟩
  have e50 : win4_5.index ⟨(i 0).val / 8000, ht⟩ (0 : Fin 2) = (i 0).val / 8000 := a50
  intro a
  match a with
  | ⟨0, _⟩ => show win4_5.index _ (0 : Fin 2) * 8000 ≤ (i 0).val ∧ (i 0).val < win4_5.index _ (0 : Fin 2) * 8000 + 8000; omega
  | ⟨1, _⟩ => show win4_5.index _ (1 : Fin 2) * 128 ≤ (i 1).val ∧ (i 1).val < win4_5.index _ (1 : Fin 2) * 128 + 128; omega

/-- THE MESSAGES after region 4: the edge network of the whole arrays the region finds. -/
theorem final4_5 (c : Dev nD) : (dat4 V c).arrAt 5 cfg4.N
    = edgeK (V c main_v80 : S800000x128.Idx → EReal) (V c main_v87 : S800000x128.Idx → EReal)
        (V c main_v66 : S1x128.Idx → EReal) (V c main_v69 : S128x128.Idx → EReal) (V c main_v72 : S1x128.Idx → EReal) :=
  (dat4 V c).arrAt_eq_of_cover 5 _ (fun t _ => flushed4_5 V c t) cover4_5

/-! ## Region 7: the edge network into window 5 -/

/-- The stored value is the edge network of the loaded blocks. -/
theorem pay7_1 (x0 x3 : Vec Ideal S8000x128 .bf16) (x7 : Vec Ideal S1x128 .f32) (x14 : Vec Ideal S128x128 .bf16)
    (x17 : Vec Ideal S1x128 .f32) : k7_pay1 x0 x3 x7 x14 x17 = edgeK x0 x3 x7 x14 x17 := by
  funext j
  unfold k7_pay1
  simp only [shapeCast_self]
  unfold edgeK lin
  refine (addf_apply _ _ j).trans ?_
  refine congrArg₂ (· + ·) ((matmul8 (φ₁ := .bf16) (φ₂ := .bf16) _ x14 j).trans ?_) (bcast_row x17 broadcasts_S1x128_S8000x128 j)
  refine mm_congr j j (fun k => ?_) (fun k => rfl)
  exact congrArg (fun z => max ((x0 (ix2 (j 0) k) + x3 (ix2 (j 0) k)) + z) zero)
    (bcast_row x7 broadcasts_S1x128_S8000x128 (ix2 (j 0) k))

/-- What the body leaves in the output buffer: one store of the whole buffer. -/
theorem out7_5_eq (x0 x1 : Vec Ideal S8000x128 .bf16) (x2 : Vec Ideal S1x128 .f32) (x3 : Vec Ideal S128x128 .bf16)
    (x4 : Vec Ideal S1x128 .f32) : out7_5 x0 x1 x2 x3 x4 = edgeK x0 x1 x2 x3 x4 := by
  unfold out7_5
  rw [View.canon_unit_zero hz]
  simp only [View.ld_unit_zero (S := S8000x128) hz, View.ld_unit_zero (S := S128x128) hz, View.ld_unit_zero (S := S1x128) hz]
  exact pay7_1 x0 x1 x2 x3 x4

/-- The index maps over the grid: point t's two input blocks and its output block are rows 8000 t … 8000 t + 7999,
    all 128 columns; the biases and the weight are whole. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point t writes back is block t of the edge network of the whole arrays. -/
theorem flushed7_5 (c : Dev nD) (t : Fin cfg7.N) :
    (dat7 V c).flushed 5 t = ((cfg7.win 5).blk t).view.read (Elt Ideal)
      (edgeK (V c main_v130 : S800000x128.Idx → EReal) (V c main_v137 : S800000x128.Idx → EReal)
        (V c main_v116 : S1x128.Idx → EReal) (V c main_v119 : S128x128.Idx → EReal) (V c main_v122 : S1x128.Idx → EReal)) := by
  show (cfg7.win 5).cut (grid7.coords t) ((dat7 V c).after 5 t) = _
  rw [after7_5, out7_5_eq]
  obtain ⟨a00, a01, a10, a11, a20, a21, a30, a31, a40, a41, a50, a51⟩ := idx7 t
  funext j
  show edgeK (iblk7 V c 0 t) (iblk7 V c 1 t) (iblk7 V c 2 t) (iblk7 V c 3 t) (iblk7 V c 4 t) j
    = edgeK (V c main_v130 : S800000x128.Idx → EReal) (V c main_v137 : S800000x128.Idx → EReal)
        (V c main_v116 : S1x128.Idx → EReal) (V c main_v119 : S128x128.Idx → EReal) (V c main_v122 : S1x128.Idx → EReal)
        (((cfg7.win 5).blk t).view.emb j)
  refine edgeK_congr _ _ (Fin.ext ?_) (fun k => ?_) (fun k => ?_) (funext fun y => ?_) (funext fun y => ?_) (funext fun y => ?_)
  · show (j 1).val = win7_5.index t (1 : Fin 2) * 128 + 1 * (j 1).val; omega
  · show V c main_v130 (((cfg7.win 0).blk t).view.emb (ix2 (j 0) k)) = V c main_v130 (ix2 ((((cfg7.win 5).blk t).view.emb j) 0) k)
    refine congrArg _ (funext fun a => Fin.ext ?_)
    match a with
    | ⟨0, _⟩ => show win7_0.index t (0 : Fin 2) * 8000 + 1 * (j 0).val = win7_5.index t (0 : Fin 2) * 8000 + 1 * (j 0).val; omega
    | ⟨1, _⟩ => show win7_0.index t (1 : Fin 2) * 128 + 1 * k.val = k.val; omega
  · show V c main_v137 (((cfg7.win 1).blk t).view.emb (ix2 (j 0) k)) = V c main_v137 (ix2 ((((cfg7.win 5).blk t).view.emb j) 0) k)
    refine congrArg _ (funext fun a => Fin.ext ?_)
    match a with
    | ⟨0, _⟩ => show win7_1.index t (0 : Fin 2) * 8000 + 1 * (j 0).val = win7_5.index t (0 : Fin 2) * 8000 + 1 * (j 0).val; omega
    | ⟨1, _⟩ => show win7_1.index t (1 : Fin 2) * 128 + 1 * k.val = k.val; omega
  · show V c main_v116 (((cfg7.win 2).blk t).view.emb y) = V c main_v116 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  · show V c main_v119 (((cfg7.win 3).blk t).view.emb y) = V c main_v119 y
    refine congrArg _ (funext fun a => Fin.ext ?_)
    match a with
    | ⟨0, _⟩ => show win7_3.index t (0 : Fin 2) * 128 + 1 * (y 0).val = (y 0).val; omega
    | ⟨1, _⟩ => show win7_3.index t (1 : Fin 2) * 128 + 1 * (y 1).val = (y 1).val; omega
  · show V c main_v122 (((cfg7.win 4).blk t).view.emb y) = V c main_v122 y
    refine congrArg _ (funext fun a => Fin.ext ?_)
    match a with
    | ⟨0, _⟩ => show win7_4.index t (0 : Fin 2) * 1 + 1 * (y 0).val = (y 0).val; omega
    | ⟨1, _⟩ => show win7_4.index t (1 : Fin 2) * 128 + 1 * (y 1).val = (y 1).val; omega

/-- An index of the output array is in point t's block iff each coordinate is in the block's range on its axis. -/
theorem mem_blk7_5 (t : Fin cfg7.N) (i : S800000x128.Idx) :
    i ∈ ((cfg7.win 5).blk t).view.set ↔ ∀ a : Fin 2, win7_5.index t a * S8000x128.size a ≤ (i a).val ∧ (i a).val < win7_5.index t a * S8000x128.size a + S8000x128.size a := by
  show i ∈ ((View.whole main_v138).slice (win7_5.rect t)).set ↔ _
  rw [View.set_slice_whole, Rect.mem_set_unit]
  exact Iff.rfl

/-- The hundred row blocks tile the 800000 rows: row e is in block e / 8000. -/
theorem cover7_5 (i : S800000x128.Idx) : ∃ t : Fin cfg7.N, (cfg7.win 5).flush t = true ∧ i ∈ ((cfg7.win 5).blk t).view.set := by
  have h0 : (i 0).val < 800000 := idx2_lt0 i
  have h1 : (i 1).val < 128 := idx2_lt1 i
  have ht : (i 0).val / 8000 < cfg7.N := by rw [show cfg7.N = 100 from N_7]; omega
  refine ⟨⟨(i 0).val / 8000, ht⟩, flush7_5 _, ?_⟩
  rw [mem_blk7_5]
  obtain ⟨a00, a01, a10, a11, a20, a21, a30, a31, a40, a41, a50, a51⟩ := idx7 ⟨(i 0).val / 8000, ht⟩
  have e50 : win7_5.index ⟨(i 0).val / 8000, ht⟩ (0 : Fin 2) = (i 0).val / 8000 := a50
  intro a
  match a with
  | ⟨0, _⟩ => show win7_5.index _ (0 : Fin 2) * 8000 ≤ (i 0).val ∧ (i 0).val < win7_5.index _ (0 : Fin 2) * 8000 + 8000; omega
  | ⟨1, _⟩ => show win7_5.index _ (1 : Fin 2) * 128 ≤ (i 1).val ∧ (i 1).val < win7_5.index _ (1 : Fin 2) * 128 + 128; omega

/-- THE MESSAGES after region 7: the edge network of the whole arrays the region finds. -/
theorem final7_5 (c : Dev nD) : (dat7 V c).arrAt 5 cfg7.N
    = edgeK (V c main_v130 : S800000x128.Idx → EReal) (V c main_v137 : S800000x128.Idx → EReal)
        (V c main_v116 : S1x128.Idx → EReal) (V c main_v119 : S128x128.Idx → EReal) (V c main_v122 : S1x128.Idx → EReal) :=
  (dat7 V c).arrAt_eq_of_cover 5 _ (fun t _ => flushed7_5 V c t) cover7_5

end Cert.KernelIdeal.Regions

end
-- ==== Proof.RegionNode.lean ====
/-
  Regions 2, 5 and 8 of the kernel's program, the node networks of the three layers, as whole-array functions.

  Each grid has ten points. Point t loads rows 5000 t … 5000 t + 4999 of the node features h and of the summed
  messages, the three weights and the two bias rows whole, and stores
  h + (relu ((h · w1a + agg · w1b) + b1) · w2 + b2) of its rows into the same rows of the output. Row r of that value
  depends on row r of h and of the summed messages only, so the ten write-backs are the ten row blocks of the node
  network of the whole arrays, and the blocks tile the 50000 rows (row r lies in block r / 5000). Everything is read
  at the extended reals: a matrix unit's product into a zero accumulator is the textbook sum, a change of float
  format is the identity, and a bias row broadcast over a block reads the row's entry of the column.  The contents a
  region finds on entry are a variable.
-/
import proofs.«134322_j88562225643709_2_alg».proof.Proof.RegionLemmas
import proofs.«134322_j88562225643709_2_alg».proof.Proof.Spec
import proofs.«134322_j88562225643709_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Regions

open Cert.KernelIdeal Cert.KernelIdeal.Gen Cert.Dense Cert.Mpnn

variable (V : (c : Dev nD) → (b : Ref sig .tc) → Buf (Elt Ideal) ((c : Thread nD τ).loc b))

/-- Two node networks agree at two entries of one column when the features and the summed messages agree along
    the two rows and the weights and biases are the same. -/
theorem nodeK_congr {N N' : Nat} {h agg : Mat N 128} {h' agg' : Mat N' 128} {w1a w1a' w1b w1b' : Mat 128 128}
    {b1 b1' : Mat 1 128} {w2 w2' : Mat 128 128} {b2 b2' : Mat 1 128}
    (i : (⟨2, ![N, 128]⟩ : Shape).Idx) (i' : (⟨2, ![N', 128]⟩ : Shape).Idx) (h1 : i 1 = i' 1)
    (hh : ∀ k : Fin 128, h (ix2 (i 0) k) = h' (ix2 (i' 0) k))
    (ha : ∀ k : Fin 128, agg (ix2 (i 0) k) = agg' (ix2 (i' 0) k))
    (hwa : w1a = w1a') (hwb : w1b = w1b') (hb1 : b1 = b1') (hw : w2 = w2') (hb2 : b2 = b2') :
    nodeK h agg w1a w1b b1 w2 b2 i = nodeK h' agg' w1a' w1b' b1' w2' b2' i' := by
  subst hwa hwb hb1 hw hb2
  unfold nodeK
  have e0 : h i = h' i' := by
    rw [eq_ix2 i, eq_ix2 i']
    show h (ix2 (i 0) (i 1)) = h' (ix2 (i' 0) (i' 1))
    rw [hh (i 1), h1]
  refine congrArg₂ (· + ·) e0 (lin_congr i i' h1 (fun k => ?_) rfl rfl)
  show max ((mm h w1a (ix2 (i 0) k) + mm agg w1b (ix2 (i 0) k)) + b1 (ix2 (0 : Fin 1) k)) zero
    = max ((mm h' w1a (ix2 (i' 0) k) + mm agg' w1b (ix2 (i' 0) k)) + b1 (ix2 (0 : Fin 1) k)) zero
  rw [mm_congr (X := h) (X' := h') (W := w1a) (W' := w1a) (ix2 (i 0) k) (ix2 (i' 0) k) hh (fun _ => rfl),
    mm_congr (X := agg) (X' := agg') (W := w1b) (W' := w1b) (ix2 (i 0) k) (ix2 (i' 0) k) ha (fun _ => rfl)]

/-! ## Region 2: the node network into window 7 -/

/-- The stored value is the node network of the loaded blocks. -/
theorem pay2_1 (x0 x2 : Vec Ideal S5000x128 .f32) (x6 x9 : Vec Ideal S128x128 .bf16) (x13 : Vec Ideal S1x128 .f32)
    (x20 : Vec Ideal S128x128 .bf16) (x23 : Vec Ideal S1x128 .f32) :
    k2_pay1 x0 x2 x6 x9 x13 x20 x23 = nodeK x0 x2 x6 x9 x13 x20 x23 := by
  funext j
  unfold k2_pay1
  simp only [shapeCast_self]
  unfold nodeK lin
  refine (addf_apply _ _ j).trans ?_
  refine congrArg (x0 j + ·) ?_
  refine (addf_apply _ _ j).trans ?_
  refine congrArg₂ (· + ·) ((matmul5 (φ₁ := .bf16) (φ₂ := .bf16) _ x20 j).trans ?_) (bcast_row x23 broadcasts_S1x128_S5000x128 j)
  refine mm_congr j j (fun k => ?_) (fun k => rfl)
  have e1 := matmul5 (φ₁ := .bf16) (φ₂ := .bf16) (truncf .bf16 x0 bitsLt_bf16_f32) x6 (ix2 (j 0) k)
  have e2 := matmul5 (φ₁ := .bf16) (φ₂ := .bf16) (truncf .bf16 x2 bitsLt_bf16_f32) x9 (ix2 (j 0) k)
  have e3 := bcast_row x13 broadcasts_S1x128_S5000x128 (ix2 (j 0) k)
  exact congrArg₂ (fun a b => max (a + b) zero) (congrArg₂ (· + ·) e1 e2) e3

/-- What the body leaves in the output buffer: one store of the whole buffer. -/
theorem out2_7_eq (x0 x1 : Vec Ideal S5000x128 .f32) (x2 x3 : Vec Ideal S128x128 .bf16) (x4 : Vec Ideal S1x128 .f32)
    (x5 : Vec Ideal S128x128 .bf16) (x6 : Vec Ideal S1x128 .f32) :
    out2_7 x0 x1 x2 x3 x4 x5 x6 = nodeK x0 x1 x2 x3 x4 x5 x6 := by
  unfold out2_7
  rw [View.canon_unit_zero hz]
  simp only [View.ld_unit_zero (S := S5000x128) hz, View.ld_unit_zero (S := S128x128) hz, View.ld_unit_zero (S := S1x128) hz]
  exact pay2_1 x0 x1 x2 x3 x4 x5 x6

/-- The index maps over the grid: point t's two input blocks and its output block are rows 5000 t … 5000 t + 4999,
    all 128 columns; the weights and the biases are whole. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point t writes back is block t of the node network of the whole arrays. -/
theorem flushed2_7 (c : Dev nD) (t : Fin cfg2.N) :
    (dat2 V c).flushed 7 t = ((cfg2.win 7).blk t).view.read (Elt Ideal)
      (nodeK (V c main_v7 : S50000x128.Idx → EReal) (V c main_v41 : S50000x128.Idx → EReal)
        (V c main_v44 : S128x128.Idx → EReal) (V c main_v47 : S128x128.Idx → EReal) (V c main_v50 : S1x128.Idx → EReal)
        (V c main_v53 : S128x128.Idx → EReal) (V c main_v56 : S1x128.Idx → EReal)) := by
  show (cfg2.win 7).cut (grid2.coords t) ((dat2 V c).after 7 t) = _
  rw [after2_7, out2_7_eq]
  obtain ⟨a00, a01, a10, a11, a20, a21, a30, a31, a40, a41, a50, a51, a60, a61, a70, a71⟩ := idx2 t
  funext j
  show nodeK (iblk2 V c 0 t) (iblk2 V c 1 t) (iblk2 V c 2 t) (iblk2 V c 3 t) (iblk2 V c 4 t) (iblk2 V c 5 t) (iblk2 V c 6 t) j
    = nodeK (V c main_v7 : S50000x128.Idx → EReal) (V c main_v41 : S50000x128.Idx → EReal)
        (V c main_v44 : S128x128.Idx → EReal) (V c main_v47 : S128x128.Idx → EReal) (V c main_v50 : S1x128.Idx → EReal)
        (V c main_v53 : S128x128.Idx → EReal) (V c main_v56 : S1x128.Idx → EReal)
        (((cfg2.win 7).blk t).view.emb j)
  refine nodeK_congr _ _ (Fin.ext ?_) (fun k => ?_) (fun k => ?_) (funext fun y => ?_) (funext fun y => ?_)
    (funext fun y => ?_) (funext fun y => ?_) (funext fun y => ?_)
  · show (j 1).val = win2_7.index t (1 : Fin 2) * 128 + 1 * (j 1).val; omega
  · show V c main_v7 (((cfg2.win 0).blk t).view.emb (ix2 (j 0) k)) = V c main_v7 (ix2 ((((cfg2.win 7).blk t).view.emb j) 0) k)
    refine congrArg _ (funext fun a => Fin.ext ?_)
    match a with
    | ⟨0, _⟩ => show win2_0.index t (0 : Fin 2) * 5000 + 1 * (j 0).val = win2_7.index t (0 : Fin 2) * 5000 + 1 * (j 0).val; omega
    | ⟨1, _⟩ => show win2_0.index t (1 : Fin 2) * 128 + 1 * k.val = k.val; omega
  · show V c main_v41 (((cfg2.win 1).blk t).view.emb (ix2 (j 0) k)) = V c main_v41 (ix2 ((((cfg2.win 7).blk t).view.emb j) 0) k)
    refine congrArg _ (funext fun a => Fin.ext ?_)
    match a with
    | ⟨0, _⟩ => show win2_1.index t (0 : Fin 2) * 5000 + 1 * (j 0).val = win2_7.index t (0 : Fin 2) * 5000 + 1 * (j 0).val; omega
    | ⟨1, _⟩ => show win2_1.index t (1 : Fin 2) * 128 + 1 * k.val = k.val; omega
  · show V c main_v44 (((cfg2.win 2).blk t).view.emb y) = V c main_v44 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · show V c main_v47 (((cfg2.win 3).blk t).view.emb y) = V c main_v47 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · show V c main_v50 (((cfg2.win 4).blk t).view.emb y) = V c main_v50 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · show V c main_v53 (((cfg2.win 5).blk t).view.emb y) = V c main_v53 y
    refine congrArg _ (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  · show V c main_v56 (((cfg2.win 6).blk t).view.emb y) = V c main_v56 y
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega

/-- An index of the output array is in point t's block iff each coordinate is in the block's range on its axis. -/
theorem mem_blk2_7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v57).slice (win2_7.rect t)).set ↔ _
  rw [View.set_slice_whole, Rect.mem_set_unit]
  exact Iff.rfl

/-- The ten row blocks tile the 50000 rows: row r is in block r / 5000. -/
theorem cover2_7 (i : S50000x128.Idx) : ∃ t : Fin cfg2.N, (cfg2.win 7).flush t = true ∧ i ∈ ((cfg2.win 7).blk t).view.set := by
  have h0 : (i 0).val < 50000 := idx2_lt0 i
  have h1 : (i 1).val < 128 := idx2_lt1 i
  have ht : (i 0).val / 5000 < cfg2.N := by rw [show cfg2.N = 10 from N_2]; omega
  refine ⟨⟨(i 0).val / 5000, ht⟩, flush2_7 _, ?_⟩
  rw [mem_blk2_7]
  obtain ⟨a00, a01, a10, a11, a20, a21, a30, a31, a40, a41, a50, a51, a60, a61, a70, a71⟩ := idx2 ⟨(i 0).val / 5000, ht⟩
  have e70 : win2_7.index ⟨(i 0).val / 5000, ht⟩ (0 : Fin 2) = (i 0).val / 5000 := a70
  intro a
  match a with
  | ⟨0, _⟩ => show win2_7.index _ (0 : Fin 2) * 5000 ≤ (i 0).val ∧ (i 0).val < win2_7.index _ (0 : Fin 2) * 5000 + 5000; omega
  | ⟨1, _⟩ => show win2_7.index _ (1 : Fin 2) * 128 ≤ (i 1).val ∧ (i 1).val < win2_7.index _ (1 : Fin 2) * 128 + 128; omega

/-- THE NEW NODE FEATURES after region 2: the node network of the whole arrays the region finds. -/
theorem final2_7 (c : Dev nD) : (dat2 V c).arrAt 7 cfg2.N
    = nodeK (V c main_v7 : S50000x128.Idx → EReal) (V c main_v41 : S50000x128.Idx → EReal)
        (V c main_v44 : S128x128.Idx → EReal) (V c main_v47 : S128x128.Idx → EReal) (V c main_v50 : S1x128.Idx → EReal)
        (V c main_v53 : S128x128.Idx → EReal) (V c main_v56 : S1x128.Idx → EReal) :=
  (dat2 V c).arrAt_eq_of_cover 7 _ (fun t _ => flushed2_7 V c t) cover2_7

/-! ## Region 5: the node network into window 7 -/

/-- The stored value is the node network of the loaded blocks. -/
theorem pay5_1 (x0 x2 : Vec Ideal S5000x128 .f32) (x6 x9 : Vec Ideal S128x128 .bf16) (x13 : Vec Ideal S1x128 .f32)
    (x20 : Vec Ideal S128x128 .bf16) (x23 : Vec Ideal S1x128 .f32) :
    k5_pay1 x0 x2 x6 x9 x13 x20 x23 = nodeK x0 x2 x6 x9 x13 x20 x23 := by
  funext j
  unfold k5_pay1
  simp only [shapeCast_self]
  unfold nodeK lin
  refine (addf_apply _ _ j).trans ?_
  refine congrArg (x0 j + ·) ?_
  refine (addf_apply _ _ j).trans ?_
  refine congrArg₂ (· + ·) ((matmul5 (φ₁ := .bf16) (φ₂ := .bf16) _ x20 j).trans ?_) (bcast_row x23 broadcasts_S1x128_S5000x128 j)
  refine mm_congr j j (fun k => ?_) (fun k => rfl)
  have e1 := matmul5 (φ₁ := .bf16) (φ₂ := .bf16) (truncf .bf16 x0 bitsLt_bf16_f32) x6 (ix2 (j 0) k)
  have e2 := matmul5 (φ₁ := .bf16) (φ₂ := .bf16) (truncf .bf16 x2 bitsLt_bf16_f32) x9 (ix2 (j 0) k)
  have e3 := bcast_row x13 broadcasts_S1x128_S5000x128 (ix2 (j 0) k)
  exact congrArg₂ (fun a b => max (a + b) zero) (congrArg₂ (· + ·) e1 e2) e3

/-- What the body leaves in the output buffer: one store of the whole buffer. -/
theorem out5_7_eq (x0 x1 : Vec Ideal S5000x128 .f32) (x2 x3 : Vec Ideal S128x128 .bf16) (x4 : Vec Ideal S1x128 .f32)
    (x5 : Vec Ideal S128x128 .bf16) (x6 : Vec Ideal S1x128 .f32) :
    out5_7 x0 x1 x2 x3 x4 x5 x6 = nodeK x0 x1 x2 x3 x4 x5 x6 := by
  unfold out5_7
  rw [View.canon_unit_zero hz]
  simp only [View.ld_unit_zero (S := S5000x128) hz, View.ld_unit_zero (S := S128x128) hz, View.ld_unit_zero (S := S1x128) hz]
  exact pay5_1 x0 x1 x2 x3 x4 x5 x6

/-- The index maps over the grid: point t's two input blocks and its output block are rows 5000 t … 5000 t + 4999,
    all 128 columns; the weights and the biases are whole. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- What point t writes back is block t of the node network of the whole arrays. -/
theorem flushed5_7 (c : Dev nD) (t : Fin cfg5.N) :
    (dat5 V c).flushed 7 t = ((cfg5.win 7).blk t).view.read (Elt Ideal)
      (nodeK (V c main_v57 : S50000x128.Idx → EReal) (V c main_v91 : S50000x128.Idx → EReal)
        (V c main_v94 : S128x128.Idx → EReal) (V c main_v97 : S128x128.Idx → EReal) (V c main_v100 : S1x128.Idx → EReal)
        (V c main_v103 : S128x128.Idx → EReal) (V c main_v106 : S1x128.Idx → EReal)) := by
  show (cfg5.win 7).cut (grid5.coords t) ((dat5 V c).after 7 t) = _
  rw [after5_7, out5_7_eq]
  obtain ⟨a00, a01, a10, a11, a20, a21, a30, a31, a40, a41, a50, a51, a60, a61, a70, a71⟩ := idx5 t
  funext j
  show nodeK (iblk5 V c 0 t) (iblk5 V c 1 t) (iblk5 V c 2 t) (iblk5 V c 3 t) (iblk5 V c 4 t) (iblk5 V c 5 t) (iblk5 V c 6 t) j
    = nodeK (V c main_v57 : S50000x128.Idx → EReal) (V c main_v91 : S50000x128.Idx → EReal)
        (V c main_v94 : S128x128.Idx → EReal) (V c main_v97 : S128x128.Idx → EReal) (V c main_v100 : S1x128.Idx → EReal)
        (V c main_v103 : S128x128.Idx → EReal) (V c main_v106 : S1x128.Idx → EReal)
        (((cfg5.win 7).blk t).view.emb j)
  refine nodeK_congr _ _ (Fin.ext ?_) (fun k => ?_) (fun k => ?_) (funext fun y => ?_) (funext fun y => ?_)
    (funext fun y => ?_) (funext fun y => ?_) (funext fun y => ?_)
  · show (j 1).val = win5_7.index t (1 : Fin 2) * 128 + 1 * (j 1).val; omega
  · show V c main_v57 (((cfg5.win 0).blk t).view.emb (ix2 (j 0) k)) = V c main_v57 (ix2 ((((cfg5.win 7).blk t).view.emb j) 0) k)
    refine congrArg _ (funext fun a => Fin.ext ?_)
    match a with
    | ⟨0, _⟩ => show win5_0.index t (0 : Fin 2) * 5000 + 1 * (j 0).val = win5_7.index t (0 : Fin 2) * 5000 + 1 * (j 0).val; omega
    | ⟨1, _⟩ => show win5_0.index t (1 : Fin 2) * 128 + 1 * k.val = k.val; omega
  · show V c main_v91 (((cfg5.win 1).blk t).view.emb (ix2 (j 0) k)) = V c main_v91 (ix2 ((((cfg5.win 7).blk t).view.emb j) 0) k)
    refine congrArg _ (funext fun a => Fin.ext ?_)
    match a with
    | ⟨0, _⟩ => show win5_1.index t (0 : Fin 2) * 5000 + 1 * (j 0).val = win5_7.index t (0 : Fin 2) * 5000 + 1 * (j 0).val; omega
    | ⟨1, _⟩ => show win5_1.index t (1 : Fin 2) * 128 + 1 * k.val = k.val; omega
  · show V c main_v94 (((cfg5.win 2).blk t).view.emb y) = V c main_v94 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · show V c main_v97 (((cfg5.win 3).blk t).view.emb y) = V c main_v97 y
    refine congrArg _ (funext fun a => Fin.ext ?_)
    match a with
    | ⟨0, _⟩ => show win5_3.index t (0 : Fin 2) * 128 + 1 * (y 0).val = (y 0).val; omega
    | ⟨1, _⟩ => show win5_3.index t (1 : Fin 2) * 128 + 1 * (y 1).val = (y 1).val; omega
  · show V c main_v100 (((cfg5.win 4).blk t).view.emb y) = V c main_v100 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega
  · show V c main_v103 (((cfg5.win 5).blk t).view.emb y) = V c main_v103 y
    refine congrArg _ (funext fun a => Fin.ext ?_)
    match a with
    | ⟨0, _⟩ => show win5_5.index t (0 : Fin 2) * 128 + 1 * (y 0).val = (y 0).val; omega
    | ⟨1, _⟩ => show win5_5.index t (1 : Fin 2) * 128 + 1 * (y 1).val = (y 1).val; omega
  · show V c main_v106 (((cfg5.win 6).blk t).view.emb y) = V c main_v106 y
    refine congrArg _ (funext fun a => Fin.ext ?_)
    match a with
    | ⟨0, _⟩ => show win5_6.index t (0 : Fin 2) * 1 + 1 * (y 0).val = (y 0).val; omega
    | ⟨1, _⟩ => show win5_6.index t (1 : Fin 2) * 128 + 1 * (y 1).val = (y 1).val; omega

/-- An index of the output array is in point t's block iff each coordinate is in the block's range on its axis. -/
theorem mem_blk5_7 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v107).slice (win5_7.rect t)).set ↔ _
  rw [View.set_slice_whole, Rect.mem_set_unit]
  exact Iff.rfl

/-- The ten row blocks tile the 50000 rows: row r is in block r / 5000. -/
theorem cover5_7 (i : S50000x128.Idx) : ∃ t : Fin cfg5.N, (cfg5.win 7).flush t = true ∧ i ∈ ((cfg5.win 7).blk t).view.set := by
  have h0 : (i 0).val < 50000 := idx2_lt0 i
  have h1 : (i 1).val < 128 := idx2_lt1 i
  have ht : (i 0).val / 5000 < cfg5.N := by rw [show cfg5.N = 10 from N_5]; omega
  refine ⟨⟨(i 0).val / 5000, ht⟩, flush5_7 _, ?_⟩
  rw [mem_blk5_7]
  obtain ⟨a00, a01, a10, a11, a20, a21, a30, a31, a40, a41, a50, a51, a60, a61, a70, a71⟩ := idx5 ⟨(i 0).val / 5000, ht⟩
  have e70 : win5_7.index ⟨(i 0).val / 5000, ht⟩ (0 : Fin 2) = (i 0).val / 5000 := a70
  intro a
  match a with
  | ⟨0, _⟩ => show win5_7.index _ (0 : Fin 2) * 5000 ≤ (i 0).val ∧ (i 0).val < win5_7.index _ (0 : Fin 2) * 5000 + 5000; omega
  | ⟨1, _⟩ => show win5_7.index _ (1 : Fin 2) * 128 ≤ (i 1).val ∧ (i 1).val < win5_7.index _ (1 : Fin 2) * 128 + 128; omega

/-- THE NEW NODE FEATURES after region 5: the node network of the whole arrays the region finds. -/
theorem final5_7 (c : Dev nD) : (dat5 V c).arrAt 7 cfg5.N
    = nodeK (V c main_v57 : S50000x128.Idx → EReal) (V c main_v91 : S50000x128.Idx → EReal)
        (V c main_v94 : S128x128.Idx → EReal) (V c main_v97 : S128x128.Idx → EReal) (V c main_v100 : S1x128.Idx → EReal)
        (V c main_v103 : S128x128.Idx → EReal) (V c main_v106 : S1x128.Idx → EReal) :=
  (dat5 V c).arrAt_eq_of_cover 7 _ (fun t _ => flushed5_7 V c t) cover5_7

/-! ## Region 8: the node network into window 7 -/

/-- The stored value is the node network of the loaded blocks. -/
theorem pay8_1 (x0 x2 : Vec Ideal S5000x128 .f32) (x6 x9 : Vec Ideal S128x128 .bf16) (x13 : Vec Ideal S1x128 .f32)
    (x20 : Vec Ideal S128x128 .bf16) (x23 : Vec Ideal S1x128 .f32) :
    k8_pay1 x0 x2 x6 x9 x13 x20 x23 = nodeK x0 x2 x6 x9 x13 x20 x23 := by
  funext j
  unfold k8_pay1
  simp only [shapeCast_self]
  unfold nodeK lin
  refine (addf_apply _ _ j).trans ?_
  refine congrArg (x0 j + ·) ?_
  refine (addf_apply _ _ j).trans ?_
  refine congrArg₂ (· + ·) ((matmul5 (φ₁ := .bf16) (φ₂ := .bf16) _ x20 j).trans ?_) (bcast_row x23 broadcasts_S1x128_S5000x128 j)
  refine mm_congr j j (fun k => ?_) (fun k => rfl)
  have e1 := matmul5 (φ₁ := .bf16) (φ₂ := .bf16) (truncf .bf16 x0 bitsLt_bf16_f32) x6 (ix2 (j 0) k)
  have e2 := matmul5 (φ₁ := .bf16) (φ₂ := .bf16) (truncf .bf16 x2 bitsLt_bf16_f32) x9 (ix2 (j 0) k)
  have e3 := bcast_row x13 broadcasts_S1x128_S5000x128 (ix2 (j 0) k)
  exact congrArg₂ (fun a b => max (a + b) zero) (congrArg₂ (· + ·) e1 e2) e3

/-- What the body leaves in the output buffer: one store of the whole buffer. -/
theorem out8_7_eq (x0 x1 : Vec Ideal S5000x128 .f32) (x2 x3 : Vec Ideal S128x128 .bf16) (x4 : Vec Ideal S1x128 .f32)
    (x5 : Vec Ideal S128x128 .bf16) (x6 : Vec Ideal S1x128 .f32) :
    out8_7 x0 x1 x2 x3 x4 x5 x6 = nodeK x0 x1 x2 x3 x4 x5 x6 := by
  unfold out8_7
  rw [View.canon_unit_zero hz]
  simp only [View.ld_unit_zero (S := S5000x128) hz, View.ld_unit_zero (S := S128x128) hz, View.ld_unit_zero (S := S1x128) hz]
  exact pay8_1 x0 x1 x2 x3 x4 x5 x6

/-- The index maps over the grid: point t's two input blocks and its output block are rows 5000 t … 5000 t + 4999,
    all 128 columns; the weights and the biases are whole. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-- What point t writes back is block t of the node network of the whole arrays. -/
theorem flushed8_7 (c : Dev nD) (t : Fin cfg8.N) :
    (dat8 V c).flushed 7 t = ((cfg8.win 7).blk t).view.read (Elt Ideal)
      (nodeK (V c main_v107 : S50000x128.Idx → EReal) (V c main_v141 : S50000x128.Idx → EReal)
        (V c main_v144 : S128x128.Idx → EReal) (V c main_v147 : S128x128.Idx → EReal) (V c main_v150 : S1x128.Idx → EReal)
        (V c main_v153 : S128x128.Idx → EReal) (V c main_v156 : S1x128.Idx → EReal)) := by
  show (cfg8.win 7).cut (grid8.coords t) ((dat8 V c).after 7 t) = _
  rw [after8_7, out8_7_eq]
  obtain ⟨a00, a01, a10, a11, a20, a21, a30, a31, a40, a41, a50, a51, a60, a61, a70, a71⟩ := idx8 t
  funext j
  show nodeK (iblk8 V c 0 t) (iblk8 V c 1 t) (iblk8 V c 2 t) (iblk8 V c 3 t) (iblk8 V c 4 t) (iblk8 V c 5 t) (iblk8 V c 6 t) j
    = nodeK (V c main_v107 : S50000x128.Idx → EReal) (V c main_v141 : S50000x128.Idx → EReal)
        (V c main_v144 : S128x128.Idx → EReal) (V c main_v147 : S128x128.Idx → EReal) (V c main_v150 : S1x128.Idx → EReal)
        (V c main_v153 : S128x128.Idx → EReal) (V c main_v156 : S1x128.Idx → EReal)
        (((cfg8.win 7).blk t).view.emb j)
  refine nodeK_congr _ _ (Fin.ext ?_) (fun k => ?_) (fun k => ?_) (funext fun y => ?_) (funext fun y => ?_)
    (funext fun y => ?_) (funext fun y => ?_) (funext fun y => ?_)
  · show (j 1).val = win8_7.index t (1 : Fin 2) * 128 + 1 * (j 1).val; omega
  · show V c main_v107 (((cfg8.win 0).blk t).view.emb (ix2 (j 0) k)) = V c main_v107 (ix2 ((((cfg8.win 7).blk t).view.emb j) 0) k)
    refine congrArg _ (funext fun a => Fin.ext ?_)
    match a with
    | ⟨0, _⟩ => show win8_0.index t (0 : Fin 2) * 5000 + 1 * (j 0).val = win8_7.index t (0 : Fin 2) * 5000 + 1 * (j 0).val; omega
    | ⟨1, _⟩ => show win8_0.index t (1 : Fin 2) * 128 + 1 * k.val = k.val; omega
  · show V c main_v141 (((cfg8.win 1).blk t).view.emb (ix2 (j 0) k)) = V c main_v141 (ix2 ((((cfg8.win 7).blk t).view.emb j) 0) k)
    refine congrArg _ (funext fun a => Fin.ext ?_)
    match a with
    | ⟨0, _⟩ => show win8_1.index t (0 : Fin 2) * 5000 + 1 * (j 0).val = win8_7.index t (0 : Fin 2) * 5000 + 1 * (j 0).val; omega
    | ⟨1, _⟩ => show win8_1.index t (1 : Fin 2) * 128 + 1 * k.val = k.val; omega
  · show V c main_v144 (((cfg8.win 2).blk t).view.emb y) = V c main_v144 y
    refine congrArg _ (funext fun a => Fin.ext ?_)
    match a with
    | ⟨0, _⟩ => show win8_2.index t (0 : Fin 2) * 128 + 1 * (y 0).val = (y 0).val; omega
    | ⟨1, _⟩ => show win8_2.index t (1 : Fin 2) * 128 + 1 * (y 1).val = (y 1).val; omega
  · show V c main_v147 (((cfg8.win 3).blk t).view.emb y) = V c main_v147 y
    refine congrArg _ (funext fun a => Fin.ext ?_)
    match a with
    | ⟨0, _⟩ => show win8_3.index t (0 : Fin 2) * 128 + 1 * (y 0).val = (y 0).val; omega
    | ⟨1, _⟩ => show win8_3.index t (1 : Fin 2) * 128 + 1 * (y 1).val = (y 1).val; omega
  · show V c main_v150 (((cfg8.win 4).blk t).view.emb y) = V c main_v150 y
    refine congrArg _ (funext fun a => Fin.ext ?_)
    match a with
    | ⟨0, _⟩ => show win8_4.index t (0 : Fin 2) * 1 + 1 * (y 0).val = (y 0).val; omega
    | ⟨1, _⟩ => show win8_4.index t (1 : Fin 2) * 128 + 1 * (y 1).val = (y 1).val; omega
  · show V c main_v153 (((cfg8.win 5).blk t).view.emb y) = V c main_v153 y
    refine congrArg _ (funext fun a => Fin.ext ?_)
    match a with
    | ⟨0, _⟩ => show win8_5.index t (0 : Fin 2) * 128 + 1 * (y 0).val = (y 0).val; omega
    | ⟨1, _⟩ => show win8_5.index t (1 : Fin 2) * 128 + 1 * (y 1).val = (y 1).val; omega
  · show V c main_v156 (((cfg8.win 6).blk t).view.emb y) = V c main_v156 y
    refine congrArg _ (funext fun a => Fin.ext ?_)
    match a with
    | ⟨0, _⟩ => show win8_6.index t (0 : Fin 2) * 1 + 1 * (y 0).val = (y 0).val; omega
    | ⟨1, _⟩ => show win8_6.index t (1 : Fin 2) * 128 + 1 * (y 1).val = (y 1).val; omega

/-- An index of the output array is in point t's block iff each coordinate is in the block's range on its axis. -/
theorem mem_blk8_7 (t : Fin cfg8.N) (i : S50000x128.Idx) :
    i ∈ ((cfg8.win 7).blk t).view.set ↔ ∀ a : Fin 2, win8_7.index t a * S5000x128.size a ≤ (i a).val ∧ (i a).val < win8_7.index t a * S5000x128.size a + S5000x128.size a := by
  show i ∈ ((View.whole main_v157).slice (win8_7.rect t)).set ↔ _
  rw [View.set_slice_whole, Rect.mem_set_unit]
  exact Iff.rfl

/-- The ten row blocks tile the 50000 rows: row r is in block r / 5000. -/
theorem cover8_7 (i : S50000x128.Idx) : ∃ t : Fin cfg8.N, (cfg8.win 7).flush t = true ∧ i ∈ ((cfg8.win 7).blk t).view.set := by
  have h0 : (i 0).val < 50000 := idx2_lt0 i
  have h1 : (i 1).val < 128 := idx2_lt1 i
  have ht : (i 0).val / 5000 < cfg8.N := by rw [show cfg8.N = 10 from N_8]; omega
  refine ⟨⟨(i 0).val / 5000, ht⟩, flush8_7 _, ?_⟩
  rw [mem_blk8_7]
  obtain ⟨a00, a01, a10, a11, a20, a21, a30, a31, a40, a41, a50, a51, a60, a61, a70, a71⟩ := idx8 ⟨(i 0).val / 5000, ht⟩
  have e70 : win8_7.index ⟨(i 0).val / 5000, ht⟩ (0 : Fin 2) = (i 0).val / 5000 := a70
  intro a
  match a with
  | ⟨0, _⟩ => show win8_7.index _ (0 : Fin 2) * 5000 ≤ (i 0).val ∧ (i 0).val < win8_7.index _ (0 : Fin 2) * 5000 + 5000; omega
  | ⟨1, _⟩ => show win8_7.index _ (1 : Fin 2) * 128 ≤ (i 1).val ∧ (i 1).val < win8_7.index _ (1 : Fin 2) * 128 + 128; omega

/-- THE NEW NODE FEATURES after region 8: the node network of the whole arrays the region finds. -/
theorem final8_7 (c : Dev nD) : (dat8 V c).arrAt 7 cfg8.N
    = nodeK (V c main_v107 : S50000x128.Idx → EReal) (V c main_v141 : S50000x128.Idx → EReal)
        (V c main_v144 : S128x128.Idx → EReal) (V c main_v147 : S128x128.Idx → EReal) (V c main_v150 : S1x128.Idx → EReal)
        (V c main_v153 : S128x128.Idx → EReal) (V c main_v156 : S1x128.Idx → EReal) :=
  (dat8 V c).arrAt_eq_of_cover 7 _ (fun t _ => flushed8_7 V c t) cover8_7

end Cert.KernelIdeal.Regions

end
-- ==== Proof.KernelValue.lean ====
/-
  The kernel program's result as the network of the specification.

  Layer by layer: the projection launch leaves p = h · (top half of the first edge weight) and q = h · (bottom half);
  the gathers select the edges' rows; the edge launch leaves the messages; the scatter sums them per destination; the
  node launch leaves the next features. The decoder is a dense layer of the last features.
-/
import proofs.«134322_j88562225643709_2_alg».proof.Proof.KernelWeights
import proofs.«134322_j88562225643709_2_alg».proof.Proof.RegionProj
import proofs.«134322_j88562225643709_2_alg».proof.Proof.RegionEdge
import proofs.«134322_j88562225643709_2_alg».proof.Proof.RegionNode

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Cert.Dense Cert.Mpnn Cert.KernelIdeal.Regions

variable (m : (ℓ : Loc nD τ sig) → Buf (Elt Ideal) ℓ) (ρ : Dev nD → PrngReg) (c : Dev nD)

/-! ## Layer 0 -/

theorem p_0 (H : Mat 50000 128) (hH : W1 m ρ c (Proc.devRef .tc main_v7) = H) : W2 m ρ c (Proc.devRef .tc main_v23_0) = mm H (top (wslice (A6 m ρ c) 0)) := by
  rw [show W2 m ρ c (Proc.devRef .tc main_v23_0) = (dat0 (V1 m ρ) c).arrAt 3 cfg0.N from W2_arr m ρ c 3, final0_3 (V1 m ρ) c]
  show mm (W1 m ρ c (Proc.devRef .tc main_v7)) (W1 m ρ c (Proc.devRef .tc main_v10)) = _
  rw [hH, w1a_0]
theorem q_0 (H : Mat 50000 128) (hH : W1 m ρ c (Proc.devRef .tc main_v7) = H) : W2 m ρ c (Proc.devRef .tc main_v23_1) = mm H (bot (wslice (A6 m ρ c) 0)) := by
  rw [show W2 m ρ c (Proc.devRef .tc main_v23_1) = (dat0 (V1 m ρ) c).arrAt 4 cfg0.N from W2_arr m ρ c 4, final0_4 (V1 m ρ) c]
  show mm (W1 m ρ c (Proc.devRef .tc main_v7)) (W1 m ρ c (Proc.devRef .tc main_v13)) = _
  rw [hH, w1b_0]
theorem e_0 (H : Mat 50000 128) (hH : W1 m ρ c (Proc.devRef .tc main_v7) = H) :
    W4 m ρ c (Proc.devRef .tc main_v38) = edgeK (rowsOf (mm H (top (wslice (A6 m ρ c) 0))) (edgeRow (A1 m ρ c) 0)) (rowsOf (mm H (bot (wslice (A6 m ρ c) 0))) (edgeRow (A1 m ρ c) 1))
      (bslice (A7 m ρ c) 0) (wslice (A8 m ρ c) 0) (bslice (A9 m ρ c) 0) := by
  rw [show W4 m ρ c (Proc.devRef .tc main_v38) = (dat1 (V3 m ρ) c).arrAt 5 cfg1.N from W4_arr m ρ c 5, final1_5 (V3 m ρ) c]
  show edgeK (W3 m ρ c (Proc.devRef .tc main_v30)) (W3 m ρ c (Proc.devRef .tc main_v37)) (W3 m ρ c (Proc.devRef .tc main_v16)) (W3 m ρ c (Proc.devRef .tc main_v19)) (W3 m ρ c (Proc.devRef .tc main_v22)) = _
  rw [pr_0 m ρ c _ (p_0 m ρ c H hH), qc_0 m ρ c _ (q_0 m ρ c H hH), carry_v16_1_3, carry_v19_1_3, carry_v22_1_3, b1_0, w2_0, b2_0]
theorem out_0 (H : Mat 50000 128) (hH1 : W1 m ρ c (Proc.devRef .tc main_v7) = H) (hH5 : W5 m ρ c (Proc.devRef .tc main_v7) = H) :
    W6 m ρ c (Proc.devRef .tc main_v57) = LK (SK m ρ c) (A1 m ρ c) (A6 m ρ c) (A7 m ρ c) (A8 m ρ c) (A9 m ρ c) (A10 m ρ c) (A11 m ρ c) (A12 m ρ c) (A13 m ρ c) 0 H := by
  rw [show W6 m ρ c (Proc.devRef .tc main_v57) = (dat2 (V5 m ρ) c).arrAt 7 cfg2.N from W6_arr m ρ c 7, final2_7 (V5 m ρ) c]
  show nodeK (W5 m ρ c (Proc.devRef .tc main_v7)) (W5 m ρ c (Proc.devRef .tc main_v41)) (W5 m ρ c (Proc.devRef .tc main_v44)) (W5 m ρ c (Proc.devRef .tc main_v47)) (W5 m ρ c (Proc.devRef .tc main_v50)) (W5 m ρ c (Proc.devRef .tc main_v53)) (W5 m ρ c (Proc.devRef .tc main_v56)) = _
  rw [hH5, agg_0 m ρ c _ (e_0 m ρ c H hH1), nw1a_0, nw1b_0, nb1_0, nw2_0, nb2_0]
  rfl

/-! ## Layer 1 -/

theorem p_1 (H : Mat 50000 128) (hH : W7 m ρ c (Proc.devRef .tc main_v57) = H) : W8 m ρ c (Proc.devRef .tc main_v73_0) = mm H (top (wslice (A6 m ρ c) 1)) := by
  rw [show W8 m ρ c (Proc.devRef .tc main_v73_0) = (dat3 (V7 m ρ) c).arrAt 3 cfg3.N from W8_arr m ρ c 3, final3_3 (V7 m ρ) c]
  show mm (W7 m ρ c (Proc.devRef .tc main_v57)) (W7 m ρ c (Proc.devRef .tc main_v60)) = _
  rw [hH, w1a_1]
theorem q_1 (H : Mat 50000 128) (hH : W7 m ρ c (Proc.devRef .tc main_v57) = H) : W8 m ρ c (Proc.devRef .tc main_v73_1) = mm H (bot (wslice (A6 m ρ c) 1)) := by
  rw [show W8 m ρ c (Proc.devRef .tc main_v73_1) = (dat3 (V7 m ρ) c).arrAt 4 cfg3.N from W8_arr m ρ c 4, final3_4 (V7 m ρ) c]
  show mm (W7 m ρ c (Proc.devRef .tc main_v57)) (W7 m ρ c (Proc.devRef .tc main_v63)) = _
  rw [hH, w1b_1]
theorem e_1 (H : Mat 50000 128) (hH : W7 m ρ c (Proc.devRef .tc main_v57) = H) :
    W10 m ρ c (Proc.devRef .tc main_v88) = edgeK (rowsOf (mm H (top (wslice (A6 m ρ c) 1))) (edgeRow (A1 m ρ c) 0)) (rowsOf (mm H (bot (wslice (A6 m ρ c) 1))) (edgeRow (A1 m ρ c) 1))
      (bslice (A7 m ρ c) 1) (wslice (A8 m ρ c) 1) (bslice (A9 m ρ c) 1) := by
  rw [show W10 m ρ c (Proc.devRef .tc main_v88) = (dat4 (V9 m ρ) c).arrAt 5 cfg4.N from W10_arr m ρ c 5, final4_5 (V9 m ρ) c]
  show edgeK (W9 m ρ c (Proc.devRef .tc main_v80)) (W9 m ρ c (Proc.devRef .tc main_v87)) (W9 m ρ c (Proc.devRef .tc main_v66)) (W9 m ρ c (Proc.devRef .tc main_v69)) (W9 m ρ c (Proc.devRef .tc main_v72)) = _
  rw [pr_1 m ρ c _ (p_1 m ρ c H hH), qc_1 m ρ c _ (q_1 m ρ c H hH), carry_v66_7_9, carry_v69_7_9, carry_v72_7_9, b1_1, w2_1, b2_1]
theorem out_1 (H : Mat 50000 128) (hH1 : W7 m ρ c (Proc.devRef .tc main_v57) = H) (hH5 : W11 m ρ c (Proc.devRef .tc main_v57) = H) :
    W12 m ρ c (Proc.devRef .tc main_v107) = LK (SK m ρ c) (A1 m ρ c) (A6 m ρ c) (A7 m ρ c) (A8 m ρ c) (A9 m ρ c) (A10 m ρ c) (A11 m ρ c) (A12 m ρ c) (A13 m ρ c) 1 H := by
  rw [show W12 m ρ c (Proc.devRef .tc main_v107) = (dat5 (V11 m ρ) c).arrAt 7 cfg5.N from W12_arr m ρ c 7, final5_7 (V11 m ρ) c]
  show nodeK (W11 m ρ c (Proc.devRef .tc main_v57)) (W11 m ρ c (Proc.devRef .tc main_v91)) (W11 m ρ c (Proc.devRef .tc main_v94)) (W11 m ρ c (Proc.devRef .tc main_v97)) (W11 m ρ c (Proc.devRef .tc main_v100)) (W11 m ρ c (Proc.devRef .tc main_v103)) (W11 m ρ c (Proc.devRef .tc main_v106)) = _
  rw [hH5, agg_1 m ρ c _ (e_1 m ρ c H hH1), nw1a_1, nw1b_1, nb1_1, nw2_1, nb2_1]
  rfl

/-! ## Layer 2 -/

theorem p_2 (H : Mat 50000 128) (hH : W13 m ρ c (Proc.devRef .tc main_v107) = H) : W14 m ρ c (Proc.devRef .tc main_v123_0) = mm H (top (wslice (A6 m ρ c) 2)) := by
  rw [show W14 m ρ c (Proc.devRef .tc main_v123_0) = (dat6 (V13 m ρ) c).arrAt 3 cfg6.N from W14_arr m ρ c 3, final6_3 (V13 m ρ) c]
  show mm (W13 m ρ c (Proc.devRef .tc main_v107)) (W13 m ρ c (Proc.devRef .tc main_v110)) = _
  rw [hH, w1a_2]
theorem q_2 (H : Mat 50000 128) (hH : W13 m ρ c (Proc.devRef .tc main_v107) = H) : W14 m ρ c (Proc.devRef .tc main_v123_1) = mm H (bot (wslice (A6 m ρ c) 2)) := by
  rw [show W14 m ρ c (Proc.devRef .tc main_v123_1) = (dat6 (V13 m ρ) c).arrAt 4 cfg6.N from W14_arr m ρ c 4, final6_4 (V13 m ρ) c]
  show mm (W13 m ρ c (Proc.devRef .tc main_v107)) (W13 m ρ c (Proc.devRef .tc main_v113)) = _
  rw [hH, w1b_2]
theorem e_2 (H : Mat 50000 128) (hH : W13 m ρ c (Proc.devRef .tc main_v107) = H) :
    W16 m ρ c (Proc.devRef .tc main_v138) = edgeK (rowsOf (mm H (top (wslice (A6 m ρ c) 2))) (edgeRow (A1 m ρ c) 0)) (rowsOf (mm H (bot (wslice (A6 m ρ c) 2))) (edgeRow (A1 m ρ c) 1))
      (bslice (A7 m ρ c) 2) (wslice (A8 m ρ c) 2) (bslice (A9 m ρ c) 2) := by
  rw [show W16 m ρ c (Proc.devRef .tc main_v138) = (dat7 (V15 m ρ) c).arrAt 5 cfg7.N from W16_arr m ρ c 5, final7_5 (V15 m ρ) c]
  show edgeK (W15 m ρ c (Proc.devRef .tc main_v130)) (W15 m ρ c (Proc.devRef .tc main_v137)) (W15 m ρ c (Proc.devRef .tc main_v116)) (W15 m ρ c (Proc.devRef .tc main_v119)) (W15 m ρ c (Proc.devRef .tc main_v122)) = _
  rw [pr_2 m ρ c _ (p_2 m ρ c H hH), qc_2 m ρ c _ (q_2 m ρ c H hH), carry_v116_13_15, carry_v119_13_15, carry_v122_13_15, b1_2, w2_2, b2_2]
theorem out_2 (H : Mat 50000 128) (hH1 : W13 m ρ c (Proc.devRef .tc main_v107) = H) (hH5 : W17 m ρ c (Proc.devRef .tc main_v107) = H) :
    W18 m ρ c (Proc.devRef .tc main_v157) = LK (SK m ρ c) (A1 m ρ c) (A6 m ρ c) (A7 m ρ c) (A8 m ρ c) (A9 m ρ c) (A10 m ρ c) (A11 m ρ c) (A12 m ρ c) (A13 m ρ c) 2 H := by
  rw [show W18 m ρ c (Proc.devRef .tc main_v157) = (dat8 (V17 m ρ) c).arrAt 7 cfg8.N from W18_arr m ρ c 7, final8_7 (V17 m ρ) c]
  show nodeK (W17 m ρ c (Proc.devRef .tc main_v107)) (W17 m ρ c (Proc.devRef .tc main_v141)) (W17 m ρ c (Proc.devRef .tc main_v144)) (W17 m ρ c (Proc.devRef .tc main_v147)) (W17 m ρ c (Proc.devRef .tc main_v150)) (W17 m ρ c (Proc.devRef .tc main_v153)) (W17 m ρ c (Proc.devRef .tc main_v156)) = _
  rw [hH5, agg_2 m ρ c _ (e_2 m ρ c H hH1), nw1a_2, nw1b_2, nb1_2, nw2_2, nb2_2]
  rfl

/-! ## The three layers in a row, and the decoder -/

/-- The features after the encoder and after each layer, as the kernel computes them. -/
abbrev H0 : Mat 50000 128 := lin (A0 m ρ c) (A2 m ρ c) (rowOf (A3 m ρ c))
abbrev H1 : Mat 50000 128 := LK (SK m ρ c) (A1 m ρ c) (A6 m ρ c) (A7 m ρ c) (A8 m ρ c) (A9 m ρ c) (A10 m ρ c) (A11 m ρ c) (A12 m ρ c) (A13 m ρ c) 0 (H0 m ρ c)
abbrev H2 : Mat 50000 128 := LK (SK m ρ c) (A1 m ρ c) (A6 m ρ c) (A7 m ρ c) (A8 m ρ c) (A9 m ρ c) (A10 m ρ c) (A11 m ρ c) (A12 m ρ c) (A13 m ρ c) 1 (H1 m ρ c)
abbrev H3 : Mat 50000 128 := LK (SK m ρ c) (A1 m ρ c) (A6 m ρ c) (A7 m ρ c) (A8 m ρ c) (A9 m ρ c) (A10 m ρ c) (A11 m ρ c) (A12 m ρ c) (A13 m ρ c) 2 (H2 m ρ c)

theorem h1_val : W6 m ρ c (Proc.devRef .tc main_v57) = H1 m ρ c :=
  out_0 m ρ c _ (h0_val m ρ c) ((carry_v7_1_5 m ρ c).trans (h0_val m ρ c))
theorem h2_val : W12 m ρ c (Proc.devRef .tc main_v107) = H2 m ρ c :=
  out_1 m ρ c _ ((carry_v57_6_7 m ρ c).trans (h1_val m ρ c)) ((carry_v57_6_11 m ρ c).trans (h1_val m ρ c))
theorem h3_val : W18 m ρ c (Proc.devRef .tc main_v157) = H3 m ρ c :=
  out_2 m ρ c _ ((carry_v107_12_13 m ρ c).trans (h2_val m ρ c)) ((carry_v107_12_17 m ρ c).trans (h2_val m ρ c))

/-- THE KERNEL PROGRAM'S RESULT is the network as the kernel computes it. -/
theorem kernel_value : W19 m ρ c (Proc.devRef .tc main_v161)
    = netK (SK m ρ c) (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) := by
  rw [rd_v161, h3_val, carry_arg4_0_18, carry_arg5_0_18, Read.bcastRow_eq]
  exact Read.dense_eq dot_S50000x128_S128x3_S50000x3_1_0_0_1_n_n rfl rfl (fun _ _ => rfl) (fun _ _ => rfl) (fun _ _ => rfl) (fun _ _ => rfl) bcast_S1x3_S50000x3_0_1 _ (A4 m ρ c) (rowOf (A5 m ρ c))

end Cert.KernelIdeal.Chain

end
-- ==== Proof.RefValue.lean ====
/-
  The reference program's result, read as the network of the specification.

  From the node inputs x, the edge array and the weights the reference computes the encoder x · enc_w + enc_b; then
  three times a layer: the features' rows gathered at each edge's source word and at its destination word (each word
  normalised, then clamped into the table), the edge network on the two gathered blocks side by side, the messages
  summed per destination node, the node network on the features and the sums side by side, and the features added
  back; then the decoder h · dec_w + dec_b.

  One lemma reads a layer's term, stated over its operands as variables, as the specification's layer: every dense
  step is X · W + B, every rectifier a maximum with zero, every concatenation the two blocks side by side, every
  gather the selection of rows. The three layers are that term at the three slices of the stacked weights, and the
  result is the decoder applied to the third layer's features.
-/
import proofs.«134322_j88562225643709_2_alg».proof.Proof.Gen.ReferenceIdeal.Run
import proofs.«134322_j88562225643709_2_alg».proof.Proof.HostRead
import proofs.«134322_j88562225643709_2_alg».proof.Proof.Net

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.Dense Cert.Mpnn Cert.Mpnn.Read

/-- The per-destination sum of the messages as the reference spells it: the messages added into a zero table at
    the destination words, row 1 of the edge array. A function of the edge array alone. -/
abbrev refS (a1 : IVec S2x800000 32) : Mat 800000 128 → Mat 50000 128 := fun u =>
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] a1 slices_S2x800000_S1x800000_1_0) shapeCasts_S1x800000_S800000)) u

/-- One layer as the reference's program spells it, over its operands: the features h, the source and destination
    word vectors v1 and v3, and the eight weights of the layer (the biases as vectors). -/
def refLayer (h : FVec Ideal S50000x128 .f32) (v1 v3 : IVec S800000 32)
    (w1 : FVec Ideal S256x128 .f32) (b1 : FVec Ideal S128 .f32) (w2 : FVec Ideal S128x128 .f32) (b2 : FVec Ideal S128 .f32)
    (nw1 : FVec Ideal S256x128 .f32) (nb1 : FVec Ideal S128 .f32) (nw2 : FVec Ideal S128x128 .f32)
    (nb2 : FVec Ideal S128 .f32) : FVec Ideal S50000x128 .f32 :=
  addf h (addf (Host.dotGeneral dot_S50000x128_S128x128_S50000x128_1_0_0_1_n_n none (maximumf (addf (Host.dotGeneral dot_S50000x256_S256x128_S50000x128_1_0_0_1_n_n none (concatenate S50000x256 1 [⟨S50000x128, h⟩, ⟨S50000x128, (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 v3) (addf (Host.dotGeneral dot_S800000x128_S128x128_S800000x128_1_0_0_1_n_n none (maximumf (addf (Host.dotGeneral dot_S800000x256_S256x128_S800000x128_1_0_0_1_n_n none (concatenate S800000x256 1 [⟨S800000x128, (Host.gather gather_S50000x128_S800000x1_S800000x128_1_0_n_n_0_1_1128 h (broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1)))⟩, ⟨S800000x128, (Host.gather gather_S50000x128_S800000x1_S800000x128_1_0_n_n_0_1_1128 h (broadcastInDim S800000x1 ![0] bcast_S800000_S800000x1_0 (select (cmpi .slt v3 (broadcastInDim S800000 ![] bcast_S_S800000 (constantI S_ 32 0#32))) (addi v3 (broadcastInDim S800000 ![] bcast_S_S800000 (constantI S_ 32 50000#32))) v3)))⟩] concatenates_S800000x128_S800000x128_S800000x256_d1) w1) (broadcastInDim S800000x128 ![0, 1] bcast_S1x128_S800000x128_0_1 (broadcastInDim S1x128 ![1] bcast_S128_S1x128_1 b1))) (broadcastInDim S800000x128 ![] bcast_S_S800000x128 (constant (F := Ideal) S_ .f32 0x00000000#32))) w2) (broadcastInDim S800000x128 ![0, 1] bcast_S1x128_S800000x128_0_1 (broadcastInDim S1x128 ![1] bcast_S128_S1x128_1 b2))))⟩] concatenates_S50000x128_S50000x128_S50000x256_d1) nw1) (broadcastInDim S50000x128 ![0, 1] bcast_S1x128_S50000x128_0_1 (broadcastInDim S1x128 ![1] bcast_S128_S1x128_1 nb1))) (broadcastInDim S50000x128 ![] bcast_S_S50000x128 (constant (F := Ideal) S_ .f32 0x00000000#32))) nw2) (broadcastInDim S50000x128 ![0, 1] bcast_S1x128_S50000x128_0_1 (broadcastInDim S1x128 ![1] bcast_S128_S1x128_1 nb2)))

/-- THE REFERENCE'S LAYER IS THE SPECIFICATION'S: gathers of the features' rows at the normalised, clamped words,
    the edge network on their concatenation, the per-destination sum, the node network with its residual. -/
theorem refLayer_eq (h : FVec Ideal S50000x128 .f32) (v1 v3 : IVec S800000 32)
    (w1 : FVec Ideal S256x128 .f32) (b1 : FVec Ideal S128 .f32) (w2 : FVec Ideal S128x128 .f32) (b2 : FVec Ideal S128 .f32)
    (nw1 : FVec Ideal S256x128 .f32) (nb1 : FVec Ideal S128 .f32) (nw2 : FVec Ideal S128x128 .f32)
    (nb2 : FVec Ideal S128 .f32) :
    refLayer h v1 v3 w1 b1 w2 b2 nw1 nb1 nw2 nb2
      = layerR (N := 50000) (E := 800000)
          (fun u => Host.scatterAdd (F := Ideal) scatter_S50000x128_S800000x1_S800000x128_1_0_0_1
            (broadcastInDim S50000x128 ![] bcast_S_S50000x128 (constant (F := Ideal) S_ .f32 0x00000000#32))
            (broadcastInDim S800000x1 ![0] bcast_S800000_S800000x1_0 v3) u)
          (fun e => ⟨clampRow 50000 (normIdx (v1 (ix1 e))), clampRow_lt (by decide) _⟩)
          (fun e => ⟨clampRow 50000 (normIdx (v3 (ix1 e))), clampRow_lt (by decide) _⟩)
          w1 (rowOf b1) w2 (rowOf b2) nw1 (rowOf nb1) nw2 (rowOf nb2) h := by
  unfold refLayer layerR nodeR edgeR
  rw [bcastRow_eq bcast_S128_S1x128_1 b1, bcastRow_eq bcast_S128_S1x128_1 b2,
    bcastRow_eq bcast_S128_S1x128_1 nb1, bcastRow_eq bcast_S128_S1x128_1 nb2]
  rw [gatherNorm_eq (by decide) gather_S50000x128_S800000x1_S800000x128_1_0_n_n_0_1_1128_wf
      gather_S50000x128_S800000x1_S800000x128_1_0_n_n_0_1_1128 rfl bcast_S800000_S800000x1_0 bcast_S_S800000 h v1,
    gatherNorm_eq (by decide) gather_S50000x128_S800000x1_S800000x128_1_0_n_n_0_1_1128_wf
      gather_S50000x128_S800000x1_S800000x128_1_0_n_n_0_1_1128 rfl bcast_S800000_S800000x1_0 bcast_S_S800000 h v3]
  rw [cat_eq concatenates_S800000x128_S800000x128_S800000x256_d1]
  rw [dense_eq dot_S800000x256_S256x128_S800000x128_1_0_0_1_n_n rfl rfl (fun _ _ => rfl) (fun _ _ => rfl) (fun _ _ => rfl) (fun _ _ => rfl) bcast_S1x128_S800000x128_0_1]
  rw [relu_eq bcast_S_S800000x128]
  rw [dense_eq dot_S800000x128_S128x128_S800000x128_1_0_0_1_n_n rfl rfl (fun _ _ => rfl) (fun _ _ => rfl) (fun _ _ => rfl) (fun _ _ => rfl) bcast_S1x128_S800000x128_0_1]
  rw [cat_eq concatenates_S50000x128_S50000x128_S50000x256_d1]
  rw [dense_eq dot_S50000x256_S256x128_S50000x128_1_0_0_1_n_n rfl rfl (fun _ _ => rfl) (fun _ _ => rfl) (fun _ _ => rfl) (fun _ _ => rfl) bcast_S1x128_S50000x128_0_1]
  rw [relu_eq bcast_S_S50000x128]
  rw [dense_eq dot_S50000x128_S128x128_S50000x128_1_0_0_1_n_n rfl rfl (fun _ _ => rfl) (fun _ _ => rfl) (fun _ _ => rfl) (fun _ _ => rfl) bcast_S1x128_S50000x128_0_1]
  rfl

/-- The source rows: the normalised, clamped words of row 0 of the edge array. -/
theorem rows1_eq (V0 : Valuation τ sig (Elt Ideal)) :
    (fun e : Fin 800000 => (⟨clampRow 50000 (normIdx (res_main_v1 V0 (ix1 e))), clampRow_lt (by decide) _⟩ : Fin 50000))
      = edgeRow (V0 (Proc.devRef .tc main_arg1)) 0 := by
  funext e
  refine Fin.ext (congrArg (fun w => clampRow 50000 (normIdx w)) ?_)
  unfold res_main_v1
  exact rowVec_apply (V0 (Proc.devRef .tc main_arg1)) (0 : Fin 2) _ rfl slices_S2x800000_S1x800000_0_0 shapeCasts_S1x800000_S800000 e

/-- The destination rows: the normalised, clamped words of row 1 of the edge array. -/
theorem rows3_eq (V0 : Valuation τ sig (Elt Ideal)) :
    (fun e : Fin 800000 => (⟨clampRow 50000 (normIdx (res_main_v3 V0 (ix1 e))), clampRow_lt (by decide) _⟩ : Fin 50000))
      = edgeRow (V0 (Proc.devRef .tc main_arg1)) 1 := by
  funext e
  refine Fin.ext (congrArg (fun w => clampRow 50000 (normIdx w)) ?_)
  unfold res_main_v3
  exact rowVec_apply (V0 (Proc.devRef .tc main_arg1)) (1 : Fin 2) _ rfl slices_S2x800000_S1x800000_1_0 shapeCasts_S1x800000_S800000 e

/-- Layer 0 of the reference, at any features h: the reference's layer term at layer 0's slices of the stacked
    weights is the specification's layer 0. -/
theorem layer0_eq (V0 : Valuation τ sig (Elt Ideal)) (h : Mat 50000 128) :
    refLayer h (res_main_v1 V0) (res_main_v3 V0)
      (shapeCast _ (extractStridedSlice S1x256x128 ![0, 0, 0] (V0 (Proc.devRef .tc main_arg6)) slices_S3x256x128_S1x256x128_0_0_0) shapeCasts_S1x256x128_S256x128)
      (shapeCast _ (extractStridedSlice S1x128 ![0, 0] (V0 (Proc.devRef .tc main_arg7)) slices_S3x128_S1x128_0_0) shapeCasts_S1x128_S128)
      (shapeCast _ (extractStridedSlice S1x128x128 ![0, 0, 0] (V0 (Proc.devRef .tc main_arg8)) slices_S3x128x128_S1x128x128_0_0_0) shapeCasts_S1x128x128_S128x128)
      (shapeCast _ (extractStridedSlice S1x128 ![0, 0] (V0 (Proc.devRef .tc main_arg9)) slices_S3x128_S1x128_0_0) shapeCasts_S1x128_S128)
      (shapeCast _ (extractStridedSlice S1x256x128 ![0, 0, 0] (V0 (Proc.devRef .tc main_arg10)) slices_S3x256x128_S1x256x128_0_0_0) shapeCasts_S1x256x128_S256x128)
      (shapeCast _ (extractStridedSlice S1x128 ![0, 0] (V0 (Proc.devRef .tc main_arg11)) slices_S3x128_S1x128_0_0) shapeCasts_S1x128_S128)
      (shapeCast _ (extractStridedSlice S1x128x128 ![0, 0, 0] (V0 (Proc.devRef .tc main_arg12)) slices_S3x128x128_S1x128x128_0_0_0) shapeCasts_S1x128x128_S128x128)
      (shapeCast _ (extractStridedSlice S1x128 ![0, 0] (V0 (Proc.devRef .tc main_arg13)) slices_S3x128_S1x128_0_0) shapeCasts_S1x128_S128)
      = LR (refS (V0 (Proc.devRef .tc main_arg1))) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) 0 h := by
  rw [refLayer_eq]
  unfold LR
  rw [wslice_eq (K := 256) (V0 (Proc.devRef .tc main_arg6)) 0 ![0, 0, 0] rfl, bslice_eq (V0 (Proc.devRef .tc main_arg7)) 0 ![0, 0] rfl,
    wslice_eq (K := 128) (V0 (Proc.devRef .tc main_arg8)) 0 ![0, 0, 0] rfl, bslice_eq (V0 (Proc.devRef .tc main_arg9)) 0 ![0, 0] rfl,
    wslice_eq (K := 256) (V0 (Proc.devRef .tc main_arg10)) 0 ![0, 0, 0] rfl, bslice_eq (V0 (Proc.devRef .tc main_arg11)) 0 ![0, 0] rfl,
    wslice_eq (K := 128) (V0 (Proc.devRef .tc main_arg12)) 0 ![0, 0, 0] rfl, bslice_eq (V0 (Proc.devRef .tc main_arg13)) 0 ![0, 0] rfl,
    rows1_eq V0, rows3_eq V0]
  rfl

/-- Layer 1 of the reference, at any features h: the reference's layer term at layer 1's slices of the stacked
    weights is the specification's layer 1. -/
theorem layer1_eq (V0 : Valuation τ sig (Elt Ideal)) (h : Mat 50000 128) :
    refLayer h (res_main_v1 V0) (res_main_v3 V0)
      (shapeCast _ (extractStridedSlice S1x256x128 ![1, 0, 0] (V0 (Proc.devRef .tc main_arg6)) slices_S3x256x128_S1x256x128_1_0_0) shapeCasts_S1x256x128_S256x128)
      (shapeCast _ (extractStridedSlice S1x128 ![1, 0] (V0 (Proc.devRef .tc main_arg7)) slices_S3x128_S1x128_1_0) shapeCasts_S1x128_S128)
      (shapeCast _ (extractStridedSlice S1x128x128 ![1, 0, 0] (V0 (Proc.devRef .tc main_arg8)) slices_S3x128x128_S1x128x128_1_0_0) shapeCasts_S1x128x128_S128x128)
      (shapeCast _ (extractStridedSlice S1x128 ![1, 0] (V0 (Proc.devRef .tc main_arg9)) slices_S3x128_S1x128_1_0) shapeCasts_S1x128_S128)
      (shapeCast _ (extractStridedSlice S1x256x128 ![1, 0, 0] (V0 (Proc.devRef .tc main_arg10)) slices_S3x256x128_S1x256x128_1_0_0) shapeCasts_S1x256x128_S256x128)
      (shapeCast _ (extractStridedSlice S1x128 ![1, 0] (V0 (Proc.devRef .tc main_arg11)) slices_S3x128_S1x128_1_0) shapeCasts_S1x128_S128)
      (shapeCast _ (extractStridedSlice S1x128x128 ![1, 0, 0] (V0 (Proc.devRef .tc main_arg12)) slices_S3x128x128_S1x128x128_1_0_0) shapeCasts_S1x128x128_S128x128)
      (shapeCast _ (extractStridedSlice S1x128 ![1, 0] (V0 (Proc.devRef .tc main_arg13)) slices_S3x128_S1x128_1_0) shapeCasts_S1x128_S128)
      = LR (refS (V0 (Proc.devRef .tc main_arg1))) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) 1 h := by
  rw [refLayer_eq]
  unfold LR
  rw [wslice_eq (K := 256) (V0 (Proc.devRef .tc main_arg6)) 1 ![1, 0, 0] rfl, bslice_eq (V0 (Proc.devRef .tc main_arg7)) 1 ![1, 0] rfl,
    wslice_eq (K := 128) (V0 (Proc.devRef .tc main_arg8)) 1 ![1, 0, 0] rfl, bslice_eq (V0 (Proc.devRef .tc main_arg9)) 1 ![1, 0] rfl,
    wslice_eq (K := 256) (V0 (Proc.devRef .tc main_arg10)) 1 ![1, 0, 0] rfl, bslice_eq (V0 (Proc.devRef .tc main_arg11)) 1 ![1, 0] rfl,
    wslice_eq (K := 128) (V0 (Proc.devRef .tc main_arg12)) 1 ![1, 0, 0] rfl, bslice_eq (V0 (Proc.devRef .tc main_arg13)) 1 ![1, 0] rfl,
    rows1_eq V0, rows3_eq V0]
  rfl

/-- Layer 2 of the reference, at any features h: the reference's layer term at layer 2's slices of the stacked
    weights is the specification's layer 2. -/
theorem layer2_eq (V0 : Valuation τ sig (Elt Ideal)) (h : Mat 50000 128) :
    refLayer h (res_main_v1 V0) (res_main_v3 V0)
      (shapeCast _ (extractStridedSlice S1x256x128 ![2, 0, 0] (V0 (Proc.devRef .tc main_arg6)) slices_S3x256x128_S1x256x128_2_0_0) shapeCasts_S1x256x128_S256x128)
      (shapeCast _ (extractStridedSlice S1x128 ![2, 0] (V0 (Proc.devRef .tc main_arg7)) slices_S3x128_S1x128_2_0) shapeCasts_S1x128_S128)
      (shapeCast _ (extractStridedSlice S1x128x128 ![2, 0, 0] (V0 (Proc.devRef .tc main_arg8)) slices_S3x128x128_S1x128x128_2_0_0) shapeCasts_S1x128x128_S128x128)
      (shapeCast _ (extractStridedSlice S1x128 ![2, 0] (V0 (Proc.devRef .tc main_arg9)) slices_S3x128_S1x128_2_0) shapeCasts_S1x128_S128)
      (shapeCast _ (extractStridedSlice S1x256x128 ![2, 0, 0] (V0 (Proc.devRef .tc main_arg10)) slices_S3x256x128_S1x256x128_2_0_0) shapeCasts_S1x256x128_S256x128)
      (shapeCast _ (extractStridedSlice S1x128 ![2, 0] (V0 (Proc.devRef .tc main_arg11)) slices_S3x128_S1x128_2_0) shapeCasts_S1x128_S128)
      (shapeCast _ (extractStridedSlice S1x128x128 ![2, 0, 0] (V0 (Proc.devRef .tc main_arg12)) slices_S3x128x128_S1x128x128_2_0_0) shapeCasts_S1x128x128_S128x128)
      (shapeCast _ (extractStridedSlice S1x128 ![2, 0] (V0 (Proc.devRef .tc main_arg13)) slices_S3x128_S1x128_2_0) shapeCasts_S1x128_S128)
      = LR (refS (V0 (Proc.devRef .tc main_arg1))) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) 2 h := by
  rw [refLayer_eq]
  unfold LR
  rw [wslice_eq (K := 256) (V0 (Proc.devRef .tc main_arg6)) 2 ![2, 0, 0] rfl, bslice_eq (V0 (Proc.devRef .tc main_arg7)) 2 ![2, 0] rfl,
    wslice_eq (K := 128) (V0 (Proc.devRef .tc main_arg8)) 2 ![2, 0, 0] rfl, bslice_eq (V0 (Proc.devRef .tc main_arg9)) 2 ![2, 0] rfl,
    wslice_eq (K := 256) (V0 (Proc.devRef .tc main_arg10)) 2 ![2, 0, 0] rfl, bslice_eq (V0 (Proc.devRef .tc main_arg11)) 2 ![2, 0] rfl,
    wslice_eq (K := 128) (V0 (Proc.devRef .tc main_arg12)) 2 ![2, 0, 0] rfl, bslice_eq (V0 (Proc.devRef .tc main_arg13)) 2 ![2, 0] rfl,
    rows1_eq V0, rows3_eq V0]
  rfl

/-- The encoder: x · enc_w + enc_b. -/
theorem v7_eq (V0 : Valuation τ sig (Elt Ideal)) :
    res_main_v7 V0 = lin (V0 (Proc.devRef .tc main_arg0)) (V0 (Proc.devRef .tc main_arg2)) (rowOf (V0 (Proc.devRef .tc main_arg3))) := by
  unfold res_main_v7
  rw [bcastRow_eq bcast_S128_S1x128_1,
    dense_eq dot_S50000x16_S16x128_S50000x128_1_0_0_1_n_n rfl rfl (fun _ _ => rfl) (fun _ _ => rfl) (fun _ _ => rfl) (fun _ _ => rfl) bcast_S1x128_S50000x128_0_1]

/-- The features after layer 0. -/
theorem v63_eq (V0 : Valuation τ sig (Elt Ideal)) :
    res_main_v63 V0 = LR (refS (V0 (Proc.devRef .tc main_arg1))) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) 0 (res_main_v7 V0) :=
  (show res_main_v63 V0 = refLayer (res_main_v7 V0) (res_main_v1 V0) (res_main_v3 V0)
      (shapeCast _ (extractStridedSlice S1x256x128 ![0, 0, 0] (V0 (Proc.devRef .tc main_arg6)) slices_S3x256x128_S1x256x128_0_0_0) shapeCasts_S1x256x128_S256x128)
      (shapeCast _ (extractStridedSlice S1x128 ![0, 0] (V0 (Proc.devRef .tc main_arg7)) slices_S3x128_S1x128_0_0) shapeCasts_S1x128_S128)
      (shapeCast _ (extractStridedSlice S1x128x128 ![0, 0, 0] (V0 (Proc.devRef .tc main_arg8)) slices_S3x128x128_S1x128x128_0_0_0) shapeCasts_S1x128x128_S128x128)
      (shapeCast _ (extractStridedSlice S1x128 ![0, 0] (V0 (Proc.devRef .tc main_arg9)) slices_S3x128_S1x128_0_0) shapeCasts_S1x128_S128)
      (shapeCast _ (extractStridedSlice S1x256x128 ![0, 0, 0] (V0 (Proc.devRef .tc main_arg10)) slices_S3x256x128_S1x256x128_0_0_0) shapeCasts_S1x256x128_S256x128)
      (shapeCast _ (extractStridedSlice S1x128 ![0, 0] (V0 (Proc.devRef .tc main_arg11)) slices_S3x128_S1x128_0_0) shapeCasts_S1x128_S128)
      (shapeCast _ (extractStridedSlice S1x128x128 ![0, 0, 0] (V0 (Proc.devRef .tc main_arg12)) slices_S3x128x128_S1x128x128_0_0_0) shapeCasts_S1x128x128_S128x128)
      (shapeCast _ (extractStridedSlice S1x128 ![0, 0] (V0 (Proc.devRef .tc main_arg13)) slices_S3x128_S1x128_0_0) shapeCasts_S1x128_S128) from by unfold res_main_v63 refLayer; rfl).trans (layer0_eq V0 _)

/-- The features after layer 1. -/
theorem v119_eq (V0 : Valuation τ sig (Elt Ideal)) :
    res_main_v119 V0 = LR (refS (V0 (Proc.devRef .tc main_arg1))) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) 1 (res_main_v63 V0) :=
  (show res_main_v119 V0 = refLayer (res_main_v63 V0) (res_main_v1 V0) (res_main_v3 V0)
      (shapeCast _ (extractStridedSlice S1x256x128 ![1, 0, 0] (V0 (Proc.devRef .tc main_arg6)) slices_S3x256x128_S1x256x128_1_0_0) shapeCasts_S1x256x128_S256x128)
      (shapeCast _ (extractStridedSlice S1x128 ![1, 0] (V0 (Proc.devRef .tc main_arg7)) slices_S3x128_S1x128_1_0) shapeCasts_S1x128_S128)
      (shapeCast _ (extractStridedSlice S1x128x128 ![1, 0, 0] (V0 (Proc.devRef .tc main_arg8)) slices_S3x128x128_S1x128x128_1_0_0) shapeCasts_S1x128x128_S128x128)
      (shapeCast _ (extractStridedSlice S1x128 ![1, 0] (V0 (Proc.devRef .tc main_arg9)) slices_S3x128_S1x128_1_0) shapeCasts_S1x128_S128)
      (shapeCast _ (extractStridedSlice S1x256x128 ![1, 0, 0] (V0 (Proc.devRef .tc main_arg10)) slices_S3x256x128_S1x256x128_1_0_0) shapeCasts_S1x256x128_S256x128)
      (shapeCast _ (extractStridedSlice S1x128 ![1, 0] (V0 (Proc.devRef .tc main_arg11)) slices_S3x128_S1x128_1_0) shapeCasts_S1x128_S128)
      (shapeCast _ (extractStridedSlice S1x128x128 ![1, 0, 0] (V0 (Proc.devRef .tc main_arg12)) slices_S3x128x128_S1x128x128_1_0_0) shapeCasts_S1x128x128_S128x128)
      (shapeCast _ (extractStridedSlice S1x128 ![1, 0] (V0 (Proc.devRef .tc main_arg13)) slices_S3x128_S1x128_1_0) shapeCasts_S1x128_S128) from by unfold res_main_v119 refLayer; rfl).trans (layer1_eq V0 _)

/-- The term the reference's run leaves in its result buffer, as a function of the contents V0 of the arguments
    (the generated run states its post with this term written out). -/
def resTerm {F : FTy → Type} [FloatOps F] (V0 : Valuation τ sig (Elt F)) :
    (Proc.devRef .tc main_v179 : DevRef τ sig).ty.Contents (Elt F) :=
  addf (Host.dotGeneral dot_S50000x128_S128x3_S50000x3_1_0_0_1_n_n none (addf (res_main_v119 V0) (addf (Host.dotGeneral dot_S50000x128_S128x128_S50000x128_1_0_0_1_n_n none (maximumf (addf (Host.dotGeneral dot_S50000x256_S256x128_S50000x128_1_0_0_1_n_n none (concatenate S50000x256 1 [⟨S50000x128, (res_main_v119 V0)⟩, ⟨S50000x128, (Host.scatterAdd scatter_S50000x128_S800000x1_S800000x128_1_0_0_1 (broadcastInDim S50000x128 ![] bcast_S_S50000x128 (constant S_ .f32 0x00000000#32)) (broadcastInDim S800000x1 ![0] bcast_S800000_S800000x1_0 (res_main_v3 V0)) (addf (Host.dotGeneral dot_S800000x128_S128x128_S800000x128_1_0_0_1_n_n none (maximumf (addf (Host.dotGeneral dot_S800000x256_S256x128_S800000x128_1_0_0_1_n_n none (concatenate S800000x256 1 [⟨S800000x128, (Host.gather gather_S50000x128_S800000x1_S800000x128_1_0_n_n_0_1_1128 (res_main_v119 V0) (broadcastInDim S800000x1 ![0] bcast_S800000_S800000x1_0 (select (cmpi .slt (res_main_v1 V0) (broadcastInDim S800000 ![] bcast_S_S800000 (constantI S_ 32 0#32))) (addi (res_main_v1 V0) (broadcastInDim S800000 ![] bcast_S_S800000 (constantI S_ 32 50000#32))) (res_main_v1 V0))))⟩, ⟨S800000x128, (Host.gather gather_S50000x128_S800000x1_S800000x128_1_0_n_n_0_1_1128 (res_main_v119 V0) (broadcastInDim S800000x1 ![0] bcast_S800000_S800000x1_0 (select (cmpi .slt (res_main_v3 V0) (broadcastInDim S800000 ![] bcast_S_S800000 (constantI S_ 32 0#32))) (addi (res_main_v3 V0) (broadcastInDim S800000 ![] bcast_S_S800000 (constantI S_ 32 50000#32))) (res_main_v3 V0))))⟩] concatenates_S800000x128_S800000x128_S800000x256_d1) (shapeCast _ (extractStridedSlice S1x256x128 ![2, 0, 0] (V0 (Proc.devRef .tc main_arg6)) slices_S3x256x128_S1x256x128_2_0_0) shapeCasts_S1x256x128_S256x128)) (broadcastInDim S800000x128 ![0, 1] bcast_S1x128_S800000x128_0_1 (broadcastInDim S1x128 ![1] bcast_S128_S1x128_1 (shapeCast _ (extractStridedSlice S1x128 ![2, 0] (V0 (Proc.devRef .tc main_arg7)) slices_S3x128_S1x128_2_0) shapeCasts_S1x128_S128)))) (broadcastInDim S800000x128 ![] bcast_S_S800000x128 (constant S_ .f32 0x00000000#32))) (shapeCast _ (extractStridedSlice S1x128x128 ![2, 0, 0] (V0 (Proc.devRef .tc main_arg8)) slices_S3x128x128_S1x128x128_2_0_0) shapeCasts_S1x128x128_S128x128)) (broadcastInDim S800000x128 ![0, 1] bcast_S1x128_S800000x128_0_1 (broadcastInDim S1x128 ![1] bcast_S128_S1x128_1 (shapeCast _ (extractStridedSlice S1x128 ![2, 0] (V0 (Proc.devRef .tc main_arg9)) slices_S3x128_S1x128_2_0) shapeCasts_S1x128_S128)))))⟩] concatenates_S50000x128_S50000x128_S50000x256_d1) (shapeCast _ (extractStridedSlice S1x256x128 ![2, 0, 0] (V0 (Proc.devRef .tc main_arg10)) slices_S3x256x128_S1x256x128_2_0_0) shapeCasts_S1x256x128_S256x128)) (broadcastInDim S50000x128 ![0, 1] bcast_S1x128_S50000x128_0_1 (broadcastInDim S1x128 ![1] bcast_S128_S1x128_1 (shapeCast _ (extractStridedSlice S1x128 ![2, 0] (V0 (Proc.devRef .tc main_arg11)) slices_S3x128_S1x128_2_0) shapeCasts_S1x128_S128)))) (broadcastInDim S50000x128 ![] bcast_S_S50000x128 (constant S_ .f32 0x00000000#32))) (shapeCast _ (extractStridedSlice S1x128x128 ![2, 0, 0] (V0 (Proc.devRef .tc main_arg12)) slices_S3x128x128_S1x128x128_2_0_0) shapeCasts_S1x128x128_S128x128)) (broadcastInDim S50000x128 ![0, 1] bcast_S1x128_S50000x128_0_1 (broadcastInDim S1x128 ![1] bcast_S128_S1x128_1 (shapeCast _ (extractStridedSlice S1x128 ![2, 0] (V0 (Proc.devRef .tc main_arg13)) slices_S3x128_S1x128_2_0) shapeCasts_S1x128_S128))))) (V0 (Proc.devRef .tc main_arg4))) (broadcastInDim S50000x3 ![0, 1] bcast_S1x3_S50000x3_0_1 (broadcastInDim S1x3 ![1] bcast_S3_S1x3_1 (V0 (Proc.devRef .tc main_arg5))))

/-- The reference's network at the contents V0 of its fourteen arguments. -/
abbrev refNet (V0 : Valuation τ sig (Elt Ideal)) : Mat 50000 3 :=
  netR (refS (V0 (Proc.devRef .tc main_arg1))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))

/-- THE REFERENCE'S RESULT IS THE NETWORK: the term the reference's run leaves in its result buffer, at the contents
    V0 of the arguments, is encoder, three layers, decoder of the specification. -/
theorem result_eq (V0 : Valuation τ sig (Elt Ideal)) : resTerm V0 = refNet V0 := by
  have e2 : resTerm V0
      = addf (Host.dotGeneral (F := Ideal) (φ₁ := .f32) (φ₂ := .f32) dot_S50000x128_S128x3_S50000x3_1_0_0_1_n_n none
          (refLayer (res_main_v119 V0) (res_main_v1 V0) (res_main_v3 V0)
            (shapeCast _ (extractStridedSlice S1x256x128 ![2, 0, 0] (V0 (Proc.devRef .tc main_arg6)) slices_S3x256x128_S1x256x128_2_0_0) shapeCasts_S1x256x128_S256x128)
      (shapeCast _ (extractStridedSlice S1x128 ![2, 0] (V0 (Proc.devRef .tc main_arg7)) slices_S3x128_S1x128_2_0) shapeCasts_S1x128_S128)
      (shapeCast _ (extractStridedSlice S1x128x128 ![2, 0, 0] (V0 (Proc.devRef .tc main_arg8)) slices_S3x128x128_S1x128x128_2_0_0) shapeCasts_S1x128x128_S128x128)
      (shapeCast _ (extractStridedSlice S1x128 ![2, 0] (V0 (Proc.devRef .tc main_arg9)) slices_S3x128_S1x128_2_0) shapeCasts_S1x128_S128)
      (shapeCast _ (extractStridedSlice S1x256x128 ![2, 0, 0] (V0 (Proc.devRef .tc main_arg10)) slices_S3x256x128_S1x256x128_2_0_0) shapeCasts_S1x256x128_S256x128)
      (shapeCast _ (extractStridedSlice S1x128 ![2, 0] (V0 (Proc.devRef .tc main_arg11)) slices_S3x128_S1x128_2_0) shapeCasts_S1x128_S128)
      (shapeCast _ (extractStridedSlice S1x128x128 ![2, 0, 0] (V0 (Proc.devRef .tc main_arg12)) slices_S3x128x128_S1x128x128_2_0_0) shapeCasts_S1x128x128_S128x128)
      (shapeCast _ (extractStridedSlice S1x128 ![2, 0] (V0 (Proc.devRef .tc main_arg13)) slices_S3x128_S1x128_2_0) shapeCasts_S1x128_S128))
          (V0 (Proc.devRef .tc main_arg4)))
        (broadcastInDim S50000x3 ![0, 1] bcast_S1x3_S50000x3_0_1 (broadcastInDim S1x3 ![1] bcast_S3_S1x3_1 (V0 (Proc.devRef .tc main_arg5)))) := by
    unfold resTerm refLayer; rfl
  rw [e2, layer2_eq, v119_eq, v63_eq, v7_eq, bcastRow_eq bcast_S3_S1x3_1,
    dense_eq dot_S50000x128_S128x3_S50000x3_1_0_0_1_n_n rfl rfl (fun _ _ => rfl) (fun _ _ => rfl) (fun _ _ => rfl) (fun _ _ => rfl) bcast_S1x3_S50000x3_0_1]
  rfl

end Cert.ReferenceIdeal.RefValue

end
-- ==== Proof.lean ====
/-
  The certificate of a message-passing network: encoder, three layers, decoder.

  Both programs compute h₀ = x · enc_w + enc_b, three times h ← h + nodeMLP (cat h agg) with agg the per-destination
  sum of the messages edgeMLP (cat h[src] h[dst]), and h₃ · dec_w + dec_b. The reference forms the concatenations and
  multiplies by the whole first weight of each MLP. The kernel multiplies by the two halves of that weight apart: in
  the node MLP inside one launch, in the edge MLP once per NODE in a projection launch (p = h · top, q = h · bottom)
  whose rows the host then gathers per edge, before a second launch adds them, rectifies and applies the second
  weight. At the extended reals a float format change is the identity and every product is a plain finite sum, so
  the two agree by regrouping a sum over 256 indices as its first 128 plus its last 128 and by reading a row of a
  product as the product of the row: no entry needs to be finite, and the precondition is not opened.

  The kernel program's run is read off its nineteen segments: the result buffer at the last boundary's contents
  (KernelRun), each launch's output array as one whole-array function of its input arrays (RegionProj, RegionEdge,
  RegionNode), each host stretch as the specification's functions (KernelWeights), chained layer by layer
  (KernelValue). The reference's run is its generated term read as the same network (RefValue). The frames of the
  two kernel programs are the generated ones; the reference's frame is its run with the result dropped; the ideal
  pass rewrote nothing, so the idealization claim is trivial.
-/
import proofs.«134322_j88562225643709_2_alg».proof.Defs
import proofs.«134322_j88562225643709_2_alg».proof.Proof.Gen.Kernel
import proofs.«134322_j88562225643709_2_alg».proof.Proof.Gen.Kernel.Frame
import proofs.«134322_j88562225643709_2_alg».proof.Proof.Gen.KernelIdeal
import proofs.«134322_j88562225643709_2_alg».proof.Proof.Gen.KernelIdeal.Frame
import proofs.«134322_j88562225643709_2_alg».proof.Proof.Gen.ReferenceIdeal
import proofs.«134322_j88562225643709_2_alg».proof.Proof.Gen.Pre_finite_inputs
import proofs.«134322_j88562225643709_2_alg».proof.Proof.Gen.ReferenceIdeal.Run
import proofs.«134322_j88562225643709_2_alg».proof.Proof.KernelRun
import proofs.«134322_j88562225643709_2_alg».proof.Proof.KernelValue
import proofs.«134322_j88562225643709_2_alg».proof.Proof.RefValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the specification at the (agreeing) argument arrays: the kernel program by
    its segments read layer by layer and the layer law, the reference by its generated run read as the network. -/
theorem algebraic : Cert.algebraic_KernelIdeal_ReferenceIdeal := by
  intro m ρ m' ρ' _ hagree
  refine ⟨fun c => Cert.Mpnn.netR (Cert.KernelIdeal.Chain.SK m ρ c) (Cert.KernelIdeal.Chain.A0 m ρ c) (Cert.KernelIdeal.Chain.A1 m ρ c) (Cert.KernelIdeal.Chain.A2 m ρ c) (Cert.KernelIdeal.Chain.A3 m ρ c) (Cert.KernelIdeal.Chain.A4 m ρ c) (Cert.KernelIdeal.Chain.A5 m ρ c) (Cert.KernelIdeal.Chain.A6 m ρ c) (Cert.KernelIdeal.Chain.A7 m ρ c) (Cert.KernelIdeal.Chain.A8 m ρ c) (Cert.KernelIdeal.Chain.A9 m ρ c) (Cert.KernelIdeal.Chain.A10 m ρ c) (Cert.KernelIdeal.Chain.A11 m ρ c) (Cert.KernelIdeal.Chain.A12 m ρ c) (Cert.KernelIdeal.Chain.A13 m ρ c), ?_, ?_⟩
  · exact (θ_run Cert.KernelIdeal.defs _ _).mono
      (fun r h c => ⟨(h c).1.trans ((Cert.KernelIdeal.Chain.kernel_value m ρ c).trans (Cert.Mpnn.net_law ..)), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    refine (Cert.ReferenceIdeal.RefValue.result_eq (StableHlo.launchContents m' c)).trans ?_
    have h0 : StableHlo.launchContents m' c (Proc.devRef .tc Cert.ReferenceIdeal.main_arg0) = Cert.KernelIdeal.Chain.A0 m ρ c := e0
    have h1 : StableHlo.launchContents m' c (Proc.devRef .tc Cert.ReferenceIdeal.main_arg1) = Cert.KernelIdeal.Chain.A1 m ρ c := e1
    have h2 : StableHlo.launchContents m' c (Proc.devRef .tc Cert.ReferenceIdeal.main_arg2) = Cert.KernelIdeal.Chain.A2 m ρ c := e2
    have h3 : StableHlo.launchContents m' c (Proc.devRef .tc Cert.ReferenceIdeal.main_arg3) = Cert.KernelIdeal.Chain.A3 m ρ c := e3
    have h4 : StableHlo.launchContents m' c (Proc.devRef .tc Cert.ReferenceIdeal.main_arg4) = Cert.KernelIdeal.Chain.A4 m ρ c := e4
    have h5 : StableHlo.launchContents m' c (Proc.devRef .tc Cert.ReferenceIdeal.main_arg5) = Cert.KernelIdeal.Chain.A5 m ρ c := e5
    have h6 : StableHlo.launchContents m' c (Proc.devRef .tc Cert.ReferenceIdeal.main_arg6) = Cert.KernelIdeal.Chain.A6 m ρ c := e6
    have h7 : StableHlo.launchContents m' c (Proc.devRef .tc Cert.ReferenceIdeal.main_arg7) = Cert.KernelIdeal.Chain.A7 m ρ c := e7
    have h8 : StableHlo.launchContents m' c (Proc.devRef .tc Cert.ReferenceIdeal.main_arg8) = Cert.KernelIdeal.Chain.A8 m ρ c := e8
    have h9 : StableHlo.launchContents m' c (Proc.devRef .tc Cert.ReferenceIdeal.main_arg9) = Cert.KernelIdeal.Chain.A9 m ρ c := e9
    have h10 : StableHlo.launchContents m' c (Proc.devRef .tc Cert.ReferenceIdeal.main_arg10) = Cert.KernelIdeal.Chain.A10 m ρ c := e10
    have h11 : StableHlo.launchContents m' c (Proc.devRef .tc Cert.ReferenceIdeal.main_arg11) = Cert.KernelIdeal.Chain.A11 m ρ c := e11
    have h12 : StableHlo.launchContents m' c (Proc.devRef .tc Cert.ReferenceIdeal.main_arg12) = Cert.KernelIdeal.Chain.A12 m ρ c := e12
    have h13 : StableHlo.launchContents m' c (Proc.devRef .tc Cert.ReferenceIdeal.main_arg13) = Cert.KernelIdeal.Chain.A13 m ρ c := e13
    show Cert.Mpnn.netR (Cert.ReferenceIdeal.RefValue.refS (StableHlo.launchContents m' c (Proc.devRef .tc Cert.ReferenceIdeal.main_arg1))) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) = _
    rw [h0, h1, h2, h3, h4, h5, h6, h7, h8, h9, h10, h11, h12, h13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
